-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part3 {F : FTy → Type} [FloatOps F] (main_arg13 : FVec F S4x64 .f32) (main_arg14 : FVec F S4x64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  main_v63

def fn_part2 {F : FTy → Type} [FloatOps F] (main_arg9 : FVec F S4x128x64 .f32) (main_arg10 : FVec F S4x64 .f32) (main_arg11 : FVec F S4x64 .f32) (main_arg12 : FVec F S4x64 .f32) (main_arg13 : FVec F S4x64 .f32) (main_arg14 : FVec F S4x64 .f32) (main_v33 : IVec S_ 1) : IVec S_ 1 :=
  let main_v34 : FVec F S4x128x64 .f32 := Host.absf main_arg9
  let main_cst_12 : FVec F S_ .f32 := constant S_ .f32 0x7F800000#32
  let main_v35 : FVec F S4x128x64 .f32 := broadcastInDim S4x128x64 ![] bcast_S_S4x128x64 main_cst_12
  let main_v36 : IVec S4x128x64 1 := cmpf .olt main_v34 main_v35
  let main_c_13 : IVec S_ 1 := constantI S_ 1 1#1
  let main_v37 : IVec S_ 1 := (fun x v => Host.reduce IntOp.andi x v reducesTo_S4x128x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64 .f32 := Host.absf main_arg11
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_v48 main_v49 main_v50

def fn_part1 {F : FTy → Type} [FloatOps F] (main_arg6 : FVec F S4x128 .f32) (main_arg7 : FVec F S4x128 .f32) (main_arg8 : FVec F S4x128 .f32) (main_arg9 : FVec F S4x128x64 .f32) (main_arg10 : FVec F S4x64 .f32) (main_arg11 : FVec F S4x64 .f32) (main_arg12 : FVec F S4x64 .f32) (main_arg13 : FVec F S4x64 .f32) (main_arg14 : FVec F S4x64 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1600000 32) (main_arg2 : IVec S100000 32) (main_arg3 : FVec F S4x64x128 .f32) (main_arg4 : FVec F S4x128 .f32) (main_arg5 : FVec F S4x128 .f32) (main_arg6 : FVec F S4x128 .f32) (main_arg7 : FVec F S4x128 .f32) (main_arg8 : FVec F S4x128 .f32) (main_arg9 : FVec F S4x128x64 .f32) (main_arg10 : FVec F S4x64 .f32) (main_arg11 : FVec F S4x64 .f32) (main_arg12 : FVec F S4x64 .f32) (main_arg13 : FVec F S4x64 .f32) (main_arg14 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x128 .f32 := Host.absf main_arg3
  let main_cst_0 : FVec F S_ .f32 := constant S_ .f32 0x7F800000#32
  let main_v5 : FVec F S4x64x128 .f32 := broadcastInDim S4x64x128 ![] bcast_S_S4x64x128 main_cst_0
  let main_v6 : IVec S4x64x128 1 := cmpf .olt main_v4 main_v5
  let main_c_1 : IVec S_ 1 := constantI S_ 1 1#1
  let main_v7 : IVec S_ 1 := (fun x v => Host.reduce IntOp.andi x v reducesTo_S4x64x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S4000x64 : Shape := ⟨2, ![4000, 64]⟩
abbrev S4000x128 : Shape := ⟨2, ![4000, 128]⟩
abbrev S512x64 : Shape := ⟨2, ![512, 64]⟩
abbrev S100000x1 : Shape := ⟨2, ![100000, 1]⟩
abbrev S512x1 : Shape := ⟨2, ![512, 1]⟩

abbrev nBuf : Space → Nat
  | .hbm => 226
  | .vmem => 72
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S4x64x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S4x128x64, .f32⟩
  | 10 => ⟨S4x64, .f32⟩
  | 11 => ⟨S4x64, .f32⟩
  | 12 => ⟨S4x64, .f32⟩
  | 13 => ⟨S4x64, .f32⟩
  | 14 => ⟨S4x64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S1x64x128, .f32⟩
  | 33 => ⟨S64x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128x64, .f32⟩
  | 45 => ⟨S128x64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S1x64x128, .f32⟩
  | 81 => ⟨S64x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128x64, .f32⟩
  | 93 => ⟨S128x64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S1x64x128, .f32⟩
  | 1 => ⟨S64x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128x64, .f32⟩
  | 13 => ⟨S128x64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S1x64, .f32⟩
  | 21 => ⟨S64, .f32⟩
  | 22 => ⟨S1x64, .f32⟩
  | 23 => ⟨S64, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S1x64x128, .f32⟩
  | 49 => ⟨S64x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128x64, .f32⟩
  | 61 => ⟨S128x64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S100000x64, .f32⟩
  | 83 => ⟨S_, .f32⟩
  | 84 => ⟨S512x64, .f32⟩
  | 85 => ⟨S100000x1, .i32⟩
  | 86 => ⟨S512x64, .f32⟩
  | 87 => ⟨S_, .f32⟩
  | 88 => ⟨S100000x1, .f32⟩
  | 89 => ⟨S_, .f32⟩
  | 90 => ⟨S512x1, .f32⟩
  | 91 => ⟨S100000x1, .i32⟩
  | 92 => ⟨S512x1, .f32⟩
  | 93 => ⟨S_, .f32⟩
  | 94 => ⟨S512x1, .f32⟩
  | 95 => ⟨S512x1, .f32⟩
  | 96 => ⟨S512x64, .f32⟩
  | 97 => ⟨S512x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S64x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S64x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S128x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S4000x64, .f32⟩
  | .local _ .vmem, ⟨71, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_1 : Ref sig .tc := ⟨.hbm, 67, rfl⟩
abbrev main_v49 : Ref sig .tc := ⟨.hbm, 68, rfl⟩
abbrev main_v50 : Ref sig .tc := ⟨.hbm, 69, rfl⟩
abbrev main_c_2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_c_4 : Ref sig .tc := ⟨.hbm, 115, rfl⟩
abbrev main_v94 : Ref sig .tc := ⟨.hbm, 116, rfl⟩
abbrev main_v95 : Ref sig .tc := ⟨.hbm, 117, rfl⟩
abbrev main_c_5 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_6 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_c_7 : Ref sig .tc := ⟨.hbm, 163, rfl⟩
abbrev main_v139 : Ref sig .tc := ⟨.hbm, 164, rfl⟩
abbrev main_v140 : Ref sig .tc := ⟨.hbm, 165, rfl⟩
abbrev main_c_8 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_9 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_10 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_cst_11 : Ref sig .tc := ⟨.hbm, 215, rfl⟩
abbrev main_v187 : Ref sig .tc := ⟨.hbm, 216, rfl⟩
abbrev main_cst_12 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_cst_13 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg7_0 : Ref sig .tc := ⟨.vmem, 63, rfl⟩
abbrev cc3_stg8_0 : Ref sig .tc := ⟨.vmem, 64, rfl⟩
abbrev cc3_stg9_0 : Ref sig .tc := ⟨.vmem, 65, rfl⟩
abbrev cc3_stg10_0 : Ref sig .tc := ⟨.vmem, 66, rfl⟩
abbrev cc3_stg11_0 : Ref sig .tc := ⟨.vmem, 67, rfl⟩
abbrev cc3_stg12_0 : Ref sig .tc := ⟨.vmem, 68, rfl⟩
abbrev cc3_stg13_0 : Ref sig .tc := ⟨.vmem, 69, rfl⟩
abbrev cc3_stg14_0 : Ref sig .tc := ⟨.vmem, 70, rfl⟩
abbrev cc3_stg14_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem3_0 : DmaSem sig := 59
abbrev cc3_sem4_0 : DmaSem sig := 60
abbrev cc3_sem5_0 : DmaSem sig := 61
abbrev cc3_sem6_0 : DmaSem sig := 62
abbrev cc3_sem7_0 : DmaSem sig := 63
abbrev cc3_sem8_0 : DmaSem sig := 64
abbrev cc3_sem9_0 : DmaSem sig := 65
abbrev cc3_sem10_0 : DmaSem sig := 66
abbrev cc3_sem11_0 : DmaSem sig := 67
abbrev cc3_sem12_0 : DmaSem sig := 68
abbrev cc3_sem13_0 : DmaSem sig := 69
abbrev cc3_sem14_0 : DmaSem sig := 70
abbrev cc3_sem14_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S4000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S4000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S4000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  shapeCasts_S128_S1x128 : S128.ShapeCasts S1x128
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S100000x64.size a
  hwx0_14 : ∀ i : grid0.Coords, EltTy.bits .f32 = 32 ∨ (Rect.block (s := S100000x64) S4000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4000x64.size a ≤ S100000x64.size a
  hwx1_14 : ∀ i : grid1.Coords, EltTy.bits .f32 = 32 ∨ (Rect.block (s := S100000x64) S4000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S4000x64.size a ≤ S100000x64.size a
  hwx2_14 : ∀ i : grid2.Coords, EltTy.bits .f32 = 32 ∨ (Rect.block (s := S100000x64) S4000x64.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x64.size a ≤ S128x64.size a
  hwx3_8 : ∀ i : grid3.Coords, EltTy.bits .f32 = 32 ∨ (Rect.block (s := S128x64) S128x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S4000x64.size a ≤ S100000x64.size a
  hwx3_14 : ∀ i : grid3.Coords, EltTy.bits .f32 = 32 ∨ (Rect.block (s := S100000x64) S4000x64.size (cc3_transform_14 i) (hinb3_14 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v48) S4000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v48) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v86) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v87) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v72) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v88) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v89) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v90) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v91) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v92) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v93) S4000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v93) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v129) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v130) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v131) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v132) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v117) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v133) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v134) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v135) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v136) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v137) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v138) S4000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v138) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v148) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v150) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v173) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v174) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v175) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v176) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v177) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v162) S128x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v178) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v179) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v180) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v181) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v182) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v183) S4000x64.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x128 : Shape := ⟨3, ![1, 64, 128]⟩
abbrev S64x128 : Shape := ⟨2, ![64, 128]⟩
abbrev S100000x128 : Shape := ⟨2, ![100000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S512x64 : Shape := ⟨2, ![512, 64]⟩
abbrev S100000x1 : Shape := ⟨2, ![100000, 1]⟩
abbrev S512x1 : Shape := ⟨2, ![512, 1]⟩

abbrev nBuf : Space → Nat
  | .hbm => 367
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S4x64x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S4x128x64, .f32⟩
  | 10 => ⟨S4x64, .f32⟩
  | 11 => ⟨S4x64, .f32⟩
  | 12 => ⟨S4x64, .f32⟩
  | 13 => ⟨S4x64, .f32⟩
  | 14 => ⟨S4x64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S1x64x128, .f32⟩
  | 34 => ⟨S64x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x128x64, .f32⟩
  | 69 => ⟨S128x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S_, .f32⟩
  | 88 => ⟨S64, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x64, .f32⟩
  | 117 => ⟨S1x64x128, .f32⟩
  | 118 => ⟨S64x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x64, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128x64, .f32⟩
  | 25 => ⟨S128x64, .f32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000x64, .f32⟩
  | 73 => ⟨S1x64x128, .f32⟩
  | 74 => ⟨S64x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x64, .f32⟩
  | 109 => ⟨S128x64, .f32⟩
  | 110 => ⟨S100000x64, .f32⟩
  | 111 => ⟨S1x64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_2 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S1x64x128, .f32⟩
  | 30 => ⟨S64x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x128x64, .f32⟩
  | 65 => ⟨S128x64, .f32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S512x64, .f32⟩
  | 98 => ⟨S100000x1, .i32⟩
  | 99 => ⟨S512x64, .f32⟩
  | 100 => ⟨S_, .f32⟩
  | 101 => ⟨S100000x1, .f32⟩
  | 102 => ⟨S_, .f32⟩
  | 103 => ⟨S512x1, .f32⟩
  | 104 => ⟨S100000x1, .i32⟩
  | 105 => ⟨S512x1, .f32⟩
  | 106 => ⟨S_, .f32⟩
  | 107 => ⟨S512x1, .f32⟩
  | 108 => ⟨S512x1, .f32⟩
  | 109 => ⟨S512x64, .f32⟩
  | 110 => ⟨S512x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_2 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_c_3 : Ref sig .tc := ⟨.hbm, 103, rfl⟩
abbrev main_v79 : Ref sig .tc := ⟨.hbm, 104, rfl⟩
abbrev main_v80 : Ref sig .tc := ⟨.hbm, 105, rfl⟩
abbrev main_c_4 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_5 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_6 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_call2_cst : Ref sig .tc := ⟨.hbm, 149, rfl⟩
abbrev main_call2_v0 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_7 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_call3_cst : Ref sig .tc := ⟨.hbm, 184, rfl⟩
abbrev main_call3_v0 : Ref sig .tc := ⟨.hbm, 185, rfl⟩
abbrev main_v153 : Ref sig .tc := ⟨.hbm, 186, rfl⟩
abbrev main_c_8 : Ref sig .tc := ⟨.hbm, 187, rfl⟩
abbrev main_v154 : Ref sig .tc := ⟨.hbm, 188, rfl⟩
abbrev main_v155 : Ref sig .tc := ⟨.hbm, 189, rfl⟩
abbrev main_c_9 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_10 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_cst_11 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_call4_cst : Ref sig .tc := ⟨.hbm, 233, rfl⟩
abbrev main_call4_v0 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_cst_12 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_call5_cst : Ref sig .tc := ⟨.hbm, 268, rfl⟩
abbrev main_call5_v0 : Ref sig .tc := ⟨.hbm, 269, rfl⟩
abbrev main_v228 : Ref sig .tc := ⟨.hbm, 270, rfl⟩
abbrev main_c_13 : Ref sig .tc := ⟨.hbm, 271, rfl⟩
abbrev main_v229 : Ref sig .tc := ⟨.hbm, 272, rfl⟩
abbrev main_v230 : Ref sig .tc := ⟨.hbm, 273, rfl⟩
abbrev main_c_14 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_cst_15 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_cst_16 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_call6_cst : Ref sig .tc := ⟨.hbm, 317, rfl⟩
abbrev main_call6_v0 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_17 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_cst_18 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_cst_19 : Ref sig .tc := ⟨.hbm, 356, rfl⟩
abbrev main_v306 : Ref sig .tc := ⟨.hbm, 357, rfl⟩
abbrev main_cst_20 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_cst_21 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

class Facts : Prop extends Facts₀ where

variable [Facts]
-- ==== Proof.KRun.lean ====
/-
  The kernel program's run, with its result named.

  The program is five stretches of host operations with the four layer kernels between them.  Every weakly
  fair execution ends with each buffer at the contents obtained by folding the segments over the launch
  memory: a host stretch applies its operations, a kernel region replaces its output array by what its grid
  points wrote back.  The statement below reads that final memory at the result buffer as well as at the
  fifteen arguments, which end as launched.
-/
import proofs.«118457_j65111704207428_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents, and every argument as launched. -/
theorem run_result : θ_run defs (onTc (τ := τ) (main (F := F))) ⟨m, fun _ => 0, ρ⟩ (fun r => ∀ c : Dev nD,
      r.2.mem ((c.tc : Thread nD τ).loc main_v194) = W9 m ρ c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v194 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.Hand

end
-- ==== Proof.Params.lean ====
/-
  The network's parameters are stacked over its four layers.  Before each layer the program slices layer
  `ℓ` out of every stacked array and reshapes it to the kernel's operand shape.  Read at one entry, a
  slice adds its offset to the coordinates and a reshape keeps the row-major position, so each operand
  entry is the stacked array's entry in layer `ℓ`.
-/
import Idealize.ShloMosaic.Lib.Pipeline.Value
import Idealize.ShloMosaic.Lib.ValueIdx

noncomputable section

namespace Cert.GinParams

open Idealize.ShloMosaic Idealize.ShloMosaic.ValueIdx

/-- Layer `ℓ` of the stacked [4, 64, 128] first weights, sliced out as [1, 64, 128] and reshaped to [64, 128]:
    its entry `(k, q)` is the stacked array's entry `(ℓ, k, q)`. -/
theorem w1_entry {α : Type} (ℓ : Fin 4) (off : Fin 3 → Nat) (h0 : off 0 = ℓ.val) (h1 : off 1 = 0) (h2 : off 2 = 0)
    (X : (⟨3, ![4, 64, 128]⟩ : Shape).Idx → α)
    (hs : (⟨3, ![4, 64, 128]⟩ : Shape).Slices off (⟨3, ![1, 64, 128]⟩ : Shape))
    (hc : (⟨3, ![1, 64, 128]⟩ : Shape).ShapeCasts (⟨2, ![64, 128]⟩ : Shape)) (k : Fin 64) (q : Fin 128) :
    shapeCast (⟨2, ![64, 128]⟩ : Shape) (extractStridedSlice (⟨3, ![1, 64, 128]⟩ : Shape) off X hs) hc (ix2 k q)
      = X (ix3 ℓ k q) := by
  rw [shapeCast_apply _ hc (ix2 k q) (ix3 0 k q) (by
    rw [Shape.rowMajor_val_three, Shape.rowMajor_val_two]
    show (0 * 64 + k.val) * 128 + q.val = k.val * 128 + q.val; omega)]
  exact extractStridedSlice_apply off X hs (ix3 0 k q) (ix3 ℓ k q) fun a => by
    match a with
    | ⟨0, _⟩ => show ℓ.val = off 0 + 0; omega
    | ⟨1, _⟩ => show k.val = off 1 + k.val; omega
    | ⟨2, _⟩ => show q.val = off 2 + q.val; omega

/-- Layer `ℓ` of the stacked [4, 128, 64] second weights, sliced out as [1, 128, 64] and reshaped to [128, 64]:
    its entry `(q, j)` is the stacked array's entry `(ℓ, q, j)`. -/
theorem w2_entry {α : Type} (ℓ : Fin 4) (off : Fin 3 → Nat) (h0 : off 0 = ℓ.val) (h1 : off 1 = 0) (h2 : off 2 = 0)
    (X : (⟨3, ![4, 128, 64]⟩ : Shape).Idx → α)
    (hs : (⟨3, ![4, 128, 64]⟩ : Shape).Slices off (⟨3, ![1, 128, 64]⟩ : Shape))
    (hc : (⟨3, ![1, 128, 64]⟩ : Shape).ShapeCasts (⟨2, ![128, 64]⟩ : Shape)) (k : Fin 128) (q : Fin 64) :
    shapeCast (⟨2, ![128, 64]⟩ : Shape) (extractStridedSlice (⟨3, ![1, 128, 64]⟩ : Shape) off X hs) hc (ix2 k q)
      = X (ix3 ℓ k q) := by
  rw [shapeCast_apply _ hc (ix2 k q) (ix3 0 k q) (by
    rw [Shape.rowMajor_val_three, Shape.rowMajor_val_two]
    show (0 * 128 + k.val) * 64 + q.val = k.val * 64 + q.val; omega)]
  exact extractStridedSlice_apply off X hs (ix3 0 k q) (ix3 ℓ k q) fun a => by
    match a with
    | ⟨0, _⟩ => show ℓ.val = off 0 + 0; omega
    | ⟨1, _⟩ => show k.val = off 1 + k.val; omega
    | ⟨2, _⟩ => show q.val = off 2 + q.val; omega

/-- Row `ℓ` of a stacked [4, 128] parameter array, sliced out as [1, 128], flattened to [128] and reshaped back to
    [1, 128]: its entry `(0, q)` is the stacked array's entry `(ℓ, q)`. -/
theorem vec128_entry {α : Type} (ℓ : Fin 4) (off : Fin 2 → Nat) (h0 : off 0 = ℓ.val) (h1 : off 1 = 0)
    (X : (⟨2, ![4, 128]⟩ : Shape).Idx → α)
    (hs : (⟨2, ![4, 128]⟩ : Shape).Slices off (⟨2, ![1, 128]⟩ : Shape))
    (hc1 : (⟨2, ![1, 128]⟩ : Shape).ShapeCasts (⟨1, ![128]⟩ : Shape))
    (hc2 : (⟨1, ![128]⟩ : Shape).ShapeCasts (⟨2, ![1, 128]⟩ : Shape)) (q : Fin 128) :
    shapeCast (⟨2, ![1, 128]⟩ : Shape) (shapeCast (⟨1, ![128]⟩ : Shape)
      (extractStridedSlice (⟨2, ![1, 128]⟩ : Shape) off X hs) hc1) hc2 (ix2 0 q) = X (ix2 ℓ q) := by
  rw [shapeCast_apply _ hc2 (ix2 0 q) (ix1 q) (by
    rw [Shape.rowMajor_val_one, Shape.rowMajor_val_two]; show q.val = 0 * 128 + q.val; omega)]
  rw [shapeCast_apply _ hc1 (ix1 q) (ix2 0 q) (by
    rw [Shape.rowMajor_val_one, Shape.rowMajor_val_two]; show 0 * 128 + q.val = q.val; omega)]
  exact extractStridedSlice_apply off X hs (ix2 0 q) (ix2 ℓ q) fun a => by
    match a with
    | ⟨0, _⟩ => show ℓ.val = off 0 + 0; omega
    | ⟨1, _⟩ => show q.val = off 1 + q.val; omega

/-- Row `ℓ` of a stacked [4, 64] parameter array, sliced out as [1, 64], flattened to [64] and reshaped back to
    [1, 64]: its entry `(0, q)` is the stacked array's entry `(ℓ, q)`. -/
theorem vec64_entry {α : Type} (ℓ : Fin 4) (off : Fin 2 → Nat) (h0 : off 0 = ℓ.val) (h1 : off 1 = 0)
    (X : (⟨2, ![4, 64]⟩ : Shape).Idx → α)
    (hs : (⟨2, ![4, 64]⟩ : Shape).Slices off (⟨2, ![1, 64]⟩ : Shape))
    (hc1 : (⟨2, ![1, 64]⟩ : Shape).ShapeCasts (⟨1, ![64]⟩ : Shape))
    (hc2 : (⟨1, ![64]⟩ : Shape).ShapeCasts (⟨2, ![1, 64]⟩ : Shape)) (q : Fin 64) :
    shapeCast (⟨2, ![1, 64]⟩ : Shape) (shapeCast (⟨1, ![64]⟩ : Shape)
      (extractStridedSlice (⟨2, ![1, 64]⟩ : Shape) off X hs) hc1) hc2 (ix2 0 q) = X (ix2 ℓ q) := by
  rw [shapeCast_apply _ hc2 (ix2 0 q) (ix1 q) (by
    rw [Shape.rowMajor_val_one, Shape.rowMajor_val_two]; show q.val = 0 * 64 + q.val; omega)]
  rw [shapeCast_apply _ hc1 (ix1 q) (ix2 0 q) (by
    rw [Shape.rowMajor_val_one, Shape.rowMajor_val_two]; show 0 * 64 + q.val = q.val; omega)]
  exact extractStridedSlice_apply off X hs (ix2 0 q) (ix2 ℓ q) fun a => by
    match a with
    | ⟨0, _⟩ => show ℓ.val = off 0 + 0; omega
    | ⟨1, _⟩ => show q.val = off 1 + q.val; omega

end Cert.GinParams

end
-- ==== Proof.Spec.lean ====
/-
  The mathematics both programs compute, stated once and over no program.

  One layer of the network acts on each node (row) separately.  For a node with feature row `h` and
  aggregated neighbour row `a` (both of length 64) the layer forms `z = h + a`, then

    hidden q = max (bn (∑ k, z k * w1 k q + b1 q)) 0            (q < 128)
    out    j =      bn (∑ q, hidden q * w2 q j + b2 j)           (j < 64)

  with a final `max · 0` on every layer but the last.  Here `bn z = (z - m) * rsqrt (v + ε) * g + b` is
  batch normalisation with running statistics, applied column by column, and `ε` is the single float
  constant both programs add to the variance.  The constant and the zero of the two maxima are kept as the
  extended reals their words denote: the same word occurs on both sides, so it is never evaluated.
-/
import Idealize.ShloMosaic.PureOps.Ideal
import Idealize.ShloMosaic.Lib.ValueIdx

noncomputable section

namespace Cert.GinSpec

open Idealize.ShloMosaic

/-- The variance offset of the batch normalisation, as the extended real its word denotes. -/
abbrev eps : EReal := Ideal.ofBits .f32 0x3727C5AC#32

/-- The zero the two rectifications compare against, as the extended real its word denotes. -/
abbrev zero : EReal := Ideal.ofBits .f32 0x00000000#32

/-- Batch normalisation of one entry with running mean `m`, running variance `v`, scale `g` and shift `b`. -/
def bn (z m v g b : EReal) : EReal := (z - m) * Ideal.rsqrt (v + eps) * g + b

/-- Hidden unit `q` of a node: the first affine map of `h + a`, normalised and rectified. -/
def hidden (h a : Fin 64 → EReal) (w1 : Fin 64 → Fin 128 → EReal) (b1 g1 bt1 m1 v1 : Fin 128 → EReal)
    (q : Fin 128) : EReal :=
  max (bn ((∑ k : Fin 64, (h k + a k) * w1 k q) + b1 q) (m1 q) (v1 q) (g1 q) (bt1 q)) zero

/-- Output `j` of a node before the layer's last rectification: the second affine map of the hidden
    units, normalised. -/
def pre (h a : Fin 64 → EReal) (w1 : Fin 64 → Fin 128 → EReal) (b1 g1 bt1 m1 v1 : Fin 128 → EReal)
    (w2 : Fin 128 → Fin 64 → EReal) (b2 g2 bt2 m2 v2 : Fin 64 → EReal) (j : Fin 64) : EReal :=
  bn ((∑ q : Fin 128, hidden h a w1 b1 g1 bt1 m1 v1 q * w2 q j) + b2 j) (m2 j) (v2 j) (g2 j) (bt2 j)

/-- Output `j` of a node: rectified on every layer but the last. -/
def out (relu : Bool) (h a : Fin 64 → EReal) (w1 : Fin 64 → Fin 128 → EReal) (b1 g1 bt1 m1 v1 : Fin 128 → EReal)
    (w2 : Fin 128 → Fin 64 → EReal) (b2 g2 bt2 m2 v2 : Fin 64 → EReal) (j : Fin 64) : EReal :=
  if relu then max (pre h a w1 b1 g1 bt1 m1 v1 w2 b2 g2 bt2 m2 v2 j) zero
  else pre h a w1 b1 g1 bt1 m1 v1 w2 b2 g2 bt2 m2 v2 j

theorem out_true (h a : Fin 64 → EReal) (w1 : Fin 64 → Fin 128 → EReal) (b1 g1 bt1 m1 v1 : Fin 128 → EReal)
    (w2 : Fin 128 → Fin 64 → EReal) (b2 g2 bt2 m2 v2 : Fin 64 → EReal) (j : Fin 64) :
    out true h a w1 b1 g1 bt1 m1 v1 w2 b2 g2 bt2 m2 v2 j
      = max (pre h a w1 b1 g1 bt1 m1 v1 w2 b2 g2 bt2 m2 v2 j) zero := rfl

theorem out_false (h a : Fin 64 → EReal) (w1 : Fin 64 → Fin 128 → EReal) (b1 g1 bt1 m1 v1 : Fin 128 → EReal)
    (w2 : Fin 128 → Fin 64 → EReal) (b2 g2 bt2 m2 v2 : Fin 64 → EReal) (j : Fin 64) :
    out false h a w1 b1 g1 bt1 m1 v1 w2 b2 g2 bt2 m2 v2 j
      = pre h a w1 b1 g1 bt1 m1 v1 w2 b2 g2 bt2 m2 v2 j := rfl

/-! ## The layer on whole arrays

  A layer maps the [100000, 64] array of node features and the array of aggregated neighbour features to
  the next array of node features, one node at a time.  `layerArr` takes the layer's own parameter arrays
  ([64, 128], [1, 128], [128, 64], [1, 64]); `layerOf ℓ` takes the network's stacked parameter arrays
  ([4, 64, 128], [4, 128], [4, 128, 64], [4, 64]) and reads layer `ℓ` of each. -/

open Idealize.ShloMosaic.ValueIdx

/-- Row `r` of a [100000, 64] array. -/
abbrev rowOf (H : (⟨2, ![100000, 64]⟩ : Shape).Idx → EReal) (r : Fin 100000) : Fin 64 → EReal := fun k => H (ix2 r k)

/-- One layer on whole arrays, from the layer's own parameter arrays. -/
def layerArr (relu : Bool) (H A : (⟨2, ![100000, 64]⟩ : Shape).Idx → EReal)
    (w1 : (⟨2, ![64, 128]⟩ : Shape).Idx → EReal) (b1 g1 bt1 m1 v1 : (⟨2, ![1, 128]⟩ : Shape).Idx → EReal)
    (w2 : (⟨2, ![128, 64]⟩ : Shape).Idx → EReal) (b2 g2 bt2 m2 v2 : (⟨2, ![1, 64]⟩ : Shape).Idx → EReal) :
    (⟨2, ![100000, 64]⟩ : Shape).Idx → EReal := fun i =>
  out relu (rowOf H ⟨(i 0).val, (i 0).isLt⟩) (rowOf A ⟨(i 0).val, (i 0).isLt⟩) (fun k q => w1 (ix2 k q))
    (fun q => b1 (ix2 0 q)) (fun q => g1 (ix2 0 q)) (fun q => bt1 (ix2 0 q)) (fun q => m1 (ix2 0 q)) (fun q => v1 (ix2 0 q))
    (fun q j => w2 (ix2 q j))
    (fun j => b2 (ix2 0 j)) (fun j => g2 (ix2 0 j)) (fun j => bt2 (ix2 0 j)) (fun j => m2 (ix2 0 j)) (fun j => v2 (ix2 0 j))
    ⟨(i 1).val, (i 1).isLt⟩

/-- Layer `ℓ` of the network on whole arrays, from the stacked parameter arrays. -/
def layerOf (relu : Bool) (ℓ : Fin 4) (H A : (⟨2, ![100000, 64]⟩ : Shape).Idx → EReal)
    (W1 : (⟨3, ![4, 64, 128]⟩ : Shape).Idx → EReal) (B1 G1 T1 M1 V1 : (⟨2, ![4, 128]⟩ : Shape).Idx → EReal)
    (W2 : (⟨3, ![4, 128, 64]⟩ : Shape).Idx → EReal) (B2 G2 T2 M2 V2 : (⟨2, ![4, 64]⟩ : Shape).Idx → EReal) :
    (⟨2, ![100000, 64]⟩ : Shape).Idx → EReal := fun i =>
  out relu (rowOf H ⟨(i 0).val, (i 0).isLt⟩) (rowOf A ⟨(i 0).val, (i 0).isLt⟩) (fun k q => W1 (ix3 ℓ k q))
    (fun q => B1 (ix2 ℓ q)) (fun q => G1 (ix2 ℓ q)) (fun q => T1 (ix2 ℓ q)) (fun q => M1 (ix2 ℓ q)) (fun q => V1 (ix2 ℓ q))
    (fun q j => W2 (ix3 ℓ q j))
    (fun j => B2 (ix2 ℓ j)) (fun j => G2 (ix2 ℓ j)) (fun j => T2 (ix2 ℓ j)) (fun j => M2 (ix2 ℓ j)) (fun j => V2 (ix2 ℓ j))
    ⟨(i 1).val, (i 1).isLt⟩

/-- A layer's own parameter arrays that are layer `ℓ` of the stacked ones, entry by entry, give layer `ℓ`. -/
theorem layerArr_eq_layerOf (relu : Bool) (ℓ : Fin 4) (H A : (⟨2, ![100000, 64]⟩ : Shape).Idx → EReal)
    (w1 : (⟨2, ![64, 128]⟩ : Shape).Idx → EReal) (b1 g1 bt1 m1 v1 : (⟨2, ![1, 128]⟩ : Shape).Idx → EReal)
    (w2 : (⟨2, ![128, 64]⟩ : Shape).Idx → EReal) (b2 g2 bt2 m2 v2 : (⟨2, ![1, 64]⟩ : Shape).Idx → EReal)
    (W1 : (⟨3, ![4, 64, 128]⟩ : Shape).Idx → EReal) (B1 G1 T1 M1 V1 : (⟨2, ![4, 128]⟩ : Shape).Idx → EReal)
    (W2 : (⟨3, ![4, 128, 64]⟩ : Shape).Idx → EReal) (B2 G2 T2 M2 V2 : (⟨2, ![4, 64]⟩ : Shape).Idx → EReal)
    (hw1 : ∀ k q, w1 (ix2 k q) = W1 (ix3 ℓ k q))
    (hb1 : ∀ q, b1 (ix2 0 q) = B1 (ix2 ℓ q)) (hg1 : ∀ q, g1 (ix2 0 q) = G1 (ix2 ℓ q)) (ht1 : ∀ q, bt1 (ix2 0 q) = T1 (ix2 ℓ q))
    (hm1 : ∀ q, m1 (ix2 0 q) = M1 (ix2 ℓ q)) (hv1 : ∀ q, v1 (ix2 0 q) = V1 (ix2 ℓ q))
    (hw2 : ∀ q j, w2 (ix2 q j) = W2 (ix3 ℓ q j))
    (hb2 : ∀ j, b2 (ix2 0 j) = B2 (ix2 ℓ j)) (hg2 : ∀ j, g2 (ix2 0 j) = G2 (ix2 ℓ j)) (ht2 : ∀ j, bt2 (ix2 0 j) = T2 (ix2 ℓ j))
    (hm2 : ∀ j, m2 (ix2 0 j) = M2 (ix2 ℓ j)) (hv2 : ∀ j, v2 (ix2 0 j) = V2 (ix2 ℓ j)) :
    layerArr relu H A w1 b1 g1 bt1 m1 v1 w2 b2 g2 bt2 m2 v2
      = layerOf relu ℓ H A W1 B1 G1 T1 M1 V1 W2 B2 G2 T2 M2 V2 := by
  funext i
  unfold layerArr layerOf
  simp only [hw1, hb1, hg1, ht1, hm1, hv1, hw2, hb2, hg2, ht2, hm2, hv2]

/-- The same, with the two input arrays given up to equality. -/
theorem layerArr_eq_layerOf' (relu : Bool) (ℓ : Fin 4) (H A h a : (⟨2, ![100000, 64]⟩ : Shape).Idx → EReal)
    (w1 : (⟨2, ![64, 128]⟩ : Shape).Idx → EReal) (b1 g1 bt1 m1 v1 : (⟨2, ![1, 128]⟩ : Shape).Idx → EReal)
    (w2 : (⟨2, ![128, 64]⟩ : Shape).Idx → EReal) (b2 g2 bt2 m2 v2 : (⟨2, ![1, 64]⟩ : Shape).Idx → EReal)
    (W1 : (⟨3, ![4, 64, 128]⟩ : Shape).Idx → EReal) (B1 G1 T1 M1 V1 : (⟨2, ![4, 128]⟩ : Shape).Idx → EReal)
    (W2 : (⟨3, ![4, 128, 64]⟩ : Shape).Idx → EReal) (B2 G2 T2 M2 V2 : (⟨2, ![4, 64]⟩ : Shape).Idx → EReal)
    (eH : H = h) (eA : A = a)
    (hw1 : ∀ k q, w1 (ix2 k q) = W1 (ix3 ℓ k q))
    (hb1 : ∀ q, b1 (ix2 0 q) = B1 (ix2 ℓ q)) (hg1 : ∀ q, g1 (ix2 0 q) = G1 (ix2 ℓ q)) (ht1 : ∀ q, bt1 (ix2 0 q) = T1 (ix2 ℓ q))
    (hm1 : ∀ q, m1 (ix2 0 q) = M1 (ix2 ℓ q)) (hv1 : ∀ q, v1 (ix2 0 q) = V1 (ix2 ℓ q))
    (hw2 : ∀ q j, w2 (ix2 q j) = W2 (ix3 ℓ q j))
    (hb2 : ∀ j, b2 (ix2 0 j) = B2 (ix2 ℓ j)) (hg2 : ∀ j, g2 (ix2 0 j) = G2 (ix2 ℓ j)) (ht2 : ∀ j, bt2 (ix2 0 j) = T2 (ix2 ℓ j))
    (hm2 : ∀ j, m2 (ix2 0 j) = M2 (ix2 ℓ j)) (hv2 : ∀ j, v2 (ix2 0 j) = V2 (ix2 ℓ j)) :
    layerArr relu H A w1 b1 g1 bt1 m1 v1 w2 b2 g2 bt2 m2 v2
      = layerOf relu ℓ h a W1 B1 G1 T1 M1 V1 W2 B2 G2 T2 M2 V2 := by
  subst eH eA
  exact layerArr_eq_layerOf relu ℓ H A w1 b1 g1 bt1 m1 v1 w2 b2 g2 bt2 m2 v2 W1 B1 G1 T1 M1 V1 W2 B2 G2 T2 M2 V2
    hw1 hb1 hg1 ht1 hm1 hv1 hw2 hb2 hg2 ht2 hm2 hv2

/-- `layerArr` at an index whose two coordinates are known: the row function of that row, at that column. -/
theorem layerArr_apply_of (relu : Bool) (H A : (⟨2, ![100000, 64]⟩ : Shape).Idx → EReal)
    (w1 : (⟨2, ![64, 128]⟩ : Shape).Idx → EReal) (b1 g1 bt1 m1 v1 : (⟨2, ![1, 128]⟩ : Shape).Idx → EReal)
    (w2 : (⟨2, ![128, 64]⟩ : Shape).Idx → EReal) (b2 g2 bt2 m2 v2 : (⟨2, ![1, 64]⟩ : Shape).Idx → EReal)
    (i : (⟨2, ![100000, 64]⟩ : Shape).Idx) (r : Fin 100000) (j : Fin 64) (hr : (i 0).val = r.val) (hj : (i 1).val = j.val) :
    layerArr relu H A w1 b1 g1 bt1 m1 v1 w2 b2 g2 bt2 m2 v2 i
      = out relu (rowOf H r) (rowOf A r) (fun k q => w1 (ix2 k q))
          (fun q => b1 (ix2 0 q)) (fun q => g1 (ix2 0 q)) (fun q => bt1 (ix2 0 q)) (fun q => m1 (ix2 0 q)) (fun q => v1 (ix2 0 q))
          (fun q j => w2 (ix2 q j))
          (fun j => b2 (ix2 0 j)) (fun j => g2 (ix2 0 j)) (fun j => bt2 (ix2 0 j)) (fun j => m2 (ix2 0 j)) (fun j => v2 (ix2 0 j)) j := by
  have e0 : (⟨(i 0).val, (i 0).isLt⟩ : Fin 100000) = r := Fin.ext hr
  have e1 : (⟨(i 1).val, (i 1).isLt⟩ : Fin 64) = j := Fin.ext hj
  unfold layerArr
  rw [e0, e1]

/-- `layerOf` at row `r`, column `j`: the row function of row `r`. -/
theorem layerOf_ix2 (relu : Bool) (ℓ : Fin 4) (H A : (⟨2, ![100000, 64]⟩ : Shape).Idx → EReal)
    (W1 : (⟨3, ![4, 64, 128]⟩ : Shape).Idx → EReal) (B1 G1 T1 M1 V1 : (⟨2, ![4, 128]⟩ : Shape).Idx → EReal)
    (W2 : (⟨3, ![4, 128, 64]⟩ : Shape).Idx → EReal) (B2 G2 T2 M2 V2 : (⟨2, ![4, 64]⟩ : Shape).Idx → EReal)
    (r : Fin 100000) (j : Fin 64) :
    layerOf relu ℓ H A W1 B1 G1 T1 M1 V1 W2 B2 G2 T2 M2 V2 (ix2 r j)
      = out relu (rowOf H r) (rowOf A r) (fun k q => W1 (ix3 ℓ k q))
          (fun q => B1 (ix2 ℓ q)) (fun q => G1 (ix2 ℓ q)) (fun q => T1 (ix2 ℓ q)) (fun q => M1 (ix2 ℓ q)) (fun q => V1 (ix2 ℓ q))
          (fun q j => W2 (ix3 ℓ q j))
          (fun j => B2 (ix2 ℓ j)) (fun j => G2 (ix2 ℓ j)) (fun j => T2 (ix2 ℓ j)) (fun j => M2 (ix2 ℓ j)) (fun j => V2 (ix2 ℓ j)) j := rfl

end Cert.GinSpec

end
-- ==== Proof.KGlue.lean ====
/-
  The host operations the two programs share, named once.

  Between the layers both programs gather each edge's source row of the node features and add it into the
  edge's destination row (`agg`), with the same normalisation of negative indices; after the last layer both
  add each node's row into its graph's row and divide by the graph's node count, clamped below by one
  (`pool`).  These are carried as whole functions: the proof compares the values fed to them and never opens
  them, so an edge list or a graph assignment out of range is treated by both programs in the same way.
-/
import proofs.«118457_j65111704207428_1_alg».proof.Proof.Gen.KernelIdeal
import Idealize.ShloMosaic.PureOps.Ideal
import proofs.«118457_j65111704207428_1_alg».proof.Proof.Spec

noncomputable section

namespace Cert.KernelIdeal.Hand

open Cert.KernelIdeal Cert.KernelIdeal.Gen Idealize.ShloMosaic

/-- Integer and float arrays of a shape, at the ideal values. -/
abbrev IArr (S : Shape) := IVec S 32
abbrev FArr (S : Shape) := FVec Ideal S .f32

/-- The edges' source nodes: row 0 of the edge list. -/
def srcK (e : IArr S2x1600000) : IArr S1600000 :=
  shapeCast _ (extractStridedSlice S1x1600000 ![0, 0] e slices_S2x1600000_S1x1600000_0_0) shapeCasts_S1x1600000_S1600000

/-- The edges' destination nodes: row 1 of the edge list. -/
def dstK (e : IArr S2x1600000) : IArr S1600000 :=
  shapeCast _ (extractStridedSlice S1x1600000 ![1, 0] e slices_S2x1600000_S1x1600000_1_0) shapeCasts_S1x1600000_S1600000

/-- Neighbour aggregation: row `d e` receives the sum of the rows `h (s e)` over the edges `e`, a negative
    source index counted from the end. -/
def aggK (h : FArr S100000x64) (s d : IArr S1600000) : FArr S100000x64 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- Mean pooling: each graph's row is the sum of its nodes' rows divided by its node count, the count
    clamped below by one. -/
def poolK (h : FArr S100000x64) (b : IArr S100000) : FArr S512x64 :=
  Host.divf
    (Host.scatterAdd scatter_S512x64_S100000x1_S100000x64_1_0_0_1
      (broadcastInDim S512x64 ![] bcast_S_S512x64 (constant S_ .f32 0x00000000#32))
      (broadcastInDim S100000x1 ![0] bcast_S100000_S100000x1_0 b) h)
    (broadcastInDim S512x64 ![0, 1] bcast_S512x1_S512x64_0_1
      (maximumf
        (Host.scatterAdd scatter_S512x1_S100000x1_S100000x1_1_0_0_1
          (broadcastInDim S512x1 ![] bcast_S_S512x1 (constant S_ .f32 0x00000000#32))
          (broadcastInDim S100000x1 ![0] bcast_S100000_S100000x1_0 b)
          (broadcastInDim S100000x1 ![] bcast_S_S100000x1 (constant S_ .f32 0x3F800000#32)))
        (broadcastInDim S512x1 ![] bcast_S_S512x1 (constant S_ .f32 0x3F800000#32))))

/-- One layer together with the aggregation that feeds it: layer `ℓ` applied to the node features `h` and
    their aggregation along the edge list `e`. -/
def step (relu : Bool) (ℓ : Fin 4) (h : FArr S100000x64) (e : IArr S2x1600000)
    (x3 : FArr S4x64x128) (x4 x5 x6 x7 x8 : FArr S4x128) (x9 : FArr S4x128x64) (x10 x11 x12 x13 x14 : FArr S4x64) :
    FArr S100000x64 :=
  Cert.GinSpec.layerOf relu ℓ h (aggK h (srcK e) (dstK e)) x3 x4 x5 x6 x7 x8 x9 x10 x11 x12 x13 x14

/-- The whole network: four layers, the last without its rectification, then mean pooling by graph `b`. -/
def net (x0 : FArr S100000x64) (e : IArr S2x1600000) (b : IArr S100000)
    (x3 : FArr S4x64x128) (x4 x5 x6 x7 x8 : FArr S4x128) (x9 : FArr S4x128x64) (x10 x11 x12 x13 x14 : FArr S4x64) :
    FArr S512x64 :=
  poolK
    (step false 3
      (step true 2
        (step true 1
          (step true 0 x0 e x3 x4 x5 x6 x7 x8 x9 x10 x11 x12 x13 x14)
          e x3 x4 x5 x6 x7 x8 x9 x10 x11 x12 x13 x14)
        e x3 x4 x5 x6 x7 x8 x9 x10 x11 x12 x13 x14)
      e x3 x4 x5 x6 x7 x8 x9 x10 x11 x12 x13 x14)
    b

end Cert.KernelIdeal.Hand

end
-- ==== Proof.KHost.lean ====
/-
  The host operations of the kernel program, stretch by stretch.

  Each stretch of host operations between two kernels is read as a function of the buffer contents it starts
  from.  Three things are needed of it.  It leaves alone what later stretches still read: the thirteen
  arguments other than the node features and the edge list, and the two index vectors computed once from the
  edge list.  It aggregates the previous layer's output along the edges.  And it cuts layer `ℓ` out of each
  stacked parameter array.  The last stretch pools the last layer's output by graph.
-/
import proofs.«118457_j65111704207428_1_alg».proof.Proof.Gen.KernelIdeal.Launch
import Idealize.ShloMosaic.Lib.StableHlo.Run
import proofs.«118457_j65111704207428_1_alg».proof.Proof.Params
import proofs.«118457_j65111704207428_1_alg».proof.Proof.KGlue

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The contents `W` hold every argument as launched. -/
structure Launch (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)

/-- The contents `W` hold what the later stretches read: the arguments from the third on as launched, and the
    edges' source and destination nodes. -/
structure Keeps (W : Valuation τ sig (Elt Ideal)) : Prop where
  src : W (Proc.devRef .tc main_v1) = srcK (m ((c : Thread nD τ).loc main_arg1))
  dst : W (Proc.devRef .tc main_v3) = dstK (m ((c : Thread nD τ).loc main_arg1))
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)

/-! ## The host operations before the first layer's kernel -/

/-- They compute the two index vectors and write no argument. -/
theorem keeps0 (W : Valuation τ sig (Elt Ideal)) (hL : Launch m c W) : Keeps m c (StableHlo.after hostOps0 W) where
  src := by
    have e : StableHlo.after hostOps0 W (Proc.devRef .tc main_v1) = srcK (W (Proc.devRef .tc main_arg1)) := by
      after_results_simp <;> rfl
    rw [e, hL.a1]
  dst := by
    have e : StableHlo.after hostOps0 W (Proc.devRef .tc main_v3) = dstK (W (Proc.devRef .tc main_arg1)) := by
      after_results_simp <;> rfl
    rw [e, hL.a1]
  a2 := (by after_results_simp <;> rfl : StableHlo.after hostOps0 W (Proc.devRef .tc main_arg2) = W (Proc.devRef .tc main_arg2)).trans hL.a2
  a3 := (by after_results_simp <;> rfl : StableHlo.after hostOps0 W (Proc.devRef .tc main_arg3) = W (Proc.devRef .tc main_arg3)).trans hL.a3
  a4 := (by after_results_simp <;> rfl : StableHlo.after hostOps0 W (Proc.devRef .tc main_arg4) = W (Proc.devRef .tc main_arg4)).trans hL.a4
  a5 := (by after_results_simp <;> rfl : StableHlo.after hostOps0 W (Proc.devRef .tc main_arg5) = W (Proc.devRef .tc main_arg5)).trans hL.a5
  a6 := (by after_results_simp <;> rfl : StableHlo.after hostOps0 W (Proc.devRef .tc main_arg6) = W (Proc.devRef .tc main_arg6)).trans hL.a6
  a7 := (by after_results_simp <;> rfl : StableHlo.after hostOps0 W (Proc.devRef .tc main_arg7) = W (Proc.devRef .tc main_arg7)).trans hL.a7
  a8 := (by after_results_simp <;> rfl : StableHlo.after hostOps0 W (Proc.devRef .tc main_arg8) = W (Proc.devRef .tc main_arg8)).trans hL.a8
  a9 := (by after_results_simp <;> rfl : StableHlo.after hostOps0 W (Proc.devRef .tc main_arg9) = W (Proc.devRef .tc main_arg9)).trans hL.a9
  a10 := (by after_results_simp <;> rfl : StableHlo.after hostOps0 W (Proc.devRef .tc main_arg10) = W (Proc.devRef .tc main_arg10)).trans hL.a10
  a11 := (by after_results_simp <;> rfl : StableHlo.after hostOps0 W (Proc.devRef .tc main_arg11) = W (Proc.devRef .tc main_arg11)).trans hL.a11
  a12 := (by after_results_simp <;> rfl : StableHlo.after hostOps0 W (Proc.devRef .tc main_arg12) = W (Proc.devRef .tc main_arg12)).trans hL.a12
  a13 := (by after_results_simp <;> rfl : StableHlo.after hostOps0 W (Proc.devRef .tc main_arg13) = W (Proc.devRef .tc main_arg13)).trans hL.a13
  a14 := (by after_results_simp <;> rfl : StableHlo.after hostOps0 W (Proc.devRef .tc main_arg14) = W (Proc.devRef .tc main_arg14)).trans hL.a14

/-- They leave the node features in place … -/
theorem prev0 (W : Valuation τ sig (Elt Ideal)) :
    StableHlo.after hostOps0 W (Proc.devRef .tc main_arg0) = W (Proc.devRef .tc main_arg0) := by
  after_results_simp <;> rfl

/-- … and aggregate them along the edges. -/
theorem agg0 (W : Valuation τ sig (Elt Ideal)) (hL : Launch m c W) :
    (StableHlo.after hostOps0 W (Proc.devRef .tc main_v13) : FArr S100000x64)
      = aggK (m ((c : Thread nD τ).loc main_arg0)) (srcK (m ((c : Thread nD τ).loc main_arg1))) (dstK (m ((c : Thread nD τ).loc main_arg1))) := by
  have e : (StableHlo.after hostOps0 W (Proc.devRef .tc main_v13) : FArr S100000x64)
      = aggK (W (Proc.devRef .tc main_arg0)) (srcK (W (Proc.devRef .tc main_arg1))) (dstK (W (Proc.devRef .tc main_arg1))) := by
    after_results_simp <;> rfl
  rw [e, hL.a0, hL.a1]

/-- The kernel's twelve parameter operands are layer 0 of the stacked parameter arrays, entry by entry. -/
theorem params0 (W : Valuation τ sig (Elt Ideal)) (hL : Launch m c W) :
    (∀ (a : Fin 64) (q : Fin 128), (StableHlo.after hostOps0 W (Proc.devRef .tc main_v15) : FArr S64x128) (ix2 a q) = (m ((c : Thread nD τ).loc main_arg3) : FArr S4x64x128) (ix3 0 a q))
    ∧ (∀ q : Fin 128, (StableHlo.after hostOps0 W (Proc.devRef .tc main_v38) : FArr S1x128) (ix2 0 q) = (m ((c : Thread nD τ).loc main_arg4) : FArr S4x128) (ix2 0 q))
    ∧ (∀ q : Fin 128, (StableHlo.after hostOps0 W (Proc.devRef .tc main_v39) : FArr S1x128) (ix2 0 q) = (m ((c : Thread nD τ).loc main_arg5) : FArr S4x128) (ix2 0 q))
    ∧ (∀ q : Fin 128, (StableHlo.after hostOps0 W (Proc.devRef .tc main_v40) : FArr S1x128) (ix2 0 q) = (m ((c : Thread nD τ).loc main_arg6) : FArr S4x128) (ix2 0 q))
    ∧ (∀ q : Fin 128, (StableHlo.after hostOps0 W (Proc.devRef .tc main_v41) : FArr S1x128) (ix2 0 q) = (m ((c : Thread nD τ).loc main_arg7) : FArr S4x128) (ix2 0 q))
    ∧ (∀ q : Fin 128, (StableHlo.after hostOps0 W (Proc.devRef .tc main_v42) : FArr S1x128) (ix2 0 q) = (m ((c : Thread nD τ).loc main_arg8) : FArr S4x128) (ix2 0 q))
    ∧ (∀ (q : Fin 128) (j : Fin 64), (StableHlo.after hostOps0 W (Proc.devRef .tc main_v27) : FArr S128x64) (ix2 q j) = (m ((c : Thread nD τ).loc main_arg9) : FArr S4x128x64) (ix3 0 q j))
    ∧ (∀ j : Fin 64, (StableHlo.after hostOps0 W (Proc.devRef .tc main_v43) : FArr S1x64) (ix2 0 j) = (m ((c : Thread nD τ).loc main_arg10) : FArr S4x64) (ix2 0 j))
    ∧ (∀ j : Fin 64, (StableHlo.after hostOps0 W (Proc.devRef .tc main_v44) : FArr S1x64) (ix2 0 j) = (m ((c : Thread nD τ).loc main_arg11) : FArr S4x64) (ix2 0 j))
    ∧ (∀ j : Fin 64, (StableHlo.after hostOps0 W (Proc.devRef .tc main_v45) : FArr S1x64) (ix2 0 j) = (m ((c : Thread nD τ).loc main_arg12) : FArr S4x64) (ix2 0 j))
    ∧ (∀ j : Fin 64, (StableHlo.after hostOps0 W (Proc.devRef .tc main_v46) : FArr S1x64) (ix2 0 j) = (m ((c : Thread nD τ).loc main_arg13) : FArr S4x64) (ix2 0 j))
    ∧ (∀ j : Fin 64, (StableHlo.after hostOps0 W (Proc.devRef .tc main_v47) : FArr S1x64) (ix2 0 j) = (m ((c : Thread nD τ).loc main_arg14) : FArr S4x64) (ix2 0 j)) := by
  refine ⟨?_, ?_, ?_, ?_, ?_, ?_, ?_, ?_, ?_, ?_, ?_, ?_⟩
  · intro a q
    after_results_simp
    exact (Cert.GinParams.w1_entry 0 _ rfl rfl rfl _ _ _ a q).trans (congrFun hL.a3 _)
  · intro q
    after_results_simp
    exact (Cert.GinParams.vec128_entry 0 _ rfl rfl _ _ _ _ q).trans (congrFun hL.a4 _)
  · intro q
    after_results_simp
    exact (Cert.GinParams.vec128_entry 0 _ rfl rfl _ _ _ _ q).trans (congrFun hL.a5 _)
  · intro q
    after_results_simp
    exact (Cert.GinParams.vec128_entry 0 _ rfl rfl _ _ _ _ q).trans (congrFun hL.a6 _)
  · intro q
    after_results_simp
    exact (Cert.GinParams.vec128_entry 0 _ rfl rfl _ _ _ _ q).trans (congrFun hL.a7 _)
  · intro q
    after_results_simp
    exact (Cert.GinParams.vec128_entry 0 _ rfl rfl _ _ _ _ q).trans (congrFun hL.a8 _)
  · intro q j
    after_results_simp
    exact (Cert.GinParams.w2_entry 0 _ rfl rfl rfl _ _ _ q j).trans (congrFun hL.a9 _)
  · intro j
    after_results_simp
    exact (Cert.GinParams.vec64_entry 0 _ rfl rfl _ _ _ _ j).trans (congrFun hL.a10 _)
  · intro j
    after_results_simp
    exact (Cert.GinParams.vec64_entry 0 _ rfl rfl _ _ _ _ j).trans (congrFun hL.a11 _)
  · intro j
    after_results_simp
    exact (Cert.GinParams.vec64_entry 0 _ rfl rfl _ _ _ _ j).trans (congrFun hL.a12 _)
  · intro j
    after_results_simp
    exact (Cert.GinParams.vec64_entry 0 _ rfl rfl _ _ _ _ j).trans (congrFun hL.a13 _)
  · intro j
    after_results_simp
    exact (Cert.GinParams.vec64_entry 0 _ rfl rfl _ _ _ _ j).trans (congrFun hL.a14 _)

/-! ## The host operations before the second layer's kernel -/

/-- They write none of the kept buffers. -/
theorem keeps1 (W : Valuation τ sig (Elt Ideal)) (hK : Keeps m c W) : Keeps m c (StableHlo.after hostOps1 W) where
    src := (by after_results_simp <;> rfl : StableHlo.after hostOps1 W (Proc.devRef .tc main_v1) = W (Proc.devRef .tc main_v1)).trans hK.src
    dst := (by after_results_simp <;> rfl : StableHlo.after hostOps1 W (Proc.devRef .tc main_v3) = W (Proc.devRef .tc main_v3)).trans hK.dst
    a2 := (by after_results_simp <;> rfl : StableHlo.after hostOps1 W (Proc.devRef .tc main_arg2) = W (Proc.devRef .tc main_arg2)).trans hK.a2
    a3 := (by after_results_simp <;> rfl : StableHlo.after hostOps1 W (Proc.devRef .tc main_arg3) = W (Proc.devRef .tc main_arg3)).trans hK.a3
    a4 := (by after_results_simp <;> rfl : StableHlo.after hostOps1 W (Proc.devRef .tc main_arg4) = W (Proc.devRef .tc main_arg4)).trans hK.a4
    a5 := (by after_results_simp <;> rfl : StableHlo.after hostOps1 W (Proc.devRef .tc main_arg5) = W (Proc.devRef .tc main_arg5)).trans hK.a5
    a6 := (by after_results_simp <;> rfl : StableHlo.after hostOps1 W (Proc.devRef .tc main_arg6) = W (Proc.devRef .tc main_arg6)).trans hK.a6
    a7 := (by after_results_simp <;> rfl : StableHlo.after hostOps1 W (Proc.devRef .tc main_arg7) = W (Proc.devRef .tc main_arg7)).trans hK.a7
    a8 := (by after_results_simp <;> rfl : StableHlo.after hostOps1 W (Proc.devRef .tc main_arg8) = W (Proc.devRef .tc main_arg8)).trans hK.a8
    a9 := (by after_results_simp <;> rfl : StableHlo.after hostOps1 W (Proc.devRef .tc main_arg9) = W (Proc.devRef .tc main_arg9)).trans hK.a9
    a10 := (by after_results_simp <;> rfl : StableHlo.after hostOps1 W (Proc.devRef .tc main_arg10) = W (Proc.devRef .tc main_arg10)).trans hK.a10
    a11 := (by after_results_simp <;> rfl : StableHlo.after hostOps1 W (Proc.devRef .tc main_arg11) = W (Proc.devRef .tc main_arg11)).trans hK.a11
    a12 := (by after_results_simp <;> rfl : StableHlo.after hostOps1 W (Proc.devRef .tc main_arg12) = W (Proc.devRef .tc main_arg12)).trans hK.a12
    a13 := (by after_results_simp <;> rfl : StableHlo.after hostOps1 W (Proc.devRef .tc main_arg13) = W (Proc.devRef .tc main_arg13)).trans hK.a13
    a14 := (by after_results_simp <;> rfl : StableHlo.after hostOps1 W (Proc.devRef .tc main_arg14) = W (Proc.devRef .tc main_arg14)).trans hK.a14

/-- They leave the previous layer's output in place … -/
theorem prev1 (W : Valuation τ sig (Elt Ideal)) :
    StableHlo.after hostOps1 W (Proc.devRef .tc main_v48) = W (Proc.devRef .tc main_v48) := by
  after_results_simp <;> rfl

/-- … and aggregate it along the edges. -/
theorem agg1 (W : Valuation τ sig (Elt Ideal)) (hK : Keeps m c W) :
    (StableHlo.after hostOps1 W (Proc.devRef .tc main_v58) : FArr S100000x64)
      = aggK (W (Proc.devRef .tc main_v48)) (srcK (m ((c : Thread nD τ).loc main_arg1))) (dstK (m ((c : Thread nD τ).loc main_arg1))) := by
  have e : (StableHlo.after hostOps1 W (Proc.devRef .tc main_v58) : FArr S100000x64)
      = aggK (W (Proc.devRef .tc main_v48)) (W (Proc.devRef .tc main_v1)) (W (Proc.devRef .tc main_v3)) := by
    after_results_simp <;> rfl
  rw [e, hK.src, hK.dst]

/-- The kernel's twelve parameter operands are layer 1 of the stacked parameter arrays, entry by entry. -/
theorem params1 (W : Valuation τ sig (Elt Ideal)) (hK : Keeps m c W) :
    (∀ (a : Fin 64) (q : Fin 128), (StableHlo.after hostOps1 W (Proc.devRef .tc main_v60) : FArr S64x128) (ix2 a q) = (m ((c : Thread nD τ).loc main_arg3) : FArr S4x64x128) (ix3 1 a q))
    ∧ (∀ q : Fin 128, (StableHlo.after hostOps1 W (Proc.devRef .tc main_v83) : FArr S1x128) (ix2 0 q) = (m ((c : Thread nD τ).loc main_arg4) : FArr S4x128) (ix2 1 q))
    ∧ (∀ q : Fin 128, (StableHlo.after hostOps1 W (Proc.devRef .tc main_v84) : FArr S1x128) (ix2 0 q) = (m ((c : Thread nD τ).loc main_arg5) : FArr S4x128) (ix2 1 q))
    ∧ (∀ q : Fin 128, (StableHlo.after hostOps1 W (Proc.devRef .tc main_v85) : FArr S1x128) (ix2 0 q) = (m ((c : Thread nD τ).loc main_arg6) : FArr S4x128) (ix2 1 q))
    ∧ (∀ q : Fin 128, (StableHlo.after hostOps1 W (Proc.devRef .tc main_v86) : FArr S1x128) (ix2 0 q) = (m ((c : Thread nD τ).loc main_arg7) : FArr S4x128) (ix2 1 q))
    ∧ (∀ q : Fin 128, (StableHlo.after hostOps1 W (Proc.devRef .tc main_v87) : FArr S1x128) (ix2 0 q) = (m ((c : Thread nD τ).loc main_arg8) : FArr S4x128) (ix2 1 q))
    ∧ (∀ (q : Fin 128) (j : Fin 64), (StableHlo.after hostOps1 W (Proc.devRef .tc main_v72) : FArr S128x64) (ix2 q j) = (m ((c : Thread nD τ).loc main_arg9) : FArr S4x128x64) (ix3 1 q j))
    ∧ (∀ j : Fin 64, (StableHlo.after hostOps1 W (Proc.devRef .tc main_v88) : FArr S1x64) (ix2 0 j) = (m ((c : Thread nD τ).loc main_arg10) : FArr S4x64) (ix2 1 j))
    ∧ (∀ j : Fin 64, (StableHlo.after hostOps1 W (Proc.devRef .tc main_v89) : FArr S1x64) (ix2 0 j) = (m ((c : Thread nD τ).loc main_arg11) : FArr S4x64) (ix2 1 j))
    ∧ (∀ j : Fin 64, (StableHlo.after hostOps1 W (Proc.devRef .tc main_v90) : FArr S1x64) (ix2 0 j) = (m ((c : Thread nD τ).loc main_arg12) : FArr S4x64) (ix2 1 j))
    ∧ (∀ j : Fin 64, (StableHlo.after hostOps1 W (Proc.devRef .tc main_v91) : FArr S1x64) (ix2 0 j) = (m ((c : Thread nD τ).loc main_arg13) : FArr S4x64) (ix2 1 j))
    ∧ (∀ j : Fin 64, (StableHlo.after hostOps1 W (Proc.devRef .tc main_v92) : FArr S1x64) (ix2 0 j) = (m ((c : Thread nD τ).loc main_arg14) : FArr S4x64) (ix2 1 j)) := by
  refine ⟨?_, ?_, ?_, ?_, ?_, ?_, ?_, ?_, ?_, ?_, ?_, ?_⟩
  · intro a q
    after_results_simp
    exact (Cert.GinParams.w1_entry 1 _ rfl rfl rfl _ _ _ a q).trans (congrFun hK.a3 _)
  · intro q
    after_results_simp
    exact (Cert.GinParams.vec128_entry 1 _ rfl rfl _ _ _ _ q).trans (congrFun hK.a4 _)
  · intro q
    after_results_simp
    exact (Cert.GinParams.vec128_entry 1 _ rfl rfl _ _ _ _ q).trans (congrFun hK.a5 _)
  · intro q
    after_results_simp
    exact (Cert.GinParams.vec128_entry 1 _ rfl rfl _ _ _ _ q).trans (congrFun hK.a6 _)
  · intro q
    after_results_simp
    exact (Cert.GinParams.vec128_entry 1 _ rfl rfl _ _ _ _ q).trans (congrFun hK.a7 _)
  · intro q
    after_results_simp
    exact (Cert.GinParams.vec128_entry 1 _ rfl rfl _ _ _ _ q).trans (congrFun hK.a8 _)
  · intro q j
    after_results_simp
    exact (Cert.GinParams.w2_entry 1 _ rfl rfl rfl _ _ _ q j).trans (congrFun hK.a9 _)
  · intro j
    after_results_simp
    exact (Cert.GinParams.vec64_entry 1 _ rfl rfl _ _ _ _ j).trans (congrFun hK.a10 _)
  · intro j
    after_results_simp
    exact (Cert.GinParams.vec64_entry 1 _ rfl rfl _ _ _ _ j).trans (congrFun hK.a11 _)
  · intro j
    after_results_simp
    exact (Cert.GinParams.vec64_entry 1 _ rfl rfl _ _ _ _ j).trans (congrFun hK.a12 _)
  · intro j
    after_results_simp
    exact (Cert.GinParams.vec64_entry 1 _ rfl rfl _ _ _ _ j).trans (congrFun hK.a13 _)
  · intro j
    after_results_simp
    exact (Cert.GinParams.vec64_entry 1 _ rfl rfl _ _ _ _ j).trans (congrFun hK.a14 _)

/-! ## The host operations before the third layer's kernel -/

/-- They write none of the kept buffers. -/
theorem keeps2 (W : Valuation τ sig (Elt Ideal)) (hK : Keeps m c W) : Keeps m c (StableHlo.after hostOps2 W) where
    src := (by after_results_simp <;> rfl : StableHlo.after hostOps2 W (Proc.devRef .tc main_v1) = W (Proc.devRef .tc main_v1)).trans hK.src
    dst := (by after_results_simp <;> rfl : StableHlo.after hostOps2 W (Proc.devRef .tc main_v3) = W (Proc.devRef .tc main_v3)).trans hK.dst
    a2 := (by after_results_simp <;> rfl : StableHlo.after hostOps2 W (Proc.devRef .tc main_arg2) = W (Proc.devRef .tc main_arg2)).trans hK.a2
    a3 := (by after_results_simp <;> rfl : StableHlo.after hostOps2 W (Proc.devRef .tc main_arg3) = W (Proc.devRef .tc main_arg3)).trans hK.a3
    a4 := (by after_results_simp <;> rfl : StableHlo.after hostOps2 W (Proc.devRef .tc main_arg4) = W (Proc.devRef .tc main_arg4)).trans hK.a4
    a5 := (by after_results_simp <;> rfl : StableHlo.after hostOps2 W (Proc.devRef .tc main_arg5) = W (Proc.devRef .tc main_arg5)).trans hK.a5
    a6 := (by after_results_simp <;> rfl : StableHlo.after hostOps2 W (Proc.devRef .tc main_arg6) = W (Proc.devRef .tc main_arg6)).trans hK.a6
    a7 := (by after_results_simp <;> rfl : StableHlo.after hostOps2 W (Proc.devRef .tc main_arg7) = W (Proc.devRef .tc main_arg7)).trans hK.a7
    a8 := (by after_results_simp <;> rfl : StableHlo.after hostOps2 W (Proc.devRef .tc main_arg8) = W (Proc.devRef .tc main_arg8)).trans hK.a8
    a9 := (by after_results_simp <;> rfl : StableHlo.after hostOps2 W (Proc.devRef .tc main_arg9) = W (Proc.devRef .tc main_arg9)).trans hK.a9
    a10 := (by after_results_simp <;> rfl : StableHlo.after hostOps2 W (Proc.devRef .tc main_arg10) = W (Proc.devRef .tc main_arg10)).trans hK.a10
    a11 := (by after_results_simp <;> rfl : StableHlo.after hostOps2 W (Proc.devRef .tc main_arg11) = W (Proc.devRef .tc main_arg11)).trans hK.a11
    a12 := (by after_results_simp <;> rfl : StableHlo.after hostOps2 W (Proc.devRef .tc main_arg12) = W (Proc.devRef .tc main_arg12)).trans hK.a12
    a13 := (by after_results_simp <;> rfl : StableHlo.after hostOps2 W (Proc.devRef .tc main_arg13) = W (Proc.devRef .tc main_arg13)).trans hK.a13
    a14 := (by after_results_simp <;> rfl : StableHlo.after hostOps2 W (Proc.devRef .tc main_arg14) = W (Proc.devRef .tc main_arg14)).trans hK.a14

/-- They leave the previous layer's output in place … -/
theorem prev2 (W : Valuation τ sig (Elt Ideal)) :
    StableHlo.after hostOps2 W (Proc.devRef .tc main_v93) = W (Proc.devRef .tc main_v93) := by
  after_results_simp <;> rfl

/-- … and aggregate it along the edges. -/
theorem agg2 (W : Valuation τ sig (Elt Ideal)) (hK : Keeps m c W) :
    (StableHlo.after hostOps2 W (Proc.devRef .tc main_v103) : FArr S100000x64)
      = aggK (W (Proc.devRef .tc main_v93)) (srcK (m ((c : Thread nD τ).loc main_arg1))) (dstK (m ((c : Thread nD τ).loc main_arg1))) := by
  have e : (StableHlo.after hostOps2 W (Proc.devRef .tc main_v103) : FArr S100000x64)
      = aggK (W (Proc.devRef .tc main_v93)) (W (Proc.devRef .tc main_v1)) (W (Proc.devRef .tc main_v3)) := by
    after_results_simp <;> rfl
  rw [e, hK.src, hK.dst]

/-- The kernel's twelve parameter operands are layer 2 of the stacked parameter arrays, entry by entry. -/
theorem params2 (W : Valuation τ sig (Elt Ideal)) (hK : Keeps m c W) :
    (∀ (a : Fin 64) (q : Fin 128), (StableHlo.after hostOps2 W (Proc.devRef .tc main_v105) : FArr S64x128) (ix2 a q) = (m ((c : Thread nD τ).loc main_arg3) : FArr S4x64x128) (ix3 2 a q))
    ∧ (∀ q : Fin 128, (StableHlo.after hostOps2 W (Proc.devRef .tc main_v128) : FArr S1x128) (ix2 0 q) = (m ((c : Thread nD τ).loc main_arg4) : FArr S4x128) (ix2 2 q))
    ∧ (∀ q : Fin 128, (StableHlo.after hostOps2 W (Proc.devRef .tc main_v129) : FArr S1x128) (ix2 0 q) = (m ((c : Thread nD τ).loc main_arg5) : FArr S4x128) (ix2 2 q))
    ∧ (∀ q : Fin 128, (StableHlo.after hostOps2 W (Proc.devRef .tc main_v130) : FArr S1x128) (ix2 0 q) = (m ((c : Thread nD τ).loc main_arg6) : FArr S4x128) (ix2 2 q))
    ∧ (∀ q : Fin 128, (StableHlo.after hostOps2 W (Proc.devRef .tc main_v131) : FArr S1x128) (ix2 0 q) = (m ((c : Thread nD τ).loc main_arg7) : FArr S4x128) (ix2 2 q))
    ∧ (∀ q : Fin 128, (StableHlo.after hostOps2 W (Proc.devRef .tc main_v132) : FArr S1x128) (ix2 0 q) = (m ((c : Thread nD τ).loc main_arg8) : FArr S4x128) (ix2 2 q))
    ∧ (∀ (q : Fin 128) (j : Fin 64), (StableHlo.after hostOps2 W (Proc.devRef .tc main_v117) : FArr S128x64) (ix2 q j) = (m ((c : Thread nD τ).loc main_arg9) : FArr S4x128x64) (ix3 2 q j))
    ∧ (∀ j : Fin 64, (StableHlo.after hostOps2 W (Proc.devRef .tc main_v133) : FArr S1x64) (ix2 0 j) = (m ((c : Thread nD τ).loc main_arg10) : FArr S4x64) (ix2 2 j))
    ∧ (∀ j : Fin 64, (StableHlo.after hostOps2 W (Proc.devRef .tc main_v134) : FArr S1x64) (ix2 0 j) = (m ((c : Thread nD τ).loc main_arg11) : FArr S4x64) (ix2 2 j))
    ∧ (∀ j : Fin 64, (StableHlo.after hostOps2 W (Proc.devRef .tc main_v135) : FArr S1x64) (ix2 0 j) = (m ((c : Thread nD τ).loc main_arg12) : FArr S4x64) (ix2 2 j))
    ∧ (∀ j : Fin 64, (StableHlo.after hostOps2 W (Proc.devRef .tc main_v136) : FArr S1x64) (ix2 0 j) = (m ((c : Thread nD τ).loc main_arg13) : FArr S4x64) (ix2 2 j))
    ∧ (∀ j : Fin 64, (StableHlo.after hostOps2 W (Proc.devRef .tc main_v137) : FArr S1x64) (ix2 0 j) = (m ((c : Thread nD τ).loc main_arg14) : FArr S4x64) (ix2 2 j)) := by
  refine ⟨?_, ?_, ?_, ?_, ?_, ?_, ?_, ?_, ?_, ?_, ?_, ?_⟩
  · intro a q
    after_results_simp
    exact (Cert.GinParams.w1_entry 2 _ rfl rfl rfl _ _ _ a q).trans (congrFun hK.a3 _)
  · intro q
    after_results_simp
    exact (Cert.GinParams.vec128_entry 2 _ rfl rfl _ _ _ _ q).trans (congrFun hK.a4 _)
  · intro q
    after_results_simp
    exact (Cert.GinParams.vec128_entry 2 _ rfl rfl _ _ _ _ q).trans (congrFun hK.a5 _)
  · intro q
    after_results_simp
    exact (Cert.GinParams.vec128_entry 2 _ rfl rfl _ _ _ _ q).trans (congrFun hK.a6 _)
  · intro q
    after_results_simp
    exact (Cert.GinParams.vec128_entry 2 _ rfl rfl _ _ _ _ q).trans (congrFun hK.a7 _)
  · intro q
    after_results_simp
    exact (Cert.GinParams.vec128_entry 2 _ rfl rfl _ _ _ _ q).trans (congrFun hK.a8 _)
  · intro q j
    after_results_simp
    exact (Cert.GinParams.w2_entry 2 _ rfl rfl rfl _ _ _ q j).trans (congrFun hK.a9 _)
  · intro j
    after_results_simp
    exact (Cert.GinParams.vec64_entry 2 _ rfl rfl _ _ _ _ j).trans (congrFun hK.a10 _)
  · intro j
    after_results_simp
    exact (Cert.GinParams.vec64_entry 2 _ rfl rfl _ _ _ _ j).trans (congrFun hK.a11 _)
  · intro j
    after_results_simp
    exact (Cert.GinParams.vec64_entry 2 _ rfl rfl _ _ _ _ j).trans (congrFun hK.a12 _)
  · intro j
    after_results_simp
    exact (Cert.GinParams.vec64_entry 2 _ rfl rfl _ _ _ _ j).trans (congrFun hK.a13 _)
  · intro j
    after_results_simp
    exact (Cert.GinParams.vec64_entry 2 _ rfl rfl _ _ _ _ j).trans (congrFun hK.a14 _)

/-! ## The host operations before the last layer's kernel -/

/-- They write none of the kept buffers. -/
theorem keeps3 (W : Valuation τ sig (Elt Ideal)) (hK : Keeps m c W) : Keeps m c (StableHlo.after hostOps3 W) where
    src := (by after_results_simp <;> rfl : StableHlo.after hostOps3 W (Proc.devRef .tc main_v1) = W (Proc.devRef .tc main_v1)).trans hK.src
    dst := (by after_results_simp <;> rfl : StableHlo.after hostOps3 W (Proc.devRef .tc main_v3) = W (Proc.devRef .tc main_v3)).trans hK.dst
    a2 := (by after_results_simp <;> rfl : StableHlo.after hostOps3 W (Proc.devRef .tc main_arg2) = W (Proc.devRef .tc main_arg2)).trans hK.a2
    a3 := (by after_results_simp <;> rfl : StableHlo.after hostOps3 W (Proc.devRef .tc main_arg3) = W (Proc.devRef .tc main_arg3)).trans hK.a3
    a4 := (by after_results_simp <;> rfl : StableHlo.after hostOps3 W (Proc.devRef .tc main_arg4) = W (Proc.devRef .tc main_arg4)).trans hK.a4
    a5 := (by after_results_simp <;> rfl : StableHlo.after hostOps3 W (Proc.devRef .tc main_arg5) = W (Proc.devRef .tc main_arg5)).trans hK.a5
    a6 := (by after_results_simp <;> rfl : StableHlo.after hostOps3 W (Proc.devRef .tc main_arg6) = W (Proc.devRef .tc main_arg6)).trans hK.a6
    a7 := (by after_results_simp <;> rfl : StableHlo.after hostOps3 W (Proc.devRef .tc main_arg7) = W (Proc.devRef .tc main_arg7)).trans hK.a7
    a8 := (by after_results_simp <;> rfl : StableHlo.after hostOps3 W (Proc.devRef .tc main_arg8) = W (Proc.devRef .tc main_arg8)).trans hK.a8
    a9 := (by after_results_simp <;> rfl : StableHlo.after hostOps3 W (Proc.devRef .tc main_arg9) = W (Proc.devRef .tc main_arg9)).trans hK.a9
    a10 := (by after_results_simp <;> rfl : StableHlo.after hostOps3 W (Proc.devRef .tc main_arg10) = W (Proc.devRef .tc main_arg10)).trans hK.a10
    a11 := (by after_results_simp <;> rfl : StableHlo.after hostOps3 W (Proc.devRef .tc main_arg11) = W (Proc.devRef .tc main_arg11)).trans hK.a11
    a12 := (by after_results_simp <;> rfl : StableHlo.after hostOps3 W (Proc.devRef .tc main_arg12) = W (Proc.devRef .tc main_arg12)).trans hK.a12
    a13 := (by after_results_simp <;> rfl : StableHlo.after hostOps3 W (Proc.devRef .tc main_arg13) = W (Proc.devRef .tc main_arg13)).trans hK.a13
    a14 := (by after_results_simp <;> rfl : StableHlo.after hostOps3 W (Proc.devRef .tc main_arg14) = W (Proc.devRef .tc main_arg14)).trans hK.a14

/-- They leave the previous layer's output in place … -/
theorem prev3 (W : Valuation τ sig (Elt Ideal)) :
    StableHlo.after hostOps3 W (Proc.devRef .tc main_v138) = W (Proc.devRef .tc main_v138) := by
  after_results_simp <;> rfl

/-- … and aggregate it along the edges. -/
theorem agg3 (W : Valuation τ sig (Elt Ideal)) (hK : Keeps m c W) :
    (StableHlo.after hostOps3 W (Proc.devRef .tc main_v148) : FArr S100000x64)
      = aggK (W (Proc.devRef .tc main_v138)) (srcK (m ((c : Thread nD τ).loc main_arg1))) (dstK (m ((c : Thread nD τ).loc main_arg1))) := by
  have e : (StableHlo.after hostOps3 W (Proc.devRef .tc main_v148) : FArr S100000x64)
      = aggK (W (Proc.devRef .tc main_v138)) (W (Proc.devRef .tc main_v1)) (W (Proc.devRef .tc main_v3)) := by
    after_results_simp <;> rfl
  rw [e, hK.src, hK.dst]

/-- The kernel's twelve parameter operands are layer 3 of the stacked parameter arrays, entry by entry. -/
theorem params3 (W : Valuation τ sig (Elt Ideal)) (hK : Keeps m c W) :
    (∀ (a : Fin 64) (q : Fin 128), (StableHlo.after hostOps3 W (Proc.devRef .tc main_v150) : FArr S64x128) (ix2 a q) = (m ((c : Thread nD τ).loc main_arg3) : FArr S4x64x128) (ix3 3 a q))
    ∧ (∀ q : Fin 128, (StableHlo.after hostOps3 W (Proc.devRef .tc main_v173) : FArr S1x128) (ix2 0 q) = (m ((c : Thread nD τ).loc main_arg4) : FArr S4x128) (ix2 3 q))
    ∧ (∀ q : Fin 128, (StableHlo.after hostOps3 W (Proc.devRef .tc main_v174) : FArr S1x128) (ix2 0 q) = (m ((c : Thread nD τ).loc main_arg5) : FArr S4x128) (ix2 3 q))
    ∧ (∀ q : Fin 128, (StableHlo.after hostOps3 W (Proc.devRef .tc main_v175) : FArr S1x128) (ix2 0 q) = (m ((c : Thread nD τ).loc main_arg6) : FArr S4x128) (ix2 3 q))
    ∧ (∀ q : Fin 128, (StableHlo.after hostOps3 W (Proc.devRef .tc main_v176) : FArr S1x128) (ix2 0 q) = (m ((c : Thread nD τ).loc main_arg7) : FArr S4x128) (ix2 3 q))
    ∧ (∀ q : Fin 128, (StableHlo.after hostOps3 W (Proc.devRef .tc main_v177) : FArr S1x128) (ix2 0 q) = (m ((c : Thread nD τ).loc main_arg8) : FArr S4x128) (ix2 3 q))
    ∧ (∀ (q : Fin 128) (j : Fin 64), (StableHlo.after hostOps3 W (Proc.devRef .tc main_v162) : FArr S128x64) (ix2 q j) = (m ((c : Thread nD τ).loc main_arg9) : FArr S4x128x64) (ix3 3 q j))
    ∧ (∀ j : Fin 64, (StableHlo.after hostOps3 W (Proc.devRef .tc main_v178) : FArr S1x64) (ix2 0 j) = (m ((c : Thread nD τ).loc main_arg10) : FArr S4x64) (ix2 3 j))
    ∧ (∀ j : Fin 64, (StableHlo.after hostOps3 W (Proc.devRef .tc main_v179) : FArr S1x64) (ix2 0 j) = (m ((c : Thread nD τ).loc main_arg11) : FArr S4x64) (ix2 3 j))
    ∧ (∀ j : Fin 64, (StableHlo.after hostOps3 W (Proc.devRef .tc main_v180) : FArr S1x64) (ix2 0 j) = (m ((c : Thread nD τ).loc main_arg12) : FArr S4x64) (ix2 3 j))
    ∧ (∀ j : Fin 64, (StableHlo.after hostOps3 W (Proc.devRef .tc main_v181) : FArr S1x64) (ix2 0 j) = (m ((c : Thread nD τ).loc main_arg13) : FArr S4x64) (ix2 3 j))
    ∧ (∀ j : Fin 64, (StableHlo.after hostOps3 W (Proc.devRef .tc main_v182) : FArr S1x64) (ix2 0 j) = (m ((c : Thread nD τ).loc main_arg14) : FArr S4x64) (ix2 3 j)) := by
  refine ⟨?_, ?_, ?_, ?_, ?_, ?_, ?_, ?_, ?_, ?_, ?_, ?_⟩
  · intro a q
    after_results_simp
    exact (Cert.GinParams.w1_entry 3 _ rfl rfl rfl _ _ _ a q).trans (congrFun hK.a3 _)
  · intro q
    after_results_simp
    exact (Cert.GinParams.vec128_entry 3 _ rfl rfl _ _ _ _ q).trans (congrFun hK.a4 _)
  · intro q
    after_results_simp
    exact (Cert.GinParams.vec128_entry 3 _ rfl rfl _ _ _ _ q).trans (congrFun hK.a5 _)
  · intro q
    after_results_simp
    exact (Cert.GinParams.vec128_entry 3 _ rfl rfl _ _ _ _ q).trans (congrFun hK.a6 _)
  · intro q
    after_results_simp
    exact (Cert.GinParams.vec128_entry 3 _ rfl rfl _ _ _ _ q).trans (congrFun hK.a7 _)
  · intro q
    after_results_simp
    exact (Cert.GinParams.vec128_entry 3 _ rfl rfl _ _ _ _ q).trans (congrFun hK.a8 _)
  · intro q j
    after_results_simp
    exact (Cert.GinParams.w2_entry 3 _ rfl rfl rfl _ _ _ q j).trans (congrFun hK.a9 _)
  · intro j
    after_results_simp
    exact (Cert.GinParams.vec64_entry 3 _ rfl rfl _ _ _ _ j).trans (congrFun hK.a10 _)
  · intro j
    after_results_simp
    exact (Cert.GinParams.vec64_entry 3 _ rfl rfl _ _ _ _ j).trans (congrFun hK.a11 _)
  · intro j
    after_results_simp
    exact (Cert.GinParams.vec64_entry 3 _ rfl rfl _ _ _ _ j).trans (congrFun hK.a12 _)
  · intro j
    after_results_simp
    exact (Cert.GinParams.vec64_entry 3 _ rfl rfl _ _ _ _ j).trans (congrFun hK.a13 _)
  · intro j
    after_results_simp
    exact (Cert.GinParams.vec64_entry 3 _ rfl rfl _ _ _ _ j).trans (congrFun hK.a14 _)

/-! ## The host operations after the last layer's kernel -/

/-- They pool the last layer's output by graph. -/
theorem pool4 (W : Valuation τ sig (Elt Ideal)) (hK : Keeps m c W) :
    (StableHlo.after hostOps4 W (Proc.devRef .tc main_v194) : FArr S512x64)
      = poolK (W (Proc.devRef .tc main_v183)) (m ((c : Thread nD τ).loc main_arg2)) := by
  have e : (StableHlo.after hostOps4 W (Proc.devRef .tc main_v194) : FArr S512x64)
      = poolK (W (Proc.devRef .tc main_v183)) (W (Proc.devRef .tc main_arg2)) := by
    after_results_simp <;> rfl
  rw [e, hK.a2]

end Cert.KernelIdeal.Hand

end
-- ==== Proof.KEntry.lean ====
/-
  The kernel's two matrix products and its row-vector broadcasts, read at one entry.

  At the ideal values a matrix product into a zero accumulator, read at row `p` and column `q`, is the
  textbook sum `∑ k, l (p, k) * r (k, q)` over the one contracted axis; the products below have the
  shapes [4000, 64] × [64, 128] and [4000, 128] × [128, 64].  A vector of shape [1, n] broadcast down the
  4000 rows of a block reads, at `(p, q)`, its entry `(0, q)`.
-/
import proofs.«118457_j65111704207428_1_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.Entry

open Idealize.ShloMosaic Idealize.ShloMosaic.ValueIdx Cert.KernelIdeal

local notation "D1" => dot_S4000x64_S64x128_S4000x128_1_0_0_1_n_n
local notation "D2" => dot_S4000x128_S128x64_S4000x64_1_0_0_1_n_n

/-! ## The first product: [4000, 64] × [64, 128] -/

theorem d1_lhs0 (i : S4000x128.Idx) (q : (D1).contr.Idx) : ((D1).lhsIdx i q 0).val = (i 0).val := by
  unfold DotDims.lhsIdx
  rw [dif_neg (show ¬(0 : Fin S4000x64.rank) ∈ (D1).lhsBatch by decide),
    dif_pos (show (0 : Fin S4000x64.rank) ∈ (D1).lhsNonContracting by decide)]
  rfl
theorem d1_lhs1 (i : S4000x128.Idx) (q : (D1).contr.Idx) : ((D1).lhsIdx i q 1).val = (q ⟨0, by decide⟩).val :=
  (D1).lhsIdx_val_of_single rfl i q
theorem d1_rhs0 (i : S4000x128.Idx) (q : (D1).contr.Idx) : ((D1).rhsIdx i q 0).val = (q ⟨0, by decide⟩).val :=
  (D1).rhsIdx_val_of_single rfl i q
theorem d1_rhs1 (i : S4000x128.Idx) (q : (D1).contr.Idx) : ((D1).rhsIdx i q 1).val = (i 1).val := by
  unfold DotDims.rhsIdx
  rw [dif_neg (show ¬(1 : Fin S64x128.rank) ∈ (D1).rhsBatch by decide),
    dif_pos (show (1 : Fin S64x128.rank) ∈ (D1).rhsNonContracting by decide)]
  rfl

/-- Entry `(p, q)` of the first product is the sum over the 64 input features. -/
theorem matmul1_apply {φ₁ φ₂ : FTy} (l : FVec Ideal S4000x64 φ₁) (r : FVec Ideal S64x128 φ₂) (p : Fin 4000) (q : Fin 128) :
    FloatOps.matmul D1 none l r (constant S4000x128 .f32 0x00000000#32) (ix2 p q)
      = ∑ k : Fin 64, l (ix2 p k) * r (ix2 k q) := by
  rw [Ideal.matmul_constant_zero_apply, ← Equiv.sum_comp (contrEquiv1 D1 64 rfl rfl).symm]
  refine Finset.sum_congr rfl fun k _ => ?_
  have hk := contrEquiv1_symm_val D1 64 rfl rfl k
  have el : (D1).lhsIdx (ix2 p q) ((contrEquiv1 D1 64 rfl rfl).symm k) = ix2 p k := funext fun a => Fin.ext (by
    match a with
    | ⟨0, _⟩ => exact d1_lhs0 _ _
    | ⟨1, _⟩ => exact (d1_lhs1 _ _).trans hk)
  have er : (D1).rhsIdx (ix2 p q) ((contrEquiv1 D1 64 rfl rfl).symm k) = ix2 k q := funext fun a => Fin.ext (by
    match a with
    | ⟨0, _⟩ => exact (d1_rhs0 _ _).trans hk
    | ⟨1, _⟩ => exact d1_rhs1 _ _)
  rw [el, er]

/-! ## The second product: [4000, 128] × [128, 64] -/

theorem d2_lhs0 (i : S4000x64.Idx) (q : (D2).contr.Idx) : ((D2).lhsIdx i q 0).val = (i 0).val := by
  unfold DotDims.lhsIdx
  rw [dif_neg (show ¬(0 : Fin S4000x128.rank) ∈ (D2).lhsBatch by decide),
    dif_pos (show (0 : Fin S4000x128.rank) ∈ (D2).lhsNonContracting by decide)]
  rfl
theorem d2_lhs1 (i : S4000x64.Idx) (q : (D2).contr.Idx) : ((D2).lhsIdx i q 1).val = (q ⟨0, by decide⟩).val :=
  (D2).lhsIdx_val_of_single rfl i q
theorem d2_rhs0 (i : S4000x64.Idx) (q : (D2).contr.Idx) : ((D2).rhsIdx i q 0).val = (q ⟨0, by decide⟩).val :=
  (D2).rhsIdx_val_of_single rfl i q
theorem d2_rhs1 (i : S4000x64.Idx) (q : (D2).contr.Idx) : ((D2).rhsIdx i q 1).val = (i 1).val := by
  unfold DotDims.rhsIdx
  rw [dif_neg (show ¬(1 : Fin S128x64.rank) ∈ (D2).rhsBatch by decide),
    dif_pos (show (1 : Fin S128x64.rank) ∈ (D2).rhsNonContracting by decide)]
  rfl

/-- Entry `(p, j)` of the second product is the sum over the 128 hidden units. -/
theorem matmul2_apply {φ₁ φ₂ : FTy} (l : FVec Ideal S4000x128 φ₁) (r : FVec Ideal S128x64 φ₂) (p : Fin 4000) (j : Fin 64) :
    FloatOps.matmul D2 none l r (constant S4000x64 .f32 0x00000000#32) (ix2 p j)
      = ∑ q : Fin 128, l (ix2 p q) * r (ix2 q j) := by
  rw [Ideal.matmul_constant_zero_apply, ← Equiv.sum_comp (contrEquiv1 D2 128 rfl rfl).symm]
  refine Finset.sum_congr rfl fun k _ => ?_
  have hk := contrEquiv1_symm_val D2 128 rfl rfl k
  have el : (D2).lhsIdx (ix2 p j) ((contrEquiv1 D2 128 rfl rfl).symm k) = ix2 p k := funext fun a => Fin.ext (by
    match a with
    | ⟨0, _⟩ => exact d2_lhs0 _ _
    | ⟨1, _⟩ => exact (d2_lhs1 _ _).trans hk)
  have er : (D2).rhsIdx (ix2 p j) ((contrEquiv1 D2 128 rfl rfl).symm k) = ix2 k j := funext fun a => Fin.ext (by
    match a with
    | ⟨0, _⟩ => exact (d2_rhs0 _ _).trans hk
    | ⟨1, _⟩ => exact d2_rhs1 _ _)
  rw [el, er]

/-! ## A row vector broadcast down a block's rows -/

/-- A [1, 128] vector broadcast to [4000, 128], at `(p, q)`, is its entry `(0, q)`. -/
theorem bcast128_apply {α : Type} (x : S1x128.Idx → α) (h : S1x128.Broadcasts S4000x128) (p : Fin 4000) (q : Fin 128) :
    broadcastTo S4000x128 x h (ix2 p q) = x (ix2 0 q) :=
  broadcastTo_apply x h (ix2 p q) (ix2 0 q) fun a => by
    match a with
    | ⟨0, _⟩ => rfl
    | ⟨1, _⟩ => rfl

/-- A [1, 64] vector broadcast to [4000, 64], at `(p, j)`, is its entry `(0, j)`. -/
theorem bcast64_apply {α : Type} (x : S1x64.Idx → α) (h : S1x64.Broadcasts S4000x64) (p : Fin 4000) (j : Fin 64) :
    broadcastTo S4000x64 x h (ix2 p j) = x (ix2 0 j) :=
  broadcastTo_apply x h (ix2 p j) (ix2 0 j) fun a => by
    match a with
    | ⟨0, _⟩ => rfl
    | ⟨1, _⟩ => rfl

end Cert.KernelIdeal.Entry

end
-- ==== Proof.KBody0.lean ====
/-
  What the first layer's kernel leaves at one entry of its output block.

  The block computed at a grid point holds 4000 nodes.  Entry `(p, j)` depends only on row `p` of the
  two input blocks (the node's features and its aggregated neighbours) and on the layer's parameters: it
  is the layer's row function of the specification.  The narrowing of the matrix products' operands to a
  shorter float format is the identity on extended reals, and each product into a zero accumulator is the
  plain sum over the contracted axis.
-/
import proofs.«118457_j65111704207428_1_alg».proof.Proof.Gen.KernelIdeal.Skeleton
import proofs.«118457_j65111704207428_1_alg».proof.Proof.Spec
import proofs.«118457_j65111704207428_1_alg».proof.Proof.KEntry

noncomputable section

namespace Cert.KernelIdeal.Entry

open Idealize.ShloMosaic Idealize.ShloMosaic.ValueIdx Cert.KernelIdeal Cert.KernelIdeal.Gen

/-- The rectified hidden units of node `p` of the block, as computed by the first half of the body. -/
theorem hidden0_apply (x0 x1 : Vec Ideal S4000x64 .f32) (w1 : Vec Ideal S64x128 .f32)
    (b1 m1 v1 g1 bt1 : Vec Ideal S1x128 .f32) (p : Fin 4000) (q : Fin 128) :
    k0_pay2 (F := Ideal) x0 x1 w1 b1 m1 v1 g1 bt1 (ix2 p q)
      = Cert.GinSpec.hidden (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) q := by
  unfold k0_pay2 Cert.GinSpec.hidden Cert.GinSpec.bn
  simp only [truncf_apply, maximumf_apply, addf_apply, mulf_apply, subf_apply, broadcast_apply,
    bcast128_apply, shapeCast_self, matmul, matmul1_apply, rsqrt]
  rfl

/-- Entry `(p, j)` of the block the first layer's kernel stores: the layer's row function of row `p` of the
    two input blocks. -/
theorem out0_apply (x0 x1 : Vec Ideal S4000x64 .f32) (w1 : Vec Ideal S64x128 .f32)
    (b1 m1 v1 g1 bt1 : Vec Ideal S1x128 .f32) (w2 : Vec Ideal S128x64 .f32)
    (b2 m2 v2 g2 bt2 : Vec Ideal S1x64 .f32) (p : Fin 4000) (j : Fin 64) :
    k0_pay1 (F := Ideal) (k0_pay2 x0 x1 w1 b1 m1 v1 g1 bt1) (k0_pay3 w2) b2 m2 v2 g2 bt2 (ix2 p j)
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  rw [Cert.GinSpec.out_true]
  unfold k0_pay1 k0_pay3 Cert.GinSpec.pre Cert.GinSpec.bn
  simp only [truncf_apply, maximumf_apply, addf_apply, mulf_apply, subf_apply, broadcast_apply,
    bcast64_apply, shapeCast_self, matmul, matmul2_apply, rsqrt, hidden0_apply]
  rfl

/-- The whole block the first layer's kernel stores, as one function of its fourteen input blocks. -/
abbrev block0 (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) : FVec Ideal S4000x64 .f32 :=
  k0_pay1 (F := Ideal) (k0_pay2 x0 x1 w1 b1 m1 v1 g1 bt1) (k0_pay3 w2) b2 m2 v2 g2 bt2

/-- Its entry at any index `y` of the block: the row function of row `y 0`, at column `y 1`. -/
theorem block0_apply (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) (y : S4000x64.Idx) (p : Fin 4000) (j : Fin 64)
    (hp : (y 0).val = p.val) (hj : (y 1).val = j.val) :
    block0 x0 x1 w1 b1 g1 bt1 m1 v1 w2 b2 g2 bt2 m2 v2 y
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  have hy : y = ix2 p j := by
    funext a
    match a with
    | ⟨0, _⟩ => exact Fin.ext hp
    | ⟨1, _⟩ => exact Fin.ext hj
  rw [hy]
  exact out0_apply x0 x1 w1 b1 m1 v1 g1 bt1 w2 b2 m2 v2 g2 bt2 p j

end Cert.KernelIdeal.Entry

end
-- ==== Proof.KLayer0.lean ====
/-
  What the first layer's kernel leaves in its whole output array.

  The kernel runs at 25 grid points.  Point `t` reads rows `4000 t … 4000 t + 3999` of the node features and
  of the aggregated features, and all of each parameter array, and writes the same rows of the output.
  Since an output entry depends only on its own row of the two inputs, what point `t` writes back is those
  rows of ONE function of the whole input arrays: the layer of the specification.  The 25 row blocks tile
  the 100000 rows (row `r` lies in block `r / 4000`), so the output array ends holding that function.
-/
import proofs.«118457_j65111704207428_1_alg».proof.Proof.Gen.KernelIdeal.Frame
import Idealize.ShloMosaic.Lib.Pipeline.Value
import proofs.«118457_j65111704207428_1_alg».proof.Proof.Spec
import proofs.«118457_j65111704207428_1_alg».proof.Proof.KBody0

set_option maxRecDepth 16384

noncomputable section

namespace Cert.KernelIdeal.Hand

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps, decided over the 25 points: the two row windows and the output window sit at row block
    `t`, every parameter window at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ (∀ a : Fin 2, win0_2.index t a = 0)
    ∧ (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0) :=
  (by decide +kernel : ∀ t : Fin grid0.N, _)

theorem lt25_0 (t : Fin cfg0.N) : t.val < 25 := by
  have h : t.val < cfg0.N := t.isLt
  have e : cfg0.N = 25 := N_0
  omega

theorem rowBound0 (t p : Nat) (ht : t < 25) (hp : p < 4000) : t * 4000 + p < 100000 := by omega

/-! ## Each input block, read off its array -/

/-- Row `p` of the node-feature block at point `t` is row `4000 t + p` of the array. -/
theorem rd0_0 (c : Dev nD) (t : Fin cfg0.N) (p : Fin 4000) (b : Fin 64) :
    (iblk0 V c 0 t : Vec Ideal S4000x64 .f32) (ix2 p b)
      = (V c main_arg0 : (⟨2, ![100000, 64]⟩ : Shape).Idx → EReal)
          (ix2 ⟨t.val * 4000 + p.val, rowBound0 _ _ (lt25_0 t) p.isLt⟩ b) := by
  obtain ⟨e0, e1, -⟩ := idx0 t
  unfold iblk0
  rw [View.read_apply]
  show V c main_arg0 _ = V c main_arg0 _
  congr 1
  funext d
  apply Fin.ext
  match d with
  | ⟨0, _⟩ => show win0_0.index t 0 * 4000 + 1 * p.val = t.val * 4000 + p.val; rw [e0]; omega
  | ⟨1, _⟩ => show win0_0.index t 1 * 64 + 1 * b.val = b.val; rw [e1]; omega

/-- Likewise for the block of aggregated features. -/
theorem rd0_1 (c : Dev nD) (t : Fin cfg0.N) (p : Fin 4000) (b : Fin 64) :
    (iblk0 V c 1 t : Vec Ideal S4000x64 .f32) (ix2 p b)
      = (V c main_v13 : (⟨2, ![100000, 64]⟩ : Shape).Idx → EReal)
          (ix2 ⟨t.val * 4000 + p.val, rowBound0 _ _ (lt25_0 t) p.isLt⟩ b) := by
  obtain ⟨-, -, e0, e1, -⟩ := idx0 t
  unfold iblk0
  rw [View.read_apply]
  show V c main_v13 _ = V c main_v13 _
  congr 1
  funext d
  apply Fin.ext
  match d with
  | ⟨0, _⟩ => show win0_1.index t 0 * 4000 + 1 * p.val = t.val * 4000 + p.val; rw [e0]; omega
  | ⟨1, _⟩ => show win0_1.index t 1 * 64 + 1 * b.val = b.val; rw [e1]; omega

/-! Each parameter block is its whole array. -/

theorem rd0_2 (c : Dev nD) (t : Fin cfg0.N) (a : Fin 64) (b : Fin 128) :
    (iblk0 V c 2 t : Vec Ideal S64x128 .f32) (ix2 a b)
      = (V c main_v15 : (⟨2, ![64, 128]⟩ : Shape).Idx → EReal) (ix2 a b) := by
  have h := (idx0 t).2.2.2.2.2.2.1
  unfold iblk0
  rw [View.read_apply]
  show V c main_v15 _ = V c main_v15 _
  congr 1
  funext d
  apply Fin.ext
  match d with
  | ⟨0, _⟩ => show win0_2.index t 0 * 64 + 1 * a.val = a.val; rw [h 0]; omega
  | ⟨1, _⟩ => show win0_2.index t 1 * 128 + 1 * b.val = b.val; rw [h 1]; omega

theorem rd0_3 (c : Dev nD) (t : Fin cfg0.N) (b : Fin 128) :
    (iblk0 V c 3 t : Vec Ideal S1x128 .f32) (ix2 (0 : Fin 1) b)
      = (V c main_v38 : (⟨2, ![1, 128]⟩ : Shape).Idx → EReal) (ix2 (0 : Fin 1) b) := by
  have h := (idx0 t).2.2.2.2.2.2.2.1
  unfold iblk0
  rw [View.read_apply]
  show V c main_v38 _ = V c main_v38 _
  congr 1
  funext d
  apply Fin.ext
  match d with
  | ⟨0, _⟩ => show win0_3.index t 0 * 1 + 1 * (0 : Fin 1).val = (0 : Fin 1).val; rw [h 0]; omega
  | ⟨1, _⟩ => show win0_3.index t 1 * 128 + 1 * b.val = b.val; rw [h 1]; omega

theorem rd0_4 (c : Dev nD) (t : Fin cfg0.N) (b : Fin 128) :
    (iblk0 V c 4 t : Vec Ideal S1x128 .f32) (ix2 (0 : Fin 1) b)
      = (V c main_v39 : (⟨2, ![1, 128]⟩ : Shape).Idx → EReal) (ix2 (0 : Fin 1) b) := by
  have h := (idx0 t).2.2.2.2.2.2.2.2.1
  unfold iblk0
  rw [View.read_apply]
  show V c main_v39 _ = V c main_v39 _
  congr 1
  funext d
  apply Fin.ext
  match d with
  | ⟨0, _⟩ => show win0_4.index t 0 * 1 + 1 * (0 : Fin 1).val = (0 : Fin 1).val; rw [h 0]; omega
  | ⟨1, _⟩ => show win0_4.index t 1 * 128 + 1 * b.val = b.val; rw [h 1]; omega

theorem rd0_5 (c : Dev nD) (t : Fin cfg0.N) (b : Fin 128) :
    (iblk0 V c 5 t : Vec Ideal S1x128 .f32) (ix2 (0 : Fin 1) b)
      = (V c main_v40 : (⟨2, ![1, 128]⟩ : Shape).Idx → EReal) (ix2 (0 : Fin 1) b) := by
  have h := (idx0 t).2.2.2.2.2.2.2.2.2.1
  unfold iblk0
  rw [View.read_apply]
  show V c main_v40 _ = V c main_v40 _
  congr 1
  funext d
  apply Fin.ext
  match d with
  | ⟨0, _⟩ => show win0_5.index t 0 * 1 + 1 * (0 : Fin 1).val = (0 : Fin 1).val; rw [h 0]; omega
  | ⟨1, _⟩ => show win0_5.index t 1 * 128 + 1 * b.val = b.val; rw [h 1]; omega

theorem rd0_6 (c : Dev nD) (t : Fin cfg0.N) (b : Fin 128) :
    (iblk0 V c 6 t : Vec Ideal S1x128 .f32) (ix2 (0 : Fin 1) b)
      = (V c main_v41 : (⟨2, ![1, 128]⟩ : Shape).Idx → EReal) (ix2 (0 : Fin 1) b) := by
  have h := (idx0 t).2.2.2.2.2.2.2.2.2.2.1
  unfold iblk0
  rw [View.read_apply]
  show V c main_v41 _ = V c main_v41 _
  congr 1
  funext d
  apply Fin.ext
  match d with
  | ⟨0, _⟩ => show win0_6.index t 0 * 1 + 1 * (0 : Fin 1).val = (0 : Fin 1).val; rw [h 0]; omega
  | ⟨1, _⟩ => show win0_6.index t 1 * 128 + 1 * b.val = b.val; rw [h 1]; omega

theorem rd0_7 (c : Dev nD) (t : Fin cfg0.N) (b : Fin 128) :
    (iblk0 V c 7 t : Vec Ideal S1x128 .f32) (ix2 (0 : Fin 1) b)
      = (V c main_v42 : (⟨2, ![1, 128]⟩ : Shape).Idx → EReal) (ix2 (0 : Fin 1) b) := by
  have h := (idx0 t).2.2.2.2.2.2.2.2.2.2.2.1
  unfold iblk0
  rw [View.read_apply]
  show V c main_v42 _ = V c main_v42 _
  congr 1
  funext d
  apply Fin.ext
  match d with
  | ⟨0, _⟩ => show win0_7.index t 0 * 1 + 1 * (0 : Fin 1).val = (0 : Fin 1).val; rw [h 0]; omega
  | ⟨1, _⟩ => show win0_7.index t 1 * 128 + 1 * b.val = b.val; rw [h 1]; omega

theorem rd0_8 (c : Dev nD) (t : Fin cfg0.N) (a : Fin 128) (b : Fin 64) :
    (iblk0 V c 8 t : Vec Ideal S128x64 .f32) (ix2 a b)
      = (V c main_v27 : (⟨2, ![128, 64]⟩ : Shape).Idx → EReal) (ix2 a b) := by
  have h := (idx0 t).2.2.2.2.2.2.2.2.2.2.2.2.1
  unfold iblk0
  rw [View.read_apply]
  show V c main_v27 _ = V c main_v27 _
  congr 1
  funext d
  apply Fin.ext
  match d with
  | ⟨0, _⟩ => show win0_8.index t 0 * 128 + 1 * a.val = a.val; rw [h 0]; omega
  | ⟨1, _⟩ => show win0_8.index t 1 * 64 + 1 * b.val = b.val; rw [h 1]; omega

theorem rd0_9 (c : Dev nD) (t : Fin cfg0.N) (b : Fin 64) :
    (iblk0 V c 9 t : Vec Ideal S1x64 .f32) (ix2 (0 : Fin 1) b)
      = (V c main_v43 : (⟨2, ![1, 64]⟩ : Shape).Idx → EReal) (ix2 (0 : Fin 1) b) := by
  have h := (idx0 t).2.2.2.2.2.2.2.2.2.2.2.2.2.1
  unfold iblk0
  rw [View.read_apply]
  show V c main_v43 _ = V c main_v43 _
  congr 1
  funext d
  apply Fin.ext
  match d with
  | ⟨0, _⟩ => show win0_9.index t 0 * 1 + 1 * (0 : Fin 1).val = (0 : Fin 1).val; rw [h 0]; omega
  | ⟨1, _⟩ => show win0_9.index t 1 * 64 + 1 * b.val = b.val; rw [h 1]; omega

theorem rd0_10 (c : Dev nD) (t : Fin cfg0.N) (b : Fin 64) :
    (iblk0 V c 10 t : Vec Ideal S1x64 .f32) (ix2 (0 : Fin 1) b)
      = (V c main_v44 : (⟨2, ![1, 64]⟩ : Shape).Idx → EReal) (ix2 (0 : Fin 1) b) := by
  have h := (idx0 t).2.2.2.2.2.2.2.2.2.2.2.2.2.2.1
  unfold iblk0
  rw [View.read_apply]
  show V c main_v44 _ = V c main_v44 _
  congr 1
  funext d
  apply Fin.ext
  match d with
  | ⟨0, _⟩ => show win0_10.index t 0 * 1 + 1 * (0 : Fin 1).val = (0 : Fin 1).val; rw [h 0]; omega
  | ⟨1, _⟩ => show win0_10.index t 1 * 64 + 1 * b.val = b.val; rw [h 1]; omega

theorem rd0_11 (c : Dev nD) (t : Fin cfg0.N) (b : Fin 64) :
    (iblk0 V c 11 t : Vec Ideal S1x64 .f32) (ix2 (0 : Fin 1) b)
      = (V c main_v45 : (⟨2, ![1, 64]⟩ : Shape).Idx → EReal) (ix2 (0 : Fin 1) b) := by
  have h := (idx0 t).2.2.2.2.2.2.2.2.2.2.2.2.2.2.2.1
  unfold iblk0
  rw [View.read_apply]
  show V c main_v45 _ = V c main_v45 _
  congr 1
  funext d
  apply Fin.ext
  match d with
  | ⟨0, _⟩ => show win0_11.index t 0 * 1 + 1 * (0 : Fin 1).val = (0 : Fin 1).val; rw [h 0]; omega
  | ⟨1, _⟩ => show win0_11.index t 1 * 64 + 1 * b.val = b.val; rw [h 1]; omega

theorem rd0_12 (c : Dev nD) (t : Fin cfg0.N) (b : Fin 64) :
    (iblk0 V c 12 t : Vec Ideal S1x64 .f32) (ix2 (0 : Fin 1) b)
      = (V c main_v46 : (⟨2, ![1, 64]⟩ : Shape).Idx → EReal) (ix2 (0 : Fin 1) b) := by
  have h := (idx0 t).2.2.2.2.2.2.2.2.2.2.2.2.2.2.2.2.1
  unfold iblk0
  rw [View.read_apply]
  show V c main_v46 _ = V c main_v46 _
  congr 1
  funext d
  apply Fin.ext
  match d with
  | ⟨0, _⟩ => show win0_12.index t 0 * 1 + 1 * (0 : Fin 1).val = (0 : Fin 1).val; rw [h 0]; omega
  | ⟨1, _⟩ => show win0_12.index t 1 * 64 + 1 * b.val = b.val; rw [h 1]; omega

theorem rd0_13 (c : Dev nD) (t : Fin cfg0.N) (b : Fin 64) :
    (iblk0 V c 13 t : Vec Ideal S1x64 .f32) (ix2 (0 : Fin 1) b)
      = (V c main_v47 : (⟨2, ![1, 64]⟩ : Shape).Idx → EReal) (ix2 (0 : Fin 1) b) := by
  have h := (idx0 t).2.2.2.2.2.2.2.2.2.2.2.2.2.2.2.2.2
  unfold iblk0
  rw [View.read_apply]
  show V c main_v47 _ = V c main_v47 _
  congr 1
  funext d
  apply Fin.ext
  match d with
  | ⟨0, _⟩ => show win0_13.index t 0 * 1 + 1 * (0 : Fin 1).val = (0 : Fin 1).val; rw [h 0]; omega
  | ⟨1, _⟩ => show win0_13.index t 1 * 64 + 1 * b.val = b.val; rw [h 1]; omega

/-! ## The output array -/

/-- The layer of the specification, of the arrays the region is entered with. -/
abbrev layerAt0 (c : Dev nD) : (⟨2, ![100000, 64]⟩ : Shape).Idx → EReal :=
  Cert.GinSpec.layerArr true (V c main_arg0) (V c main_v13) (V c main_v15) (V c main_v38) (V c main_v39) (V c main_v40) (V c main_v41) (V c main_v42) (V c main_v27) (V c main_v43) (V c main_v44) (V c main_v45) (V c main_v46) (V c main_v47)

/-- What point `t` writes back is block `t` of that one function. -/
theorem flushed0 (c : Dev nD) (t : Fin cfg0.N) :
    (dat0 V c).flushed 14 t = ((cfg0.win 14).blk t).view.read (Elt Ideal) (layerAt0 V c) := by
  obtain ⟨-, -, -, -, e4, e5, -⟩ := idx0 t
  show (cfg0.win 14).cut (grid0.coords t) ((dat0 V c).after 14 t) = _
  rw [after0_14]
  unfold out0_14
  rw [View.canon_unit_zero hz0]
  simp only [View.ld_unit_zero (S := S4000x64) hz0, View.ld_unit_zero (S := S64x128) hz0, View.ld_unit_zero (S := S1x128) hz0, View.ld_unit_zero (S := S128x64) hz0, View.ld_unit_zero (S := S1x64) hz0]
  funext y
  have hy0 : (y 0).val < 4000 := (y 0).isLt
  have hy1 : (y 1).val < 64 := (y 1).isLt
  refine (block0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) y ⟨(y 0).val, hy0⟩ ⟨(y 1).val, hy1⟩ rfl rfl).trans ?_
  refine Eq.trans ?_ (Cert.GinSpec.layerArr_apply_of true (V c main_arg0) (V c main_v13) (V c main_v15) (V c main_v38) (V c main_v39) (V c main_v40) (V c main_v41) (V c main_v42) (V c main_v27) (V c main_v43) (V c main_v44) (V c main_v45) (V c main_v46) (V c main_v47)
    (((cfg0.win 14).blk t).view.emb y) ⟨t.val * 4000 + (y 0).val, rowBound0 _ _ (lt25_0 t) hy0⟩ ⟨(y 1).val, hy1⟩
    (by show win0_14.index t 0 * 4000 + 1 * (y 0).val = t.val * 4000 + (y 0).val; rw [e4]; omega)
    (by show win0_14.index t 1 * 64 + 1 * (y 1).val = (y 1).val; rw [e5]; omega)).symm
  simp only [Cert.GinSpec.rowOf, rd0_0 V c t, rd0_1 V c t, rd0_2 V c t, rd0_3 V c t, rd0_4 V c t, rd0_5 V c t, rd0_6 V c t, rd0_7 V c t, rd0_8 V c t, rd0_9 V c t, rd0_10 V c t, rd0_11 V c t, rd0_12 V c t, rd0_13 V c t]

/-- The output array after the region's run is the layer of its entry arrays. -/
theorem final0 (c : Dev nD) : (dat0 V c).arrAt 14 cfg0.N = layerAt0 V c :=
  (dat0 V c).arrAt_eq_of_cover 14 (layerAt0 V c) (fun t _ => flushed0 V c t) fun i => by
    have hi0 : (i 0 : Nat) < 100000 := (i 0).isLt
    have hi1 : (i 1 : Nat) < 64 := (i 1).isLt
    have hN : cfg0.N = 25 := N_0
    have hlt : (i 0 : Nat) / 4000 < cfg0.N := by rw [hN]; omega
    obtain ⟨-, -, -, -, e4, e5, -⟩ := idx0 ⟨(i 0 : Nat) / 4000, hlt⟩
    refine ⟨⟨(i 0 : Nat) / 4000, hlt⟩, flush0_14 _, ?_⟩
    show i ∈ ((View.whole main_v48).slice (win0_14.rect ⟨(i 0 : Nat) / 4000, hlt⟩)).set
    rw [View.set_slice_whole, Rect.mem_set_unit]
    intro a
    match a with
    | ⟨0, _⟩ =>
      show win0_14.index ⟨(i 0 : Nat) / 4000, hlt⟩ 0 * 4000 ≤ (i 0 : Nat)
        ∧ (i 0 : Nat) < win0_14.index ⟨(i 0 : Nat) / 4000, hlt⟩ 0 * 4000 + 4000
      rw [e4]; show (i 0 : Nat) / 4000 * 4000 ≤ (i 0 : Nat) ∧ (i 0 : Nat) < (i 0 : Nat) / 4000 * 4000 + 4000; omega
    | ⟨1, _⟩ =>
      show win0_14.index ⟨(i 0 : Nat) / 4000, hlt⟩ 1 * 64 ≤ (i 1 : Nat)
        ∧ (i 1 : Nat) < win0_14.index ⟨(i 0 : Nat) / 4000, hlt⟩ 1 * 64 + 64
      rw [e5]; omega

end Cert.KernelIdeal.Hand

end
-- ==== Proof.KBody1.lean ====
/-
  What the second layer's kernel leaves at one entry of its output block.

  The block computed at a grid point holds 4000 nodes.  Entry `(p, j)` depends only on row `p` of the
  two input blocks (the node's features and its aggregated neighbours) and on the layer's parameters: it
  is the layer's row function of the specification.  The narrowing of the matrix products' operands to a
  shorter float format is the identity on extended reals, and each product into a zero accumulator is the
  plain sum over the contracted axis.
-/
import proofs.«118457_j65111704207428_1_alg».proof.Proof.Gen.KernelIdeal.Skeleton
import proofs.«118457_j65111704207428_1_alg».proof.Proof.Spec
import proofs.«118457_j65111704207428_1_alg».proof.Proof.KEntry

noncomputable section

namespace Cert.KernelIdeal.Entry

open Idealize.ShloMosaic Idealize.ShloMosaic.ValueIdx Cert.KernelIdeal Cert.KernelIdeal.Gen

/-- The rectified hidden units of node `p` of the block, as computed by the first half of the body. -/
theorem hidden1_apply (x0 x1 : Vec Ideal S4000x64 .f32) (w1 : Vec Ideal S64x128 .f32)
    (b1 m1 v1 g1 bt1 : Vec Ideal S1x128 .f32) (p : Fin 4000) (q : Fin 128) :
    k1_pay2 (F := Ideal) x0 x1 w1 b1 m1 v1 g1 bt1 (ix2 p q)
      = Cert.GinSpec.hidden (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) q := by
  unfold k1_pay2 Cert.GinSpec.hidden Cert.GinSpec.bn
  simp only [truncf_apply, maximumf_apply, addf_apply, mulf_apply, subf_apply, broadcast_apply,
    bcast128_apply, shapeCast_self, matmul, matmul1_apply, rsqrt]
  rfl

/-- Entry `(p, j)` of the block the second layer's kernel stores: the layer's row function of row `p` of the
    two input blocks. -/
theorem out1_apply (x0 x1 : Vec Ideal S4000x64 .f32) (w1 : Vec Ideal S64x128 .f32)
    (b1 m1 v1 g1 bt1 : Vec Ideal S1x128 .f32) (w2 : Vec Ideal S128x64 .f32)
    (b2 m2 v2 g2 bt2 : Vec Ideal S1x64 .f32) (p : Fin 4000) (j : Fin 64) :
    k1_pay1 (F := Ideal) (k1_pay2 x0 x1 w1 b1 m1 v1 g1 bt1) (k1_pay3 w2) b2 m2 v2 g2 bt2 (ix2 p j)
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  rw [Cert.GinSpec.out_true]
  unfold k1_pay1 k1_pay3 Cert.GinSpec.pre Cert.GinSpec.bn
  simp only [truncf_apply, maximumf_apply, addf_apply, mulf_apply, subf_apply, broadcast_apply,
    bcast64_apply, shapeCast_self, matmul, matmul2_apply, rsqrt, hidden1_apply]
  rfl

/-- The whole block the second layer's kernel stores, as one function of its fourteen input blocks. -/
abbrev block1 (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) : FVec Ideal S4000x64 .f32 :=
  k1_pay1 (F := Ideal) (k1_pay2 x0 x1 w1 b1 m1 v1 g1 bt1) (k1_pay3 w2) b2 m2 v2 g2 bt2

/-- Its entry at any index `y` of the block: the row function of row `y 0`, at column `y 1`. -/
theorem block1_apply (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) (y : S4000x64.Idx) (p : Fin 4000) (j : Fin 64)
    (hp : (y 0).val = p.val) (hj : (y 1).val = j.val) :
    block1 x0 x1 w1 b1 g1 bt1 m1 v1 w2 b2 g2 bt2 m2 v2 y
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  have hy : y = ix2 p j := by
    funext a
    match a with
    | ⟨0, _⟩ => exact Fin.ext hp
    | ⟨1, _⟩ => exact Fin.ext hj
  rw [hy]
  exact out1_apply x0 x1 w1 b1 m1 v1 g1 bt1 w2 b2 m2 v2 g2 bt2 p j

end Cert.KernelIdeal.Entry

end
-- ==== Proof.KLayer1.lean ====
/-
  What the second layer's kernel leaves in its whole output array.

  The kernel runs at 25 grid points.  Point `t` reads rows `4000 t … 4000 t + 3999` of the node features and
  of the aggregated features, and all of each parameter array, and writes the same rows of the output.
  Since an output entry depends only on its own row of the two inputs, what point `t` writes back is those
  rows of ONE function of the whole input arrays: the layer of the specification.  The 25 row blocks tile
  the 100000 rows (row `r` lies in block `r / 4000`), so the output array ends holding that function.
-/
import proofs.«118457_j65111704207428_1_alg».proof.Proof.Gen.KernelIdeal.Frame
import Idealize.ShloMosaic.Lib.Pipeline.Value
import proofs.«118457_j65111704207428_1_alg».proof.Proof.Spec
import proofs.«118457_j65111704207428_1_alg».proof.Proof.KBody1

set_option maxRecDepth 16384

noncomputable section

namespace Cert.KernelIdeal.Hand

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps, decided over the 25 points: the two row windows and the output window sit at row block
    `t`, every parameter window at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0
    ∧ (∀ a : Fin 2, win1_2.index t a = 0)
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ (∀ a : Fin 2, win1_11.index t a = 0)
    ∧ (∀ a : Fin 2, win1_12.index t a = 0)
    ∧ (∀ a : Fin 2, win1_13.index t a = 0) :=
  (by decide +kernel : ∀ t : Fin grid1.N, _)

theorem lt25_1 (t : Fin cfg1.N) : t.val < 25 := by
  have h : t.val < cfg1.N := t.isLt
  have e : cfg1.N = 25 := N_1
  omega

theorem rowBound1 (t p : Nat) (ht : t < 25) (hp : p < 4000) : t * 4000 + p < 100000 := by omega

/-! ## Each input block, read off its array -/

/-- Row `p` of the node-feature block at point `t` is row `4000 t + p` of the array. -/
theorem rd1_0 (c : Dev nD) (t : Fin cfg1.N) (p : Fin 4000) (b : Fin 64) :
    (iblk1 V c 0 t : Vec Ideal S4000x64 .f32) (ix2 p b)
      = (V c main_v48 : (⟨2, ![100000, 64]⟩ : Shape).Idx → EReal)
          (ix2 ⟨t.val * 4000 + p.val, rowBound1 _ _ (lt25_1 t) p.isLt⟩ b) := by
  obtain ⟨e0, e1, -⟩ := idx1 t
  unfold iblk1
  rw [View.read_apply]
  show V c main_v48 _ = V c main_v48 _
  congr 1
  funext d
  apply Fin.ext
  match d with
  | ⟨0, _⟩ => show win1_0.index t 0 * 4000 + 1 * p.val = t.val * 4000 + p.val; rw [e0]; omega
  | ⟨1, _⟩ => show win1_0.index t 1 * 64 + 1 * b.val = b.val; rw [e1]; omega

/-- Likewise for the block of aggregated features. -/
theorem rd1_1 (c : Dev nD) (t : Fin cfg1.N) (p : Fin 4000) (b : Fin 64) :
    (iblk1 V c 1 t : Vec Ideal S4000x64 .f32) (ix2 p b)
      = (V c main_v58 : (⟨2, ![100000, 64]⟩ : Shape).Idx → EReal)
          (ix2 ⟨t.val * 4000 + p.val, rowBound1 _ _ (lt25_1 t) p.isLt⟩ b) := by
  obtain ⟨-, -, e0, e1, -⟩ := idx1 t
  unfold iblk1
  rw [View.read_apply]
  show V c main_v58 _ = V c main_v58 _
  congr 1
  funext d
  apply Fin.ext
  match d with
  | ⟨0, _⟩ => show win1_1.index t 0 * 4000 + 1 * p.val = t.val * 4000 + p.val; rw [e0]; omega
  | ⟨1, _⟩ => show win1_1.index t 1 * 64 + 1 * b.val = b.val; rw [e1]; omega

/-! Each parameter block is its whole array. -/

theorem rd1_2 (c : Dev nD) (t : Fin cfg1.N) (a : Fin 64) (b : Fin 128) :
    (iblk1 V c 2 t : Vec Ideal S64x128 .f32) (ix2 a b)
      = (V c main_v60 : (⟨2, ![64, 128]⟩ : Shape).Idx → EReal) (ix2 a b) := by
  have h := (idx1 t).2.2.2.2.2.2.1
  unfold iblk1
  rw [View.read_apply]
  show V c main_v60 _ = V c main_v60 _
  congr 1
  funext d
  apply Fin.ext
  match d with
  | ⟨0, _⟩ => show win1_2.index t 0 * 64 + 1 * a.val = a.val; rw [h 0]; omega
  | ⟨1, _⟩ => show win1_2.index t 1 * 128 + 1 * b.val = b.val; rw [h 1]; omega

theorem rd1_3 (c : Dev nD) (t : Fin cfg1.N) (b : Fin 128) :
    (iblk1 V c 3 t : Vec Ideal S1x128 .f32) (ix2 (0 : Fin 1) b)
      = (V c main_v83 : (⟨2, ![1, 128]⟩ : Shape).Idx → EReal) (ix2 (0 : Fin 1) b) := by
  have h := (idx1 t).2.2.2.2.2.2.2.1
  unfold iblk1
  rw [View.read_apply]
  show V c main_v83 _ = V c main_v83 _
  congr 1
  funext d
  apply Fin.ext
  match d with
  | ⟨0, _⟩ => show win1_3.index t 0 * 1 + 1 * (0 : Fin 1).val = (0 : Fin 1).val; rw [h 0]; omega
  | ⟨1, _⟩ => show win1_3.index t 1 * 128 + 1 * b.val = b.val; rw [h 1]; omega

theorem rd1_4 (c : Dev nD) (t : Fin cfg1.N) (b : Fin 128) :
    (iblk1 V c 4 t : Vec Ideal S1x128 .f32) (ix2 (0 : Fin 1) b)
      = (V c main_v84 : (⟨2, ![1, 128]⟩ : Shape).Idx → EReal) (ix2 (0 : Fin 1) b) := by
  have h := (idx1 t).2.2.2.2.2.2.2.2.1
  unfold iblk1
  rw [View.read_apply]
  show V c main_v84 _ = V c main_v84 _
  congr 1
  funext d
  apply Fin.ext
  match d with
  | ⟨0, _⟩ => show win1_4.index t 0 * 1 + 1 * (0 : Fin 1).val = (0 : Fin 1).val; rw [h 0]; omega
  | ⟨1, _⟩ => show win1_4.index t 1 * 128 + 1 * b.val = b.val; rw [h 1]; omega

theorem rd1_5 (c : Dev nD) (t : Fin cfg1.N) (b : Fin 128) :
    (iblk1 V c 5 t : Vec Ideal S1x128 .f32) (ix2 (0 : Fin 1) b)
      = (V c main_v85 : (⟨2, ![1, 128]⟩ : Shape).Idx → EReal) (ix2 (0 : Fin 1) b) := by
  have h := (idx1 t).2.2.2.2.2.2.2.2.2.1
  unfold iblk1
  rw [View.read_apply]
  show V c main_v85 _ = V c main_v85 _
  congr 1
  funext d
  apply Fin.ext
  match d with
  | ⟨0, _⟩ => show win1_5.index t 0 * 1 + 1 * (0 : Fin 1).val = (0 : Fin 1).val; rw [h 0]; omega
  | ⟨1, _⟩ => show win1_5.index t 1 * 128 + 1 * b.val = b.val; rw [h 1]; omega

theorem rd1_6 (c : Dev nD) (t : Fin cfg1.N) (b : Fin 128) :
    (iblk1 V c 6 t : Vec Ideal S1x128 .f32) (ix2 (0 : Fin 1) b)
      = (V c main_v86 : (⟨2, ![1, 128]⟩ : Shape).Idx → EReal) (ix2 (0 : Fin 1) b) := by
  have h := (idx1 t).2.2.2.2.2.2.2.2.2.2.1
  unfold iblk1
  rw [View.read_apply]
  show V c main_v86 _ = V c main_v86 _
  congr 1
  funext d
  apply Fin.ext
  match d with
  | ⟨0, _⟩ => show win1_6.index t 0 * 1 + 1 * (0 : Fin 1).val = (0 : Fin 1).val; rw [h 0]; omega
  | ⟨1, _⟩ => show win1_6.index t 1 * 128 + 1 * b.val = b.val; rw [h 1]; omega

theorem rd1_7 (c : Dev nD) (t : Fin cfg1.N) (b : Fin 128) :
    (iblk1 V c 7 t : Vec Ideal S1x128 .f32) (ix2 (0 : Fin 1) b)
      = (V c main_v87 : (⟨2, ![1, 128]⟩ : Shape).Idx → EReal) (ix2 (0 : Fin 1) b) := by
  have h := (idx1 t).2.2.2.2.2.2.2.2.2.2.2.1
  unfold iblk1
  rw [View.read_apply]
  show V c main_v87 _ = V c main_v87 _
  congr 1
  funext d
  apply Fin.ext
  match d with
  | ⟨0, _⟩ => show win1_7.index t 0 * 1 + 1 * (0 : Fin 1).val = (0 : Fin 1).val; rw [h 0]; omega
  | ⟨1, _⟩ => show win1_7.index t 1 * 128 + 1 * b.val = b.val; rw [h 1]; omega

theorem rd1_8 (c : Dev nD) (t : Fin cfg1.N) (a : Fin 128) (b : Fin 64) :
    (iblk1 V c 8 t : Vec Ideal S128x64 .f32) (ix2 a b)
      = (V c main_v72 : (⟨2, ![128, 64]⟩ : Shape).Idx → EReal) (ix2 a b) := by
  have h := (idx1 t).2.2.2.2.2.2.2.2.2.2.2.2.1
  unfold iblk1
  rw [View.read_apply]
  show V c main_v72 _ = V c main_v72 _
  congr 1
  funext d
  apply Fin.ext
  match d with
  | ⟨0, _⟩ => show win1_8.index t 0 * 128 + 1 * a.val = a.val; rw [h 0]; omega
  | ⟨1, _⟩ => show win1_8.index t 1 * 64 + 1 * b.val = b.val; rw [h 1]; omega

theorem rd1_9 (c : Dev nD) (t : Fin cfg1.N) (b : Fin 64) :
    (iblk1 V c 9 t : Vec Ideal S1x64 .f32) (ix2 (0 : Fin 1) b)
      = (V c main_v88 : (⟨2, ![1, 64]⟩ : Shape).Idx → EReal) (ix2 (0 : Fin 1) b) := by
  have h := (idx1 t).2.2.2.2.2.2.2.2.2.2.2.2.2.1
  unfold iblk1
  rw [View.read_apply]
  show V c main_v88 _ = V c main_v88 _
  congr 1
  funext d
  apply Fin.ext
  match d with
  | ⟨0, _⟩ => show win1_9.index t 0 * 1 + 1 * (0 : Fin 1).val = (0 : Fin 1).val; rw [h 0]; omega
  | ⟨1, _⟩ => show win1_9.index t 1 * 64 + 1 * b.val = b.val; rw [h 1]; omega

theorem rd1_10 (c : Dev nD) (t : Fin cfg1.N) (b : Fin 64) :
    (iblk1 V c 10 t : Vec Ideal S1x64 .f32) (ix2 (0 : Fin 1) b)
      = (V c main_v89 : (⟨2, ![1, 64]⟩ : Shape).Idx → EReal) (ix2 (0 : Fin 1) b) := by
  have h := (idx1 t).2.2.2.2.2.2.2.2.2.2.2.2.2.2.1
  unfold iblk1
  rw [View.read_apply]
  show V c main_v89 _ = V c main_v89 _
  congr 1
  funext d
  apply Fin.ext
  match d with
  | ⟨0, _⟩ => show win1_10.index t 0 * 1 + 1 * (0 : Fin 1).val = (0 : Fin 1).val; rw [h 0]; omega
  | ⟨1, _⟩ => show win1_10.index t 1 * 64 + 1 * b.val = b.val; rw [h 1]; omega

theorem rd1_11 (c : Dev nD) (t : Fin cfg1.N) (b : Fin 64) :
    (iblk1 V c 11 t : Vec Ideal S1x64 .f32) (ix2 (0 : Fin 1) b)
      = (V c main_v90 : (⟨2, ![1, 64]⟩ : Shape).Idx → EReal) (ix2 (0 : Fin 1) b) := by
  have h := (idx1 t).2.2.2.2.2.2.2.2.2.2.2.2.2.2.2.1
  unfold iblk1
  rw [View.read_apply]
  show V c main_v90 _ = V c main_v90 _
  congr 1
  funext d
  apply Fin.ext
  match d with
  | ⟨0, _⟩ => show win1_11.index t 0 * 1 + 1 * (0 : Fin 1).val = (0 : Fin 1).val; rw [h 0]; omega
  | ⟨1, _⟩ => show win1_11.index t 1 * 64 + 1 * b.val = b.val; rw [h 1]; omega

theorem rd1_12 (c : Dev nD) (t : Fin cfg1.N) (b : Fin 64) :
    (iblk1 V c 12 t : Vec Ideal S1x64 .f32) (ix2 (0 : Fin 1) b)
      = (V c main_v91 : (⟨2, ![1, 64]⟩ : Shape).Idx → EReal) (ix2 (0 : Fin 1) b) := by
  have h := (idx1 t).2.2.2.2.2.2.2.2.2.2.2.2.2.2.2.2.1
  unfold iblk1
  rw [View.read_apply]
  show V c main_v91 _ = V c main_v91 _
  congr 1
  funext d
  apply Fin.ext
  match d with
  | ⟨0, _⟩ => show win1_12.index t 0 * 1 + 1 * (0 : Fin 1).val = (0 : Fin 1).val; rw [h 0]; omega
  | ⟨1, _⟩ => show win1_12.index t 1 * 64 + 1 * b.val = b.val; rw [h 1]; omega

theorem rd1_13 (c : Dev nD) (t : Fin cfg1.N) (b : Fin 64) :
    (iblk1 V c 13 t : Vec Ideal S1x64 .f32) (ix2 (0 : Fin 1) b)
      = (V c main_v92 : (⟨2, ![1, 64]⟩ : Shape).Idx → EReal) (ix2 (0 : Fin 1) b) := by
  have h := (idx1 t).2.2.2.2.2.2.2.2.2.2.2.2.2.2.2.2.2
  unfold iblk1
  rw [View.read_apply]
  show V c main_v92 _ = V c main_v92 _
  congr 1
  funext d
  apply Fin.ext
  match d with
  | ⟨0, _⟩ => show win1_13.index t 0 * 1 + 1 * (0 : Fin 1).val = (0 : Fin 1).val; rw [h 0]; omega
  | ⟨1, _⟩ => show win1_13.index t 1 * 64 + 1 * b.val = b.val; rw [h 1]; omega

/-! ## The output array -/

/-- The layer of the specification, of the arrays the region is entered with. -/
abbrev layerAt1 (c : Dev nD) : (⟨2, ![100000, 64]⟩ : Shape).Idx → EReal :=
  Cert.GinSpec.layerArr true (V c main_v48) (V c main_v58) (V c main_v60) (V c main_v83) (V c main_v84) (V c main_v85) (V c main_v86) (V c main_v87) (V c main_v72) (V c main_v88) (V c main_v89) (V c main_v90) (V c main_v91) (V c main_v92)

/-- What point `t` writes back is block `t` of that one function. -/
theorem flushed1 (c : Dev nD) (t : Fin cfg1.N) :
    (dat1 V c).flushed 14 t = ((cfg1.win 14).blk t).view.read (Elt Ideal) (layerAt1 V c) := by
  obtain ⟨-, -, -, -, e4, e5, -⟩ := idx1 t
  show (cfg1.win 14).cut (grid1.coords t) ((dat1 V c).after 14 t) = _
  rw [after1_14]
  unfold out1_14
  rw [View.canon_unit_zero hz1]
  simp only [View.ld_unit_zero (S := S4000x64) hz1, View.ld_unit_zero (S := S64x128) hz1, View.ld_unit_zero (S := S1x128) hz1, View.ld_unit_zero (S := S128x64) hz1, View.ld_unit_zero (S := S1x64) hz1]
  funext y
  have hy0 : (y 0).val < 4000 := (y 0).isLt
  have hy1 : (y 1).val < 64 := (y 1).isLt
  refine (block1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) y ⟨(y 0).val, hy0⟩ ⟨(y 1).val, hy1⟩ rfl rfl).trans ?_
  refine Eq.trans ?_ (Cert.GinSpec.layerArr_apply_of true (V c main_v48) (V c main_v58) (V c main_v60) (V c main_v83) (V c main_v84) (V c main_v85) (V c main_v86) (V c main_v87) (V c main_v72) (V c main_v88) (V c main_v89) (V c main_v90) (V c main_v91) (V c main_v92)
    (((cfg1.win 14).blk t).view.emb y) ⟨t.val * 4000 + (y 0).val, rowBound1 _ _ (lt25_1 t) hy0⟩ ⟨(y 1).val, hy1⟩
    (by show win1_14.index t 0 * 4000 + 1 * (y 0).val = t.val * 4000 + (y 0).val; rw [e4]; omega)
    (by show win1_14.index t 1 * 64 + 1 * (y 1).val = (y 1).val; rw [e5]; omega)).symm
  simp only [Cert.GinSpec.rowOf, rd1_0 V c t, rd1_1 V c t, rd1_2 V c t, rd1_3 V c t, rd1_4 V c t, rd1_5 V c t, rd1_6 V c t, rd1_7 V c t, rd1_8 V c t, rd1_9 V c t, rd1_10 V c t, rd1_11 V c t, rd1_12 V c t, rd1_13 V c t]

/-- The output array after the region's run is the layer of its entry arrays. -/
theorem final1 (c : Dev nD) : (dat1 V c).arrAt 14 cfg1.N = layerAt1 V c :=
  (dat1 V c).arrAt_eq_of_cover 14 (layerAt1 V c) (fun t _ => flushed1 V c t) fun i => by
    have hi0 : (i 0 : Nat) < 100000 := (i 0).isLt
    have hi1 : (i 1 : Nat) < 64 := (i 1).isLt
    have hN : cfg1.N = 25 := N_1
    have hlt : (i 0 : Nat) / 4000 < cfg1.N := by rw [hN]; omega
    obtain ⟨-, -, -, -, e4, e5, -⟩ := idx1 ⟨(i 0 : Nat) / 4000, hlt⟩
    refine ⟨⟨(i 0 : Nat) / 4000, hlt⟩, flush1_14 _, ?_⟩
    show i ∈ ((View.whole main_v93).slice (win1_14.rect ⟨(i 0 : Nat) / 4000, hlt⟩)).set
    rw [View.set_slice_whole, Rect.mem_set_unit]
    intro a
    match a with
    | ⟨0, _⟩ =>
      show win1_14.index ⟨(i 0 : Nat) / 4000, hlt⟩ 0 * 4000 ≤ (i 0 : Nat)
        ∧ (i 0 : Nat) < win1_14.index ⟨(i 0 : Nat) / 4000, hlt⟩ 0 * 4000 + 4000
      rw [e4]; show (i 0 : Nat) / 4000 * 4000 ≤ (i 0 : Nat) ∧ (i 0 : Nat) < (i 0 : Nat) / 4000 * 4000 + 4000; omega
    | ⟨1, _⟩ =>
      show win1_14.index ⟨(i 0 : Nat) / 4000, hlt⟩ 1 * 64 ≤ (i 1 : Nat)
        ∧ (i 1 : Nat) < win1_14.index ⟨(i 0 : Nat) / 4000, hlt⟩ 1 * 64 + 64
      rw [e5]; omega

end Cert.KernelIdeal.Hand

end
-- ==== Proof.KBody2.lean ====
/-
  What the third layer's kernel leaves at one entry of its output block.

  The block computed at a grid point holds 4000 nodes.  Entry `(p, j)` depends only on row `p` of the
  two input blocks (the node's features and its aggregated neighbours) and on the layer's parameters: it
  is the layer's row function of the specification.  The narrowing of the matrix products' operands to a
  shorter float format is the identity on extended reals, and each product into a zero accumulator is the
  plain sum over the contracted axis.
-/
import proofs.«118457_j65111704207428_1_alg».proof.Proof.Gen.KernelIdeal.Skeleton
import proofs.«118457_j65111704207428_1_alg».proof.Proof.Spec
import proofs.«118457_j65111704207428_1_alg».proof.Proof.KEntry

noncomputable section

namespace Cert.KernelIdeal.Entry

open Idealize.ShloMosaic Idealize.ShloMosaic.ValueIdx Cert.KernelIdeal Cert.KernelIdeal.Gen

/-- The rectified hidden units of node `p` of the block, as computed by the first half of the body. -/
theorem hidden2_apply (x0 x1 : Vec Ideal S4000x64 .f32) (w1 : Vec Ideal S64x128 .f32)
    (b1 m1 v1 g1 bt1 : Vec Ideal S1x128 .f32) (p : Fin 4000) (q : Fin 128) :
    k2_pay2 (F := Ideal) x0 x1 w1 b1 m1 v1 g1 bt1 (ix2 p q)
      = Cert.GinSpec.hidden (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) q := by
  unfold k2_pay2 Cert.GinSpec.hidden Cert.GinSpec.bn
  simp only [truncf_apply, maximumf_apply, addf_apply, mulf_apply, subf_apply, broadcast_apply,
    bcast128_apply, shapeCast_self, matmul, matmul1_apply, rsqrt]
  rfl

/-- Entry `(p, j)` of the block the third layer's kernel stores: the layer's row function of row `p` of the
    two input blocks. -/
theorem out2_apply (x0 x1 : Vec Ideal S4000x64 .f32) (w1 : Vec Ideal S64x128 .f32)
    (b1 m1 v1 g1 bt1 : Vec Ideal S1x128 .f32) (w2 : Vec Ideal S128x64 .f32)
    (b2 m2 v2 g2 bt2 : Vec Ideal S1x64 .f32) (p : Fin 4000) (j : Fin 64) :
    k2_pay1 (F := Ideal) (k2_pay2 x0 x1 w1 b1 m1 v1 g1 bt1) (k2_pay3 w2) b2 m2 v2 g2 bt2 (ix2 p j)
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  rw [Cert.GinSpec.out_true]
  unfold k2_pay1 k2_pay3 Cert.GinSpec.pre Cert.GinSpec.bn
  simp only [truncf_apply, maximumf_apply, addf_apply, mulf_apply, subf_apply, broadcast_apply,
    bcast64_apply, shapeCast_self, matmul, matmul2_apply, rsqrt, hidden2_apply]
  rfl

/-- The whole block the third layer's kernel stores, as one function of its fourteen input blocks. -/
abbrev block2 (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) : FVec Ideal S4000x64 .f32 :=
  k2_pay1 (F := Ideal) (k2_pay2 x0 x1 w1 b1 m1 v1 g1 bt1) (k2_pay3 w2) b2 m2 v2 g2 bt2

/-- Its entry at any index `y` of the block: the row function of row `y 0`, at column `y 1`. -/
theorem block2_apply (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) (y : S4000x64.Idx) (p : Fin 4000) (j : Fin 64)
    (hp : (y 0).val = p.val) (hj : (y 1).val = j.val) :
    block2 x0 x1 w1 b1 g1 bt1 m1 v1 w2 b2 g2 bt2 m2 v2 y
      = Cert.GinSpec.out true (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  have hy : y = ix2 p j := by
    funext a
    match a with
    | ⟨0, _⟩ => exact Fin.ext hp
    | ⟨1, _⟩ => exact Fin.ext hj
  rw [hy]
  exact out2_apply x0 x1 w1 b1 m1 v1 g1 bt1 w2 b2 m2 v2 g2 bt2 p j

end Cert.KernelIdeal.Entry

end
-- ==== Proof.KLayer2.lean ====
/-
  What the third layer's kernel leaves in its whole output array.

  The kernel runs at 25 grid points.  Point `t` reads rows `4000 t … 4000 t + 3999` of the node features and
  of the aggregated features, and all of each parameter array, and writes the same rows of the output.
  Since an output entry depends only on its own row of the two inputs, what point `t` writes back is those
  rows of ONE function of the whole input arrays: the layer of the specification.  The 25 row blocks tile
  the 100000 rows (row `r` lies in block `r / 4000`), so the output array ends holding that function.
-/
import proofs.«118457_j65111704207428_1_alg».proof.Proof.Gen.KernelIdeal.Frame
import Idealize.ShloMosaic.Lib.Pipeline.Value
import proofs.«118457_j65111704207428_1_alg».proof.Proof.Spec
import proofs.«118457_j65111704207428_1_alg».proof.Proof.KBody2

set_option maxRecDepth 16384

noncomputable section

namespace Cert.KernelIdeal.Hand

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The index maps, decided over the 25 points: the two row windows and the output window sit at row block
    `t`, every parameter window at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_14.index t (0 : Fin 2) = t.val ∧ win2_14.index t (1 : Fin 2) = 0
    ∧ (∀ a : Fin 2, win2_2.index t a = 0)
    ∧ (∀ a : Fin 2, win2_3.index t a = 0)
    ∧ (∀ a : Fin 2, win2_4.index t a = 0)
    ∧ (∀ a : Fin 2, win2_5.index t a = 0)
    ∧ (∀ a : Fin 2, win2_6.index t a = 0)
    ∧ (∀ a : Fin 2, win2_7.index t a = 0)
    ∧ (∀ a : Fin 2, win2_8.index t a = 0)
    ∧ (∀ a : Fin 2, win2_9.index t a = 0)
    ∧ (∀ a : Fin 2, win2_10.index t a = 0)
    ∧ (∀ a : Fin 2, win2_11.index t a = 0)
    ∧ (∀ a : Fin 2, win2_12.index t a = 0)
    ∧ (∀ a : Fin 2, win2_13.index t a = 0) :=
  (by decide +kernel : ∀ t : Fin grid2.N, _)

theorem lt25_2 (t : Fin cfg2.N) : t.val < 25 := by
  have h : t.val < cfg2.N := t.isLt
  have e : cfg2.N = 25 := N_2
  omega

theorem rowBound2 (t p : Nat) (ht : t < 25) (hp : p < 4000) : t * 4000 + p < 100000 := by omega

/-! ## Each input block, read off its array -/

/-- Row `p` of the node-feature block at point `t` is row `4000 t + p` of the array. -/
theorem rd2_0 (c : Dev nD) (t : Fin cfg2.N) (p : Fin 4000) (b : Fin 64) :
    (iblk2 V c 0 t : Vec Ideal S4000x64 .f32) (ix2 p b)
      = (V c main_v93 : (⟨2, ![100000, 64]⟩ : Shape).Idx → EReal)
          (ix2 ⟨t.val * 4000 + p.val, rowBound2 _ _ (lt25_2 t) p.isLt⟩ b) := by
  obtain ⟨e0, e1, -⟩ := idx2 t
  unfold iblk2
  rw [View.read_apply]
  show V c main_v93 _ = V c main_v93 _
  congr 1
  funext d
  apply Fin.ext
  match d with
  | ⟨0, _⟩ => show win2_0.index t 0 * 4000 + 1 * p.val = t.val * 4000 + p.val; rw [e0]; omega
  | ⟨1, _⟩ => show win2_0.index t 1 * 64 + 1 * b.val = b.val; rw [e1]; omega

/-- Likewise for the block of aggregated features. -/
theorem rd2_1 (c : Dev nD) (t : Fin cfg2.N) (p : Fin 4000) (b : Fin 64) :
    (iblk2 V c 1 t : Vec Ideal S4000x64 .f32) (ix2 p b)
      = (V c main_v103 : (⟨2, ![100000, 64]⟩ : Shape).Idx → EReal)
          (ix2 ⟨t.val * 4000 + p.val, rowBound2 _ _ (lt25_2 t) p.isLt⟩ b) := by
  obtain ⟨-, -, e0, e1, -⟩ := idx2 t
  unfold iblk2
  rw [View.read_apply]
  show V c main_v103 _ = V c main_v103 _
  congr 1
  funext d
  apply Fin.ext
  match d with
  | ⟨0, _⟩ => show win2_1.index t 0 * 4000 + 1 * p.val = t.val * 4000 + p.val; rw [e0]; omega
  | ⟨1, _⟩ => show win2_1.index t 1 * 64 + 1 * b.val = b.val; rw [e1]; omega

/-! Each parameter block is its whole array. -/

theorem rd2_2 (c : Dev nD) (t : Fin cfg2.N) (a : Fin 64) (b : Fin 128) :
    (iblk2 V c 2 t : Vec Ideal S64x128 .f32) (ix2 a b)
      = (V c main_v105 : (⟨2, ![64, 128]⟩ : Shape).Idx → EReal) (ix2 a b) := by
  have h := (idx2 t).2.2.2.2.2.2.1
  unfold iblk2
  rw [View.read_apply]
  show V c main_v105 _ = V c main_v105 _
  congr 1
  funext d
  apply Fin.ext
  match d with
  | ⟨0, _⟩ => show win2_2.index t 0 * 64 + 1 * a.val = a.val; rw [h 0]; omega
  | ⟨1, _⟩ => show win2_2.index t 1 * 128 + 1 * b.val = b.val; rw [h 1]; omega

theorem rd2_3 (c : Dev nD) (t : Fin cfg2.N) (b : Fin 128) :
    (iblk2 V c 3 t : Vec Ideal S1x128 .f32) (ix2 (0 : Fin 1) b)
      = (V c main_v128 : (⟨2, ![1, 128]⟩ : Shape).Idx → EReal) (ix2 (0 : Fin 1) b) := by
  have h := (idx2 t).2.2.2.2.2.2.2.1
  unfold iblk2
  rw [View.read_apply]
  show V c main_v128 _ = V c main_v128 _
  congr 1
  funext d
  apply Fin.ext
  match d with
  | ⟨0, _⟩ => show win2_3.index t 0 * 1 + 1 * (0 : Fin 1).val = (0 : Fin 1).val; rw [h 0]; omega
  | ⟨1, _⟩ => show win2_3.index t 1 * 128 + 1 * b.val = b.val; rw [h 1]; omega

theorem rd2_4 (c : Dev nD) (t : Fin cfg2.N) (b : Fin 128) :
    (iblk2 V c 4 t : Vec Ideal S1x128 .f32) (ix2 (0 : Fin 1) b)
      = (V c main_v129 : (⟨2, ![1, 128]⟩ : Shape).Idx → EReal) (ix2 (0 : Fin 1) b) := by
  have h := (idx2 t).2.2.2.2.2.2.2.2.1
  unfold iblk2
  rw [View.read_apply]
  show V c main_v129 _ = V c main_v129 _
  congr 1
  funext d
  apply Fin.ext
  match d with
  | ⟨0, _⟩ => show win2_4.index t 0 * 1 + 1 * (0 : Fin 1).val = (0 : Fin 1).val; rw [h 0]; omega
  | ⟨1, _⟩ => show win2_4.index t 1 * 128 + 1 * b.val = b.val; rw [h 1]; omega

theorem rd2_5 (c : Dev nD) (t : Fin cfg2.N) (b : Fin 128) :
    (iblk2 V c 5 t : Vec Ideal S1x128 .f32) (ix2 (0 : Fin 1) b)
      = (V c main_v130 : (⟨2, ![1, 128]⟩ : Shape).Idx → EReal) (ix2 (0 : Fin 1) b) := by
  have h := (idx2 t).2.2.2.2.2.2.2.2.2.1
  unfold iblk2
  rw [View.read_apply]
  show V c main_v130 _ = V c main_v130 _
  congr 1
  funext d
  apply Fin.ext
  match d with
  | ⟨0, _⟩ => show win2_5.index t 0 * 1 + 1 * (0 : Fin 1).val = (0 : Fin 1).val; rw [h 0]; omega
  | ⟨1, _⟩ => show win2_5.index t 1 * 128 + 1 * b.val = b.val; rw [h 1]; omega

theorem rd2_6 (c : Dev nD) (t : Fin cfg2.N) (b : Fin 128) :
    (iblk2 V c 6 t : Vec Ideal S1x128 .f32) (ix2 (0 : Fin 1) b)
      = (V c main_v131 : (⟨2, ![1, 128]⟩ : Shape).Idx → EReal) (ix2 (0 : Fin 1) b) := by
  have h := (idx2 t).2.2.2.2.2.2.2.2.2.2.1
  unfold iblk2
  rw [View.read_apply]
  show V c main_v131 _ = V c main_v131 _
  congr 1
  funext d
  apply Fin.ext
  match d with
  | ⟨0, _⟩ => show win2_6.index t 0 * 1 + 1 * (0 : Fin 1).val = (0 : Fin 1).val; rw [h 0]; omega
  | ⟨1, _⟩ => show win2_6.index t 1 * 128 + 1 * b.val = b.val; rw [h 1]; omega

theorem rd2_7 (c : Dev nD) (t : Fin cfg2.N) (b : Fin 128) :
    (iblk2 V c 7 t : Vec Ideal S1x128 .f32) (ix2 (0 : Fin 1) b)
      = (V c main_v132 : (⟨2, ![1, 128]⟩ : Shape).Idx → EReal) (ix2 (0 : Fin 1) b) := by
  have h := (idx2 t).2.2.2.2.2.2.2.2.2.2.2.1
  unfold iblk2
  rw [View.read_apply]
  show V c main_v132 _ = V c main_v132 _
  congr 1
  funext d
  apply Fin.ext
  match d with
  | ⟨0, _⟩ => show win2_7.index t 0 * 1 + 1 * (0 : Fin 1).val = (0 : Fin 1).val; rw [h 0]; omega
  | ⟨1, _⟩ => show win2_7.index t 1 * 128 + 1 * b.val = b.val; rw [h 1]; omega

theorem rd2_8 (c : Dev nD) (t : Fin cfg2.N) (a : Fin 128) (b : Fin 64) :
    (iblk2 V c 8 t : Vec Ideal S128x64 .f32) (ix2 a b)
      = (V c main_v117 : (⟨2, ![128, 64]⟩ : Shape).Idx → EReal) (ix2 a b) := by
  have h := (idx2 t).2.2.2.2.2.2.2.2.2.2.2.2.1
  unfold iblk2
  rw [View.read_apply]
  show V c main_v117 _ = V c main_v117 _
  congr 1
  funext d
  apply Fin.ext
  match d with
  | ⟨0, _⟩ => show win2_8.index t 0 * 128 + 1 * a.val = a.val; rw [h 0]; omega
  | ⟨1, _⟩ => show win2_8.index t 1 * 64 + 1 * b.val = b.val; rw [h 1]; omega

theorem rd2_9 (c : Dev nD) (t : Fin cfg2.N) (b : Fin 64) :
    (iblk2 V c 9 t : Vec Ideal S1x64 .f32) (ix2 (0 : Fin 1) b)
      = (V c main_v133 : (⟨2, ![1, 64]⟩ : Shape).Idx → EReal) (ix2 (0 : Fin 1) b) := by
  have h := (idx2 t).2.2.2.2.2.2.2.2.2.2.2.2.2.1
  unfold iblk2
  rw [View.read_apply]
  show V c main_v133 _ = V c main_v133 _
  congr 1
  funext d
  apply Fin.ext
  match d with
  | ⟨0, _⟩ => show win2_9.index t 0 * 1 + 1 * (0 : Fin 1).val = (0 : Fin 1).val; rw [h 0]; omega
  | ⟨1, _⟩ => show win2_9.index t 1 * 64 + 1 * b.val = b.val; rw [h 1]; omega

theorem rd2_10 (c : Dev nD) (t : Fin cfg2.N) (b : Fin 64) :
    (iblk2 V c 10 t : Vec Ideal S1x64 .f32) (ix2 (0 : Fin 1) b)
      = (V c main_v134 : (⟨2, ![1, 64]⟩ : Shape).Idx → EReal) (ix2 (0 : Fin 1) b) := by
  have h := (idx2 t).2.2.2.2.2.2.2.2.2.2.2.2.2.2.1
  unfold iblk2
  rw [View.read_apply]
  show V c main_v134 _ = V c main_v134 _
  congr 1
  funext d
  apply Fin.ext
  match d with
  | ⟨0, _⟩ => show win2_10.index t 0 * 1 + 1 * (0 : Fin 1).val = (0 : Fin 1).val; rw [h 0]; omega
  | ⟨1, _⟩ => show win2_10.index t 1 * 64 + 1 * b.val = b.val; rw [h 1]; omega

theorem rd2_11 (c : Dev nD) (t : Fin cfg2.N) (b : Fin 64) :
    (iblk2 V c 11 t : Vec Ideal S1x64 .f32) (ix2 (0 : Fin 1) b)
      = (V c main_v135 : (⟨2, ![1, 64]⟩ : Shape).Idx → EReal) (ix2 (0 : Fin 1) b) := by
  have h := (idx2 t).2.2.2.2.2.2.2.2.2.2.2.2.2.2.2.1
  unfold iblk2
  rw [View.read_apply]
  show V c main_v135 _ = V c main_v135 _
  congr 1
  funext d
  apply Fin.ext
  match d with
  | ⟨0, _⟩ => show win2_11.index t 0 * 1 + 1 * (0 : Fin 1).val = (0 : Fin 1).val; rw [h 0]; omega
  | ⟨1, _⟩ => show win2_11.index t 1 * 64 + 1 * b.val = b.val; rw [h 1]; omega

theorem rd2_12 (c : Dev nD) (t : Fin cfg2.N) (b : Fin 64) :
    (iblk2 V c 12 t : Vec Ideal S1x64 .f32) (ix2 (0 : Fin 1) b)
      = (V c main_v136 : (⟨2, ![1, 64]⟩ : Shape).Idx → EReal) (ix2 (0 : Fin 1) b) := by
  have h := (idx2 t).2.2.2.2.2.2.2.2.2.2.2.2.2.2.2.2.1
  unfold iblk2
  rw [View.read_apply]
  show V c main_v136 _ = V c main_v136 _
  congr 1
  funext d
  apply Fin.ext
  match d with
  | ⟨0, _⟩ => show win2_12.index t 0 * 1 + 1 * (0 : Fin 1).val = (0 : Fin 1).val; rw [h 0]; omega
  | ⟨1, _⟩ => show win2_12.index t 1 * 64 + 1 * b.val = b.val; rw [h 1]; omega

theorem rd2_13 (c : Dev nD) (t : Fin cfg2.N) (b : Fin 64) :
    (iblk2 V c 13 t : Vec Ideal S1x64 .f32) (ix2 (0 : Fin 1) b)
      = (V c main_v137 : (⟨2, ![1, 64]⟩ : Shape).Idx → EReal) (ix2 (0 : Fin 1) b) := by
  have h := (idx2 t).2.2.2.2.2.2.2.2.2.2.2.2.2.2.2.2.2
  unfold iblk2
  rw [View.read_apply]
  show V c main_v137 _ = V c main_v137 _
  congr 1
  funext d
  apply Fin.ext
  match d with
  | ⟨0, _⟩ => show win2_13.index t 0 * 1 + 1 * (0 : Fin 1).val = (0 : Fin 1).val; rw [h 0]; omega
  | ⟨1, _⟩ => show win2_13.index t 1 * 64 + 1 * b.val = b.val; rw [h 1]; omega

/-! ## The output array -/

/-- The layer of the specification, of the arrays the region is entered with. -/
abbrev layerAt2 (c : Dev nD) : (⟨2, ![100000, 64]⟩ : Shape).Idx → EReal :=
  Cert.GinSpec.layerArr true (V c main_v93) (V c main_v103) (V c main_v105) (V c main_v128) (V c main_v129) (V c main_v130) (V c main_v131) (V c main_v132) (V c main_v117) (V c main_v133) (V c main_v134) (V c main_v135) (V c main_v136) (V c main_v137)

/-- What point `t` writes back is block `t` of that one function. -/
theorem flushed2 (c : Dev nD) (t : Fin cfg2.N) :
    (dat2 V c).flushed 14 t = ((cfg2.win 14).blk t).view.read (Elt Ideal) (layerAt2 V c) := by
  obtain ⟨-, -, -, -, e4, e5, -⟩ := idx2 t
  show (cfg2.win 14).cut (grid2.coords t) ((dat2 V c).after 14 t) = _
  rw [after2_14]
  unfold out2_14
  rw [View.canon_unit_zero hz2]
  simp only [View.ld_unit_zero (S := S4000x64) hz2, View.ld_unit_zero (S := S64x128) hz2, View.ld_unit_zero (S := S1x128) hz2, View.ld_unit_zero (S := S128x64) hz2, View.ld_unit_zero (S := S1x64) hz2]
  funext y
  have hy0 : (y 0).val < 4000 := (y 0).isLt
  have hy1 : (y 1).val < 64 := (y 1).isLt
  refine (block2_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) y ⟨(y 0).val, hy0⟩ ⟨(y 1).val, hy1⟩ rfl rfl).trans ?_
  refine Eq.trans ?_ (Cert.GinSpec.layerArr_apply_of true (V c main_v93) (V c main_v103) (V c main_v105) (V c main_v128) (V c main_v129) (V c main_v130) (V c main_v131) (V c main_v132) (V c main_v117) (V c main_v133) (V c main_v134) (V c main_v135) (V c main_v136) (V c main_v137)
    (((cfg2.win 14).blk t).view.emb y) ⟨t.val * 4000 + (y 0).val, rowBound2 _ _ (lt25_2 t) hy0⟩ ⟨(y 1).val, hy1⟩
    (by show win2_14.index t 0 * 4000 + 1 * (y 0).val = t.val * 4000 + (y 0).val; rw [e4]; omega)
    (by show win2_14.index t 1 * 64 + 1 * (y 1).val = (y 1).val; rw [e5]; omega)).symm
  simp only [Cert.GinSpec.rowOf, rd2_0 V c t, rd2_1 V c t, rd2_2 V c t, rd2_3 V c t, rd2_4 V c t, rd2_5 V c t, rd2_6 V c t, rd2_7 V c t, rd2_8 V c t, rd2_9 V c t, rd2_10 V c t, rd2_11 V c t, rd2_12 V c t, rd2_13 V c t]

/-- The output array after the region's run is the layer of its entry arrays. -/
theorem final2 (c : Dev nD) : (dat2 V c).arrAt 14 cfg2.N = layerAt2 V c :=
  (dat2 V c).arrAt_eq_of_cover 14 (layerAt2 V c) (fun t _ => flushed2 V c t) fun i => by
    have hi0 : (i 0 : Nat) < 100000 := (i 0).isLt
    have hi1 : (i 1 : Nat) < 64 := (i 1).isLt
    have hN : cfg2.N = 25 := N_2
    have hlt : (i 0 : Nat) / 4000 < cfg2.N := by rw [hN]; omega
    obtain ⟨-, -, -, -, e4, e5, -⟩ := idx2 ⟨(i 0 : Nat) / 4000, hlt⟩
    refine ⟨⟨(i 0 : Nat) / 4000, hlt⟩, flush2_14 _, ?_⟩
    show i ∈ ((View.whole main_v138).slice (win2_14.rect ⟨(i 0 : Nat) / 4000, hlt⟩)).set
    rw [View.set_slice_whole, Rect.mem_set_unit]
    intro a
    match a with
    | ⟨0, _⟩ =>
      show win2_14.index ⟨(i 0 : Nat) / 4000, hlt⟩ 0 * 4000 ≤ (i 0 : Nat)
        ∧ (i 0 : Nat) < win2_14.index ⟨(i 0 : Nat) / 4000, hlt⟩ 0 * 4000 + 4000
      rw [e4]; show (i 0 : Nat) / 4000 * 4000 ≤ (i 0 : Nat) ∧ (i 0 : Nat) < (i 0 : Nat) / 4000 * 4000 + 4000; omega
    | ⟨1, _⟩ =>
      show win2_14.index ⟨(i 0 : Nat) / 4000, hlt⟩ 1 * 64 ≤ (i 1 : Nat)
        ∧ (i 1 : Nat) < win2_14.index ⟨(i 0 : Nat) / 4000, hlt⟩ 1 * 64 + 64
      rw [e5]; omega

end Cert.KernelIdeal.Hand

end
-- ==== Proof.KBody3.lean ====
/-
  What the last layer's kernel leaves at one entry of its output block.

  The block computed at a grid point holds 4000 nodes.  Entry `(p, j)` depends only on row `p` of the
  two input blocks (the node's features and its aggregated neighbours) and on the layer's parameters: it
  is the layer's row function of the specification, without the final rectification.  The narrowing of the matrix products' operands to a
  shorter float format is the identity on extended reals, and each product into a zero accumulator is the
  plain sum over the contracted axis.
-/
import proofs.«118457_j65111704207428_1_alg».proof.Proof.Gen.KernelIdeal.Skeleton
import proofs.«118457_j65111704207428_1_alg».proof.Proof.Spec
import proofs.«118457_j65111704207428_1_alg».proof.Proof.KEntry

noncomputable section

namespace Cert.KernelIdeal.Entry

open Idealize.ShloMosaic Idealize.ShloMosaic.ValueIdx Cert.KernelIdeal Cert.KernelIdeal.Gen

/-- The rectified hidden units of node `p` of the block, as computed by the first half of the body. -/
theorem hidden3_apply (x0 x1 : Vec Ideal S4000x64 .f32) (w1 : Vec Ideal S64x128 .f32)
    (b1 m1 v1 g1 bt1 : Vec Ideal S1x128 .f32) (p : Fin 4000) (q : Fin 128) :
    k3_pay2 (F := Ideal) x0 x1 w1 b1 m1 v1 g1 bt1 (ix2 p q)
      = Cert.GinSpec.hidden (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) q := by
  unfold k3_pay2 Cert.GinSpec.hidden Cert.GinSpec.bn
  simp only [truncf_apply, maximumf_apply, addf_apply, mulf_apply, subf_apply, broadcast_apply,
    bcast128_apply, shapeCast_self, matmul, matmul1_apply, rsqrt]
  rfl

/-- Entry `(p, j)` of the block the last layer's kernel stores: the layer's row function of row `p` of the
    two input blocks. -/
theorem out3_apply (x0 x1 : Vec Ideal S4000x64 .f32) (w1 : Vec Ideal S64x128 .f32)
    (b1 m1 v1 g1 bt1 : Vec Ideal S1x128 .f32) (w2 : Vec Ideal S128x64 .f32)
    (b2 m2 v2 g2 bt2 : Vec Ideal S1x64 .f32) (p : Fin 4000) (j : Fin 64) :
    k3_pay1 (F := Ideal) (k3_pay2 x0 x1 w1 b1 m1 v1 g1 bt1) (k3_pay3 w2) b2 m2 v2 g2 bt2 (ix2 p j)
      = Cert.GinSpec.out false (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  rw [Cert.GinSpec.out_false]
  unfold k3_pay1 k3_pay3 Cert.GinSpec.pre Cert.GinSpec.bn
  simp only [truncf_apply, maximumf_apply, addf_apply, mulf_apply, subf_apply, broadcast_apply,
    bcast64_apply, shapeCast_self, matmul, matmul2_apply, rsqrt, hidden3_apply]
  rfl

/-- The whole block the last layer's kernel stores, as one function of its fourteen input blocks. -/
abbrev block3 (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) : FVec Ideal S4000x64 .f32 :=
  k3_pay1 (F := Ideal) (k3_pay2 x0 x1 w1 b1 m1 v1 g1 bt1) (k3_pay3 w2) b2 m2 v2 g2 bt2

/-- Its entry at any index `y` of the block: the row function of row `y 0`, at column `y 1`. -/
theorem block3_apply (x0 x1 : Vec Ideal S4000x64 .f32) (w1 : Vec Ideal S64x128 .f32)
    (b1 g1 bt1 m1 v1 : Vec Ideal S1x128 .f32) (w2 : Vec Ideal S128x64 .f32)
    (b2 g2 bt2 m2 v2 : Vec Ideal S1x64 .f32) (y : S4000x64.Idx) (p : Fin 4000) (j : Fin 64)
    (hp : (y 0).val = p.val) (hj : (y 1).val = j.val) :
    block3 x0 x1 w1 b1 g1 bt1 m1 v1 w2 b2 g2 bt2 m2 v2 y
      = Cert.GinSpec.out false (fun k => x0 (ix2 p k)) (fun k => x1 (ix2 p k)) (fun k q => w1 (ix2 k q))
          (fun q => b1 (ix2 0 q)) (fun q => g1 (ix2 0 q)) (fun q => bt1 (ix2 0 q))
          (fun q => m1 (ix2 0 q)) (fun q => v1 (ix2 0 q)) (fun q j => w2 (ix2 q j))
          (fun j => b2 (ix2 0 j)) (fun j => g2 (ix2 0 j)) (fun j => bt2 (ix2 0 j))
          (fun j => m2 (ix2 0 j)) (fun j => v2 (ix2 0 j)) j := by
  have hy : y = ix2 p j := by
    funext a
    match a with
    | ⟨0, _⟩ => exact Fin.ext hp
    | ⟨1, _⟩ => exact Fin.ext hj
  rw [hy]
  exact out3_apply x0 x1 w1 b1 m1 v1 g1 bt1 w2 b2 m2 v2 g2 bt2 p j

end Cert.KernelIdeal.Entry

end
-- ==== Proof.KLayer3.lean ====
/-
  What the last layer's kernel leaves in its whole output array.

  The kernel runs at 25 grid points.  Point `t` reads rows `4000 t … 4000 t + 3999` of the node features and
  of the aggregated features, and all of each parameter array, and writes the same rows of the output.
  Since an output entry depends only on its own row of the two inputs, what point `t` writes back is those
  rows of ONE function of the whole input arrays: the layer of the specification.  The 25 row blocks tile
  the 100000 rows (row `r` lies in block `r / 4000`), so the output array ends holding that function.
-/
import proofs.«118457_j65111704207428_1_alg».proof.Proof.Gen.KernelIdeal.Frame
import Idealize.ShloMosaic.Lib.Pipeline.Value
import proofs.«118457_j65111704207428_1_alg».proof.Proof.Spec
import proofs.«118457_j65111704207428_1_alg».proof.Proof.KBody3

set_option maxRecDepth 16384

noncomputable section

namespace Cert.KernelIdeal.Hand

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The index maps, decided over the 25 points: the two row windows and the output window sit at row block
    `t`, every parameter window at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_14.index t (0 : Fin 2) = t.val ∧ win3_14.index t (1 : Fin 2) = 0
    ∧ (∀ a : Fin 2, win3_2.index t a = 0)
    ∧ (∀ a : Fin 2, win3_3.index t a = 0)
    ∧ (∀ a : Fin 2, win3_4.index t a = 0)
    ∧ (∀ a : Fin 2, win3_5.index t a = 0)
    ∧ (∀ a : Fin 2, win3_6.index t a = 0)
    ∧ (∀ a : Fin 2, win3_7.index t a = 0)
    ∧ (∀ a : Fin 2, win3_8.index t a = 0)
    ∧ (∀ a : Fin 2, win3_9.index t a = 0)
    ∧ (∀ a : Fin 2, win3_10.index t a = 0)
    ∧ (∀ a : Fin 2, win3_11.index t a = 0)
    ∧ (∀ a : Fin 2, win3_12.index t a = 0)
    ∧ (∀ a : Fin 2, win3_13.index t a = 0) :=
  (by decide +kernel : ∀ t : Fin grid3.N, _)

theorem lt25_3 (t : Fin cfg3.N) : t.val < 25 := by
  have h : t.val < cfg3.N := t.isLt
  have e : cfg3.N = 25 := N_3
  omega

theorem rowBound3 (t p : Nat) (ht : t < 25) (hp : p < 4000) : t * 4000 + p < 100000 := by omega

/-! ## Each input block, read off its array -/

/-- Row `p` of the node-feature block at point `t` is row `4000 t + p` of the array. -/
theorem rd3_0 (c : Dev nD) (t : Fin cfg3.N) (p : Fin 4000) (b : Fin 64) :
    (iblk3 V c 0 t : Vec Ideal S4000x64 .f32) (ix2 p b)
      = (V c main_v138 : (⟨2, ![100000, 64]⟩ : Shape).Idx → EReal)
          (ix2 ⟨t.val * 4000 + p.val, rowBound3 _ _ (lt25_3 t) p.isLt⟩ b) := by
  obtain ⟨e0, e1, -⟩ := idx3 t
  unfold iblk3
  rw [View.read_apply]
  show V c main_v138 _ = V c main_v138 _
  congr 1
  funext d
  apply Fin.ext
  match d with
  | ⟨0, _⟩ => show win3_0.index t 0 * 4000 + 1 * p.val = t.val * 4000 + p.val; rw [e0]; omega
  | ⟨1, _⟩ => show win3_0.index t 1 * 64 + 1 * b.val = b.val; rw [e1]; omega

/-- Likewise for the block of aggregated features. -/
theorem rd3_1 (c : Dev nD) (t : Fin cfg3.N) (p : Fin 4000) (b : Fin 64) :
    (iblk3 V c 1 t : Vec Ideal S4000x64 .f32) (ix2 p b)
      = (V c main_v148 : (⟨2, ![100000, 64]⟩ : Shape).Idx → EReal)
          (ix2 ⟨t.val * 4000 + p.val, rowBound3 _ _ (lt25_3 t) p.isLt⟩ b) := by
  obtain ⟨-, -, e0, e1, -⟩ := idx3 t
  unfold iblk3
  rw [View.read_apply]
  show V c main_v148 _ = V c main_v148 _
  congr 1
  funext d
  apply Fin.ext
  match d with
  | ⟨0, _⟩ => show win3_1.index t 0 * 4000 + 1 * p.val = t.val * 4000 + p.val; rw [e0]; omega
  | ⟨1, _⟩ => show win3_1.index t 1 * 64 + 1 * b.val = b.val; rw [e1]; omega

/-! Each parameter block is its whole array. -/

theorem rd3_2 (c : Dev nD) (t : Fin cfg3.N) (a : Fin 64) (b : Fin 128) :
    (iblk3 V c 2 t : Vec Ideal S64x128 .f32) (ix2 a b)
      = (V c main_v150 : (⟨2, ![64, 128]⟩ : Shape).Idx → EReal) (ix2 a b) := by
  have h := (idx3 t).2.2.2.2.2.2.1
  unfold iblk3
  rw [View.read_apply]
  show V c main_v150 _ = V c main_v150 _
  congr 1
  funext d
  apply Fin.ext
  match d with
  | ⟨0, _⟩ => show win3_2.index t 0 * 64 + 1 * a.val = a.val; rw [h 0]; omega
  | ⟨1, _⟩ => show win3_2.index t 1 * 128 + 1 * b.val = b.val; rw [h 1]; omega

theorem rd3_3 (c : Dev nD) (t : Fin cfg3.N) (b : Fin 128) :
    (iblk3 V c 3 t : Vec Ideal S1x128 .f32) (ix2 (0 : Fin 1) b)
      = (V c main_v173 : (⟨2, ![1, 128]⟩ : Shape).Idx → EReal) (ix2 (0 : Fin 1) b) := by
  have h := (idx3 t).2.2.2.2.2.2.2.1
  unfold iblk3
  rw [View.read_apply]
  show V c main_v173 _ = V c main_v173 _
  congr 1
  funext d
  apply Fin.ext
  match d with
  | ⟨0, _⟩ => show win3_3.index t 0 * 1 + 1 * (0 : Fin 1).val = (0 : Fin 1).val; rw [h 0]; omega
  | ⟨1, _⟩ => show win3_3.index t 1 * 128 + 1 * b.val = b.val; rw [h 1]; omega

theorem rd3_4 (c : Dev nD) (t : Fin cfg3.N) (b : Fin 128) :
    (iblk3 V c 4 t : Vec Ideal S1x128 .f32) (ix2 (0 : Fin 1) b)
      = (V c main_v174 : (⟨2, ![1, 128]⟩ : Shape).Idx → EReal) (ix2 (0 : Fin 1) b) := by
  have h := (idx3 t).2.2.2.2.2.2.2.2.1
  unfold iblk3
  rw [View.read_apply]
  show V c main_v174 _ = V c main_v174 _
  congr 1
  funext d
  apply Fin.ext
  match d with
  | ⟨0, _⟩ => show win3_4.index t 0 * 1 + 1 * (0 : Fin 1).val = (0 : Fin 1).val; rw [h 0]; omega
  | ⟨1, _⟩ => show win3_4.index t 1 * 128 + 1 * b.val = b.val; rw [h 1]; omega

theorem rd3_5 (c : Dev nD) (t : Fin cfg3.N) (b : Fin 128) :
    (iblk3 V c 5 t : Vec Ideal S1x128 .f32) (ix2 (0 : Fin 1) b)
      = (V c main_v175 : (⟨2, ![1, 128]⟩ : Shape).Idx → EReal) (ix2 (0 : Fin 1) b) := by
  have h := (idx3 t).2.2.2.2.2.2.2.2.2.1
  unfold iblk3
  rw [View.read_apply]
  show V c main_v175 _ = V c main_v175 _
  congr 1
  funext d
  apply Fin.ext
  match d with
  | ⟨0, _⟩ => show win3_5.index t 0 * 1 + 1 * (0 : Fin 1).val = (0 : Fin 1).val; rw [h 0]; omega
  | ⟨1, _⟩ => show win3_5.index t 1 * 128 + 1 * b.val = b.val; rw [h 1]; omega

theorem rd3_6 (c : Dev nD) (t : Fin cfg3.N) (b : Fin 128) :
    (iblk3 V c 6 t : Vec Ideal S1x128 .f32) (ix2 (0 : Fin 1) b)
      = (V c main_v176 : (⟨2, ![1, 128]⟩ : Shape).Idx → EReal) (ix2 (0 : Fin 1) b) := by
  have h := (idx3 t).2.2.2.2.2.2.2.2.2.2.1
  unfold iblk3
  rw [View.read_apply]
  show V c main_v176 _ = V c main_v176 _
  congr 1
  funext d
  apply Fin.ext
  match d with
  | ⟨0, _⟩ => show win3_6.index t 0 * 1 + 1 * (0 : Fin 1).val = (0 : Fin 1).val; rw [h 0]; omega
  | ⟨1, _⟩ => show win3_6.index t 1 * 128 + 1 * b.val = b.val; rw [h 1]; omega

theorem rd3_7 (c : Dev nD) (t : Fin cfg3.N) (b : Fin 128) :
    (iblk3 V c 7 t : Vec Ideal S1x128 .f32) (ix2 (0 : Fin 1) b)
      = (V c main_v177 : (⟨2, ![1, 128]⟩ : Shape).Idx → EReal) (ix2 (0 : Fin 1) b) := by
  have h := (idx3 t).2.2.2.2.2.2.2.2.2.2.2.1
  unfold iblk3
  rw [View.read_apply]
  show V c main_v177 _ = V c main_v177 _
  congr 1
  funext d
  apply Fin.ext
  match d with
  | ⟨0, _⟩ => show win3_7.index t 0 * 1 + 1 * (0 : Fin 1).val = (0 : Fin 1).val; rw [h 0]; omega
  | ⟨1, _⟩ => show win3_7.index t 1 * 128 + 1 * b.val = b.val; rw [h 1]; omega

theorem rd3_8 (c : Dev nD) (t : Fin cfg3.N) (a : Fin 128) (b : Fin 64) :
    (iblk3 V c 8 t : Vec Ideal S128x64 .f32) (ix2 a b)
      = (V c main_v162 : (⟨2, ![128, 64]⟩ : Shape).Idx → EReal) (ix2 a b) := by
  have h := (idx3 t).2.2.2.2.2.2.2.2.2.2.2.2.1
  unfold iblk3
  rw [View.read_apply]
  show V c main_v162 _ = V c main_v162 _
  congr 1
  funext d
  apply Fin.ext
  match d with
  | ⟨0, _⟩ => show win3_8.index t 0 * 128 + 1 * a.val = a.val; rw [h 0]; omega
  | ⟨1, _⟩ => show win3_8.index t 1 * 64 + 1 * b.val = b.val; rw [h 1]; omega

theorem rd3_9 (c : Dev nD) (t : Fin cfg3.N) (b : Fin 64) :
    (iblk3 V c 9 t : Vec Ideal S1x64 .f32) (ix2 (0 : Fin 1) b)
      = (V c main_v178 : (⟨2, ![1, 64]⟩ : Shape).Idx → EReal) (ix2 (0 : Fin 1) b) := by
  have h := (idx3 t).2.2.2.2.2.2.2.2.2.2.2.2.2.1
  unfold iblk3
  rw [View.read_apply]
  show V c main_v178 _ = V c main_v178 _
  congr 1
  funext d
  apply Fin.ext
  match d with
  | ⟨0, _⟩ => show win3_9.index t 0 * 1 + 1 * (0 : Fin 1).val = (0 : Fin 1).val; rw [h 0]; omega
  | ⟨1, _⟩ => show win3_9.index t 1 * 64 + 1 * b.val = b.val; rw [h 1]; omega

theorem rd3_10 (c : Dev nD) (t : Fin cfg3.N) (b : Fin 64) :
    (iblk3 V c 10 t : Vec Ideal S1x64 .f32) (ix2 (0 : Fin 1) b)
      = (V c main_v179 : (⟨2, ![1, 64]⟩ : Shape).Idx → EReal) (ix2 (0 : Fin 1) b) := by
  have h := (idx3 t).2.2.2.2.2.2.2.2.2.2.2.2.2.2.1
  unfold iblk3
  rw [View.read_apply]
  show V c main_v179 _ = V c main_v179 _
  congr 1
  funext d
  apply Fin.ext
  match d with
  | ⟨0, _⟩ => show win3_10.index t 0 * 1 + 1 * (0 : Fin 1).val = (0 : Fin 1).val; rw [h 0]; omega
  | ⟨1, _⟩ => show win3_10.index t 1 * 64 + 1 * b.val = b.val; rw [h 1]; omega

theorem rd3_11 (c : Dev nD) (t : Fin cfg3.N) (b : Fin 64) :
    (iblk3 V c 11 t : Vec Ideal S1x64 .f32) (ix2 (0 : Fin 1) b)
      = (V c main_v180 : (⟨2, ![1, 64]⟩ : Shape).Idx → EReal) (ix2 (0 : Fin 1) b) := by
  have h := (idx3 t).2.2.2.2.2.2.2.2.2.2.2.2.2.2.2.1
  unfold iblk3
  rw [View.read_apply]
  show V c main_v180 _ = V c main_v180 _
  congr 1
  funext d
  apply Fin.ext
  match d with
  | ⟨0, _⟩ => show win3_11.index t 0 * 1 + 1 * (0 : Fin 1).val = (0 : Fin 1).val; rw [h 0]; omega
  | ⟨1, _⟩ => show win3_11.index t 1 * 64 + 1 * b.val = b.val; rw [h 1]; omega

theorem rd3_12 (c : Dev nD) (t : Fin cfg3.N) (b : Fin 64) :
    (iblk3 V c 12 t : Vec Ideal S1x64 .f32) (ix2 (0 : Fin 1) b)
      = (V c main_v181 : (⟨2, ![1, 64]⟩ : Shape).Idx → EReal) (ix2 (0 : Fin 1) b) := by
  have h := (idx3 t).2.2.2.2.2.2.2.2.2.2.2.2.2.2.2.2.1
  unfold iblk3
  rw [View.read_apply]
  show V c main_v181 _ = V c main_v181 _
  congr 1
  funext d
  apply Fin.ext
  match d with
  | ⟨0, _⟩ => show win3_12.index t 0 * 1 + 1 * (0 : Fin 1).val = (0 : Fin 1).val; rw [h 0]; omega
  | ⟨1, _⟩ => show win3_12.index t 1 * 64 + 1 * b.val = b.val; rw [h 1]; omega

theorem rd3_13 (c : Dev nD) (t : Fin cfg3.N) (b : Fin 64) :
    (iblk3 V c 13 t : Vec Ideal S1x64 .f32) (ix2 (0 : Fin 1) b)
      = (V c main_v182 : (⟨2, ![1, 64]⟩ : Shape).Idx → EReal) (ix2 (0 : Fin 1) b) := by
  have h := (idx3 t).2.2.2.2.2.2.2.2.2.2.2.2.2.2.2.2.2
  unfold iblk3
  rw [View.read_apply]
  show V c main_v182 _ = V c main_v182 _
  congr 1
  funext d
  apply Fin.ext
  match d with
  | ⟨0, _⟩ => show win3_13.index t 0 * 1 + 1 * (0 : Fin 1).val = (0 : Fin 1).val; rw [h 0]; omega
  | ⟨1, _⟩ => show win3_13.index t 1 * 64 + 1 * b.val = b.val; rw [h 1]; omega

/-! ## The output array -/

/-- The layer of the specification, of the arrays the region is entered with. -/
abbrev layerAt3 (c : Dev nD) : (⟨2, ![100000, 64]⟩ : Shape).Idx → EReal :=
  Cert.GinSpec.layerArr false (V c main_v138) (V c main_v148) (V c main_v150) (V c main_v173) (V c main_v174) (V c main_v175) (V c main_v176) (V c main_v177) (V c main_v162) (V c main_v178) (V c main_v179) (V c main_v180) (V c main_v181) (V c main_v182)

/-- What point `t` writes back is block `t` of that one function. -/
theorem flushed3 (c : Dev nD) (t : Fin cfg3.N) :
    (dat3 V c).flushed 14 t = ((cfg3.win 14).blk t).view.read (Elt Ideal) (layerAt3 V c) := by
  obtain ⟨-, -, -, -, e4, e5, -⟩ := idx3 t
  show (cfg3.win 14).cut (grid3.coords t) ((dat3 V c).after 14 t) = _
  rw [after3_14]
  unfold out3_14
  rw [View.canon_unit_zero hz3]
  simp only [View.ld_unit_zero (S := S4000x64) hz3, View.ld_unit_zero (S := S64x128) hz3, View.ld_unit_zero (S := S1x128) hz3, View.ld_unit_zero (S := S128x64) hz3, View.ld_unit_zero (S := S1x64) hz3]
  funext y
  have hy0 : (y 0).val < 4000 := (y 0).isLt
  have hy1 : (y 1).val < 64 := (y 1).isLt
  refine (block3_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) y ⟨(y 0).val, hy0⟩ ⟨(y 1).val, hy1⟩ rfl rfl).trans ?_
  refine Eq.trans ?_ (Cert.GinSpec.layerArr_apply_of false (V c main_v138) (V c main_v148) (V c main_v150) (V c main_v173) (V c main_v174) (V c main_v175) (V c main_v176) (V c main_v177) (V c main_v162) (V c main_v178) (V c main_v179) (V c main_v180) (V c main_v181) (V c main_v182)
    (((cfg3.win 14).blk t).view.emb y) ⟨t.val * 4000 + (y 0).val, rowBound3 _ _ (lt25_3 t) hy0⟩ ⟨(y 1).val, hy1⟩
    (by show win3_14.index t 0 * 4000 + 1 * (y 0).val = t.val * 4000 + (y 0).val; rw [e4]; omega)
    (by show win3_14.index t 1 * 64 + 1 * (y 1).val = (y 1).val; rw [e5]; omega)).symm
  simp only [Cert.GinSpec.rowOf, rd3_0 V c t, rd3_1 V c t, rd3_2 V c t, rd3_3 V c t, rd3_4 V c t, rd3_5 V c t, rd3_6 V c t, rd3_7 V c t, rd3_8 V c t, rd3_9 V c t, rd3_10 V c t, rd3_11 V c t, rd3_12 V c t, rd3_13 V c t]

/-- The output array after the region's run is the layer of its entry arrays. -/
theorem final3 (c : Dev nD) : (dat3 V c).arrAt 14 cfg3.N = layerAt3 V c :=
  (dat3 V c).arrAt_eq_of_cover 14 (layerAt3 V c) (fun t _ => flushed3 V c t) fun i => by
    have hi0 : (i 0 : Nat) < 100000 := (i 0).isLt
    have hi1 : (i 1 : Nat) < 64 := (i 1).isLt
    have hN : cfg3.N = 25 := N_3
    have hlt : (i 0 : Nat) / 4000 < cfg3.N := by rw [hN]; omega
    obtain ⟨-, -, -, -, e4, e5, -⟩ := idx3 ⟨(i 0 : Nat) / 4000, hlt⟩
    refine ⟨⟨(i 0 : Nat) / 4000, hlt⟩, flush3_14 _, ?_⟩
    show i ∈ ((View.whole main_v183).slice (win3_14.rect ⟨(i 0 : Nat) / 4000, hlt⟩)).set
    rw [View.set_slice_whole, Rect.mem_set_unit]
    intro a
    match a with
    | ⟨0, _⟩ =>
      show win3_14.index ⟨(i 0 : Nat) / 4000, hlt⟩ 0 * 4000 ≤ (i 0 : Nat)
        ∧ (i 0 : Nat) < win3_14.index ⟨(i 0 : Nat) / 4000, hlt⟩ 0 * 4000 + 4000
      rw [e4]; show (i 0 : Nat) / 4000 * 4000 ≤ (i 0 : Nat) ∧ (i 0 : Nat) < (i 0 : Nat) / 4000 * 4000 + 4000; omega
    | ⟨1, _⟩ =>
      show win3_14.index ⟨(i 0 : Nat) / 4000, hlt⟩ 1 * 64 ≤ (i 1 : Nat)
        ∧ (i 1 : Nat) < win3_14.index ⟨(i 0 : Nat) / 4000, hlt⟩ 1 * 64 + 64
      rw [e5]; omega

end Cert.KernelIdeal.Hand

end
-- ==== Proof.KWalk.lean ====
/-
  The kernel program's result as one function of its arguments.

  The program's final buffer contents are the fold of its segments over the launch memory.  Walking that fold
  from the launch: the first host stretch aggregates the node features and cuts out the first layer's
  parameters; the first kernel leaves the first layer of the specification in its output array; each later
  stretch aggregates that output and cuts out its layer's parameters, and its kernel applies the layer; the
  last stretch pools by graph.  What the later stretches still read of the arguments and of the edge list's
  two index vectors is written by no segment in between.  So the result buffer ends at the network of the
  specification, applied to the arguments as launched.
-/
import proofs.«118457_j65111704207428_1_alg».proof.Proof.Gen.KernelIdeal.Frame
import proofs.«118457_j65111704207428_1_alg».proof.Proof.KHost
import proofs.«118457_j65111704207428_1_alg».proof.Proof.KLayer0
import proofs.«118457_j65111704207428_1_alg».proof.Proof.KLayer1
import proofs.«118457_j65111704207428_1_alg».proof.Proof.KLayer2
import proofs.«118457_j65111704207428_1_alg».proof.Proof.KLayer3

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The arguments as launched -/

abbrev A0 : FArr S100000x64 := m ((c : Thread nD τ).loc main_arg0)
abbrev A1 : IArr S2x1600000 := m ((c : Thread nD τ).loc main_arg1)
abbrev A2 : IArr S100000 := m ((c : Thread nD τ).loc main_arg2)
abbrev A3 : FArr S4x64x128 := m ((c : Thread nD τ).loc main_arg3)
abbrev A4 : FArr S4x128 := m ((c : Thread nD τ).loc main_arg4)
abbrev A5 : FArr S4x128 := m ((c : Thread nD τ).loc main_arg5)
abbrev A6 : FArr S4x128 := m ((c : Thread nD τ).loc main_arg6)
abbrev A7 : FArr S4x128 := m ((c : Thread nD τ).loc main_arg7)
abbrev A8 : FArr S4x128 := m ((c : Thread nD τ).loc main_arg8)
abbrev A9 : FArr S4x128x64 := m ((c : Thread nD τ).loc main_arg9)
abbrev A10 : FArr S4x64 := m ((c : Thread nD τ).loc main_arg10)
abbrev A11 : FArr S4x64 := m ((c : Thread nD τ).loc main_arg11)
abbrev A12 : FArr S4x64 := m ((c : Thread nD τ).loc main_arg12)
abbrev A13 : FArr S4x64 := m ((c : Thread nD τ).loc main_arg13)
abbrev A14 : FArr S4x64 := m ((c : Thread nD τ).loc main_arg14)

/-- The node features after layer 1. -/
abbrev feat1 : FArr S100000x64 := step true 0 (A0 m c) (A1 m c) (A3 m c) (A4 m c) (A5 m c) (A6 m c) (A7 m c) (A8 m c) (A9 m c) (A10 m c) (A11 m c) (A12 m c) (A13 m c) (A14 m c)
/-- The node features after layer 2. -/
abbrev feat2 : FArr S100000x64 := step true 1 (feat1 m c) (A1 m c) (A3 m c) (A4 m c) (A5 m c) (A6 m c) (A7 m c) (A8 m c) (A9 m c) (A10 m c) (A11 m c) (A12 m c) (A13 m c) (A14 m c)
/-- The node features after layer 3. -/
abbrev feat3 : FArr S100000x64 := step true 2 (feat2 m c) (A1 m c) (A3 m c) (A4 m c) (A5 m c) (A6 m c) (A7 m c) (A8 m c) (A9 m c) (A10 m c) (A11 m c) (A12 m c) (A13 m c) (A14 m c)
/-- The node features after layer 4. -/
abbrev feat4 : FArr S100000x64 := step false 3 (feat3 m c) (A1 m c) (A3 m c) (A4 m c) (A5 m c) (A6 m c) (A7 m c) (A8 m c) (A9 m c) (A10 m c) (A11 m c) (A12 m c) (A13 m c) (A14 m c)

/-- The launch memory holds the arguments as launched. -/
theorem launch0 : Launch m c (W0 m ρ c) where
  a0 := rfl
  a1 := rfl
  a2 := rfl
  a3 := rfl
  a4 := rfl
  a5 := rfl
  a6 := rfl
  a7 := rfl
  a8 := rfl
  a9 := rfl
  a10 := rfl
  a11 := rfl
  a12 := rfl
  a13 := rfl
  a14 := rfl

/-! ## What the later stretches read survives every segment -/

theorem keeps_W1 : Keeps m c (W1 m ρ c) := keeps0 m c (W0 m ρ c) (launch0 m ρ c)
theorem keeps_W2 : Keeps m c (W2 m ρ c) where
  src := (W2_of_ne m ρ c main_v1 (by decide)).trans (keeps_W1 m ρ c).src
  dst := (W2_of_ne m ρ c main_v3 (by decide)).trans (keeps_W1 m ρ c).dst
  a2 := (W2_of_ne m ρ c main_arg2 (by decide)).trans (keeps_W1 m ρ c).a2
  a3 := (W2_of_ne m ρ c main_arg3 (by decide)).trans (keeps_W1 m ρ c).a3
  a4 := (W2_of_ne m ρ c main_arg4 (by decide)).trans (keeps_W1 m ρ c).a4
  a5 := (W2_of_ne m ρ c main_arg5 (by decide)).trans (keeps_W1 m ρ c).a5
  a6 := (W2_of_ne m ρ c main_arg6 (by decide)).trans (keeps_W1 m ρ c).a6
  a7 := (W2_of_ne m ρ c main_arg7 (by decide)).trans (keeps_W1 m ρ c).a7
  a8 := (W2_of_ne m ρ c main_arg8 (by decide)).trans (keeps_W1 m ρ c).a8
  a9 := (W2_of_ne m ρ c main_arg9 (by decide)).trans (keeps_W1 m ρ c).a9
  a10 := (W2_of_ne m ρ c main_arg10 (by decide)).trans (keeps_W1 m ρ c).a10
  a11 := (W2_of_ne m ρ c main_arg11 (by decide)).trans (keeps_W1 m ρ c).a11
  a12 := (W2_of_ne m ρ c main_arg12 (by decide)).trans (keeps_W1 m ρ c).a12
  a13 := (W2_of_ne m ρ c main_arg13 (by decide)).trans (keeps_W1 m ρ c).a13
  a14 := (W2_of_ne m ρ c main_arg14 (by decide)).trans (keeps_W1 m ρ c).a14
theorem keeps_W3 : Keeps m c (W3 m ρ c) := keeps1 m c (W2 m ρ c) (keeps_W2 m ρ c)
theorem keeps_W4 : Keeps m c (W4 m ρ c) where
  src := (W4_of_ne m ρ c main_v1 (by decide)).trans (keeps_W3 m ρ c).src
  dst := (W4_of_ne m ρ c main_v3 (by decide)).trans (keeps_W3 m ρ c).dst
  a2 := (W4_of_ne m ρ c main_arg2 (by decide)).trans (keeps_W3 m ρ c).a2
  a3 := (W4_of_ne m ρ c main_arg3 (by decide)).trans (keeps_W3 m ρ c).a3
  a4 := (W4_of_ne m ρ c main_arg4 (by decide)).trans (keeps_W3 m ρ c).a4
  a5 := (W4_of_ne m ρ c main_arg5 (by decide)).trans (keeps_W3 m ρ c).a5
  a6 := (W4_of_ne m ρ c main_arg6 (by decide)).trans (keeps_W3 m ρ c).a6
  a7 := (W4_of_ne m ρ c main_arg7 (by decide)).trans (keeps_W3 m ρ c).a7
  a8 := (W4_of_ne m ρ c main_arg8 (by decide)).trans (keeps_W3 m ρ c).a8
  a9 := (W4_of_ne m ρ c main_arg9 (by decide)).trans (keeps_W3 m ρ c).a9
  a10 := (W4_of_ne m ρ c main_arg10 (by decide)).trans (keeps_W3 m ρ c).a10
  a11 := (W4_of_ne m ρ c main_arg11 (by decide)).trans (keeps_W3 m ρ c).a11
  a12 := (W4_of_ne m ρ c main_arg12 (by decide)).trans (keeps_W3 m ρ c).a12
  a13 := (W4_of_ne m ρ c main_arg13 (by decide)).trans (keeps_W3 m ρ c).a13
  a14 := (W4_of_ne m ρ c main_arg14 (by decide)).trans (keeps_W3 m ρ c).a14
theorem keeps_W5 : Keeps m c (W5 m ρ c) := keeps2 m c (W4 m ρ c) (keeps_W4 m ρ c)
theorem keeps_W6 : Keeps m c (W6 m ρ c) where
  src := (W6_of_ne m ρ c main_v1 (by decide)).trans (keeps_W5 m ρ c).src
  dst := (W6_of_ne m ρ c main_v3 (by decide)).trans (keeps_W5 m ρ c).dst
  a2 := (W6_of_ne m ρ c main_arg2 (by decide)).trans (keeps_W5 m ρ c).a2
  a3 := (W6_of_ne m ρ c main_arg3 (by decide)).trans (keeps_W5 m ρ c).a3
  a4 := (W6_of_ne m ρ c main_arg4 (by decide)).trans (keeps_W5 m ρ c).a4
  a5 := (W6_of_ne m ρ c main_arg5 (by decide)).trans (keeps_W5 m ρ c).a5
  a6 := (W6_of_ne m ρ c main_arg6 (by decide)).trans (keeps_W5 m ρ c).a6
  a7 := (W6_of_ne m ρ c main_arg7 (by decide)).trans (keeps_W5 m ρ c).a7
  a8 := (W6_of_ne m ρ c main_arg8 (by decide)).trans (keeps_W5 m ρ c).a8
  a9 := (W6_of_ne m ρ c main_arg9 (by decide)).trans (keeps_W5 m ρ c).a9
  a10 := (W6_of_ne m ρ c main_arg10 (by decide)).trans (keeps_W5 m ρ c).a10
  a11 := (W6_of_ne m ρ c main_arg11 (by decide)).trans (keeps_W5 m ρ c).a11
  a12 := (W6_of_ne m ρ c main_arg12 (by decide)).trans (keeps_W5 m ρ c).a12
  a13 := (W6_of_ne m ρ c main_arg13 (by decide)).trans (keeps_W5 m ρ c).a13
  a14 := (W6_of_ne m ρ c main_arg14 (by decide)).trans (keeps_W5 m ρ c).a14
theorem keeps_W7 : Keeps m c (W7 m ρ c) := keeps3 m c (W6 m ρ c) (keeps_W6 m ρ c)
theorem keeps_W8 : Keeps m c (W8 m ρ c) where
  src := (W8_of_ne m ρ c main_v1 (by decide)).trans (keeps_W7 m ρ c).src
  dst := (W8_of_ne m ρ c main_v3 (by decide)).trans (keeps_W7 m ρ c).dst
  a2 := (W8_of_ne m ρ c main_arg2 (by decide)).trans (keeps_W7 m ρ c).a2
  a3 := (W8_of_ne m ρ c main_arg3 (by decide)).trans (keeps_W7 m ρ c).a3
  a4 := (W8_of_ne m ρ c main_arg4 (by decide)).trans (keeps_W7 m ρ c).a4
  a5 := (W8_of_ne m ρ c main_arg5 (by decide)).trans (keeps_W7 m ρ c).a5
  a6 := (W8_of_ne m ρ c main_arg6 (by decide)).trans (keeps_W7 m ρ c).a6
  a7 := (W8_of_ne m ρ c main_arg7 (by decide)).trans (keeps_W7 m ρ c).a7
  a8 := (W8_of_ne m ρ c main_arg8 (by decide)).trans (keeps_W7 m ρ c).a8
  a9 := (W8_of_ne m ρ c main_arg9 (by decide)).trans (keeps_W7 m ρ c).a9
  a10 := (W8_of_ne m ρ c main_arg10 (by decide)).trans (keeps_W7 m ρ c).a10
  a11 := (W8_of_ne m ρ c main_arg11 (by decide)).trans (keeps_W7 m ρ c).a11
  a12 := (W8_of_ne m ρ c main_arg12 (by decide)).trans (keeps_W7 m ρ c).a12
  a13 := (W8_of_ne m ρ c main_arg13 (by decide)).trans (keeps_W7 m ρ c).a13
  a14 := (W8_of_ne m ρ c main_arg14 (by decide)).trans (keeps_W7 m ρ c).a14

/-! ## The layers, one region at a time -/

/-- After the first layer's kernel its output array holds the node features after layer 1. -/
theorem out0 : (W2 m ρ c (Proc.devRef .tc main_v48) : FArr S100000x64) = feat1 m c := by
  obtain ⟨hw1, hb1, hg1, ht1, hm1, hv1, hw2, hb2, hg2, ht2, hm2, hv2⟩ := params0 m c (W0 m ρ c) (launch0 m ρ c)
  have eH : (V1 m ρ c main_arg0 : FArr S100000x64) = (A0 m c) := (prev0 (W0 m ρ c)).trans (launch0 m ρ c).a0
  have eA : (V1 m ρ c main_v13 : FArr S100000x64) = aggK (A0 m c) (srcK (A1 m c)) (dstK (A1 m c)) := agg0 m c (W0 m ρ c) (launch0 m ρ c)
  refine (W2_arr m ρ c 14).trans ((final0 (V1 m ρ) c).trans ?_)
  exact Cert.GinSpec.layerArr_eq_layerOf' true 0 _ _ _ _ _ _ _ _ _ _ _ _ _ _ _ _ _ _ _ _ _ _ _ _ _ _ _ _
    eH eA hw1 hb1 hg1 ht1 hm1 hv1 hw2 hb2 hg2 ht2 hm2 hv2

/-- After the second layer's kernel its output array holds the node features after layer 2. -/
theorem out1 : (W4 m ρ c (Proc.devRef .tc main_v93) : FArr S100000x64) = feat2 m c := by
  obtain ⟨hw1, hb1, hg1, ht1, hm1, hv1, hw2, hb2, hg2, ht2, hm2, hv2⟩ := params1 m c (W2 m ρ c) (keeps_W2 m ρ c)
  have eH : (V3 m ρ c main_v48 : FArr S100000x64) = (feat1 m c) := (prev1 (W2 m ρ c)).trans (out0 m ρ c)
  have eA : (V3 m ρ c main_v58 : FArr S100000x64) = aggK (feat1 m c) (srcK (A1 m c)) (dstK (A1 m c)) := (agg1 m c (W2 m ρ c) (keeps_W2 m ρ c)).trans (congrArg (fun h => aggK h (srcK (A1 m c)) (dstK (A1 m c))) (out0 m ρ c))
  refine (W4_arr m ρ c 14).trans ((final1 (V3 m ρ) c).trans ?_)
  exact Cert.GinSpec.layerArr_eq_layerOf' true 1 _ _ _ _ _ _ _ _ _ _ _ _ _ _ _ _ _ _ _ _ _ _ _ _ _ _ _ _
    eH eA hw1 hb1 hg1 ht1 hm1 hv1 hw2 hb2 hg2 ht2 hm2 hv2

/-- After the third layer's kernel its output array holds the node features after layer 3. -/
theorem out2 : (W6 m ρ c (Proc.devRef .tc main_v138) : FArr S100000x64) = feat3 m c := by
  obtain ⟨hw1, hb1, hg1, ht1, hm1, hv1, hw2, hb2, hg2, ht2, hm2, hv2⟩ := params2 m c (W4 m ρ c) (keeps_W4 m ρ c)
  have eH : (V5 m ρ c main_v93 : FArr S100000x64) = (feat2 m c) := (prev2 (W4 m ρ c)).trans (out1 m ρ c)
  have eA : (V5 m ρ c main_v103 : FArr S100000x64) = aggK (feat2 m c) (srcK (A1 m c)) (dstK (A1 m c)) := (agg2 m c (W4 m ρ c) (keeps_W4 m ρ c)).trans (congrArg (fun h => aggK h (srcK (A1 m c)) (dstK (A1 m c))) (out1 m ρ c))
  refine (W6_arr m ρ c 14).trans ((final2 (V5 m ρ) c).trans ?_)
  exact Cert.GinSpec.layerArr_eq_layerOf' true 2 _ _ _ _ _ _ _ _ _ _ _ _ _ _ _ _ _ _ _ _ _ _ _ _ _ _ _ _
    eH eA hw1 hb1 hg1 ht1 hm1 hv1 hw2 hb2 hg2 ht2 hm2 hv2

/-- After the last layer's kernel its output array holds the node features after layer 4. -/
theorem out3 : (W8 m ρ c (Proc.devRef .tc main_v183) : FArr S100000x64) = feat4 m c := by
  obtain ⟨hw1, hb1, hg1, ht1, hm1, hv1, hw2, hb2, hg2, ht2, hm2, hv2⟩ := params3 m c (W6 m ρ c) (keeps_W6 m ρ c)
  have eH : (V7 m ρ c main_v138 : FArr S100000x64) = (feat3 m c) := (prev3 (W6 m ρ c)).trans (out2 m ρ c)
  have eA : (V7 m ρ c main_v148 : FArr S100000x64) = aggK (feat3 m c) (srcK (A1 m c)) (dstK (A1 m c)) := (agg3 m c (W6 m ρ c) (keeps_W6 m ρ c)).trans (congrArg (fun h => aggK h (srcK (A1 m c)) (dstK (A1 m c))) (out2 m ρ c))
  refine (W8_arr m ρ c 14).trans ((final3 (V7 m ρ) c).trans ?_)
  exact Cert.GinSpec.layerArr_eq_layerOf' false 3 _ _ _ _ _ _ _ _ _ _ _ _ _ _ _ _ _ _ _ _ _ _ _ _ _ _ _ _
    eH eA hw1 hb1 hg1 ht1 hm1 hv1 hw2 hb2 hg2 ht2 hm2 hv2

/-! ## The result -/

/-- The result buffer's final contents: the network of the specification, of the arguments as launched. -/
theorem result_eq : (W9 m ρ c (Proc.devRef .tc main_v194) : FArr S512x64)
    = net (A0 m c) (A1 m c) (A2 m c) (A3 m c) (A4 m c) (A5 m c) (A6 m c) (A7 m c) (A8 m c) (A9 m c) (A10 m c) (A11 m c) (A12 m c) (A13 m c) (A14 m c) :=
  (pool4 m c (W8 m ρ c) (keeps_W8 m ρ c)).trans (congrArg (fun h => poolK h (A2 m c)) (out3 m ρ c))

end Cert.KernelIdeal.Hand

end
-- ==== Proof.RefHost.lean ====
/-
  The reference program's layer, read at one entry.

  The reference computes a layer on whole arrays: it adds the aggregated features to the node features,
  multiplies by the first weights, adds the bias, normalises with the running statistics, rectifies,
  multiplies by the second weights, adds the bias and normalises again.  Each parameter is cut out of its
  stacked array, flattened to a vector and broadcast down the 100000 rows.  Read at row `r`, column `j`,
  every one of these operations is the specification's row function of row `r`: a host matrix product is the
  plain sum over the contracted axis, a broadcast row vector reads its entry in that column, and the host's
  reciprocal square root is the same function of the extended reals as the kernel's.
-/
import proofs.«118457_j65111704207428_1_alg».proof.Proof.RefRun
import Idealize.ShloMosaic.PureOps.Ideal.Laws
import Idealize.ShloMosaic.Lib.ValueIdx
import Idealize.ShloMosaic.Lib.Pipeline.Value
import proofs.«118457_j65111704207428_1_alg».proof.Proof.Params
import proofs.«118457_j65111704207428_1_alg».proof.Proof.Spec

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.ShloMosaic.ValueIdx Idealize.SL.Sem Idealize.ShloMosaic.StableHlo

/-- Folding two lists of operations one after the other is folding their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-- Integer and float arrays of a shape, at the ideal values. -/
abbrev IArr (S : Shape) := IVec S 32
abbrev FArr (S : Shape) := FVec Ideal S .f32

local notation "E1" => dot_S100000x64_S64x128_S100000x128_1_0_0_1_n_n
local notation "E2" => dot_S100000x128_S128x64_S100000x64_1_0_0_1_n_n

/-! ## The host's two matrix products -/

theorem rdot1_lhs0 (i : S100000x128.Idx) (q : (E1).contr.Idx) : ((E1).lhsIdx i q 0).val = (i 0).val := by
  unfold DotDims.lhsIdx
  rw [dif_neg (show ¬(0 : Fin S100000x64.rank) ∈ (E1).lhsBatch by decide),
    dif_pos (show (0 : Fin S100000x64.rank) ∈ (E1).lhsNonContracting by decide)]
  rfl
theorem rdot1_lhs1 (i : S100000x128.Idx) (q : (E1).contr.Idx) : ((E1).lhsIdx i q 1).val = (q ⟨0, by decide⟩).val :=
  (E1).lhsIdx_val_of_single rfl i q
theorem rdot1_rhs0 (i : S100000x128.Idx) (q : (E1).contr.Idx) : ((E1).rhsIdx i q 0).val = (q ⟨0, by decide⟩).val :=
  (E1).rhsIdx_val_of_single rfl i q
theorem rdot1_rhs1 (i : S100000x128.Idx) (q : (E1).contr.Idx) : ((E1).rhsIdx i q 1).val = (i 1).val := by
  unfold DotDims.rhsIdx
  rw [dif_neg (show ¬(1 : Fin S64x128.rank) ∈ (E1).rhsBatch by decide),
    dif_pos (show (1 : Fin S64x128.rank) ∈ (E1).rhsNonContracting by decide)]
  rfl

/-- Entry `(p, q)` of the host's product is the sum over the 64 contracted entries. -/
theorem rdot1_apply (l : FArr S100000x64) (r : FArr S64x128) (p : Fin 100000) (q : Fin 128) :
    Host.dotGeneral E1 none l r (ix2 p q) = ∑ k : Fin 64, l (ix2 p k) * r (ix2 k q) := by
  simp only [Host.dotGeneral]
  rw [Ideal.dotGeneral_apply, ← Equiv.sum_comp (contrEquiv1 E1 64 rfl rfl).symm]
  refine Finset.sum_congr rfl fun k _ => ?_
  have hk := contrEquiv1_symm_val E1 64 rfl rfl k
  have el : (E1).lhsIdx (ix2 p q) ((contrEquiv1 E1 64 rfl rfl).symm k) = ix2 p k := funext fun a => Fin.ext (by
    match a with
    | ⟨0, _⟩ => exact rdot1_lhs0 _ _
    | ⟨1, _⟩ => exact (rdot1_lhs1 _ _).trans hk)
  have er : (E1).rhsIdx (ix2 p q) ((contrEquiv1 E1 64 rfl rfl).symm k) = ix2 k q := funext fun a => Fin.ext (by
    match a with
    | ⟨0, _⟩ => exact (rdot1_rhs0 _ _).trans hk
    | ⟨1, _⟩ => exact rdot1_rhs1 _ _)
  rw [el, er]

theorem rdot2_lhs0 (i : S100000x64.Idx) (q : (E2).contr.Idx) : ((E2).lhsIdx i q 0).val = (i 0).val := by
  unfold DotDims.lhsIdx
  rw [dif_neg (show ¬(0 : Fin S100000x128.rank) ∈ (E2).lhsBatch by decide),
    dif_pos (show (0 : Fin S100000x128.rank) ∈ (E2).lhsNonContracting by decide)]
  rfl
theorem rdot2_lhs1 (i : S100000x64.Idx) (q : (E2).contr.Idx) : ((E2).lhsIdx i q 1).val = (q ⟨0, by decide⟩).val :=
  (E2).lhsIdx_val_of_single rfl i q
theorem rdot2_rhs0 (i : S100000x64.Idx) (q : (E2).contr.Idx) : ((E2).rhsIdx i q 0).val = (q ⟨0, by decide⟩).val :=
  (E2).rhsIdx_val_of_single rfl i q
theorem rdot2_rhs1 (i : S100000x64.Idx) (q : (E2).contr.Idx) : ((E2).rhsIdx i q 1).val = (i 1).val := by
  unfold DotDims.rhsIdx
  rw [dif_neg (show ¬(1 : Fin S128x64.rank) ∈ (E2).rhsBatch by decide),
    dif_pos (show (1 : Fin S128x64.rank) ∈ (E2).rhsNonContracting by decide)]
  rfl

/-- Entry `(p, q)` of the host's product is the sum over the 128 contracted entries. -/
theorem rdot2_apply (l : FArr S100000x128) (r : FArr S128x64) (p : Fin 100000) (q : Fin 64) :
    Host.dotGeneral E2 none l r (ix2 p q) = ∑ k : Fin 128, l (ix2 p k) * r (ix2 k q) := by
  simp only [Host.dotGeneral]
  rw [Ideal.dotGeneral_apply, ← Equiv.sum_comp (contrEquiv1 E2 128 rfl rfl).symm]
  refine Finset.sum_congr rfl fun k _ => ?_
  have hk := contrEquiv1_symm_val E2 128 rfl rfl k
  have el : (E2).lhsIdx (ix2 p q) ((contrEquiv1 E2 128 rfl rfl).symm k) = ix2 p k := funext fun a => Fin.ext (by
    match a with
    | ⟨0, _⟩ => exact rdot2_lhs0 _ _
    | ⟨1, _⟩ => exact (rdot2_lhs1 _ _).trans hk)
  have er : (E2).rhsIdx (ix2 p q) ((contrEquiv1 E2 128 rfl rfl).symm k) = ix2 k q := funext fun a => Fin.ext (by
    match a with
    | ⟨0, _⟩ => exact (rdot2_rhs0 _ _).trans hk
    | ⟨1, _⟩ => exact rdot2_rhs1 _ _)
  rw [el, er]

/-! ## Parameters: a layer's row of a stacked array, broadcast down the rows -/

/-- Layer-row of a stacked [4, 128] parameter array, as a [128] vector: a slice at row offset `o 0`, flattened. -/
def rvec128 (o : Fin 2 → Nat) (hs : S4x128.Slices o S1x128) (X : FArr S4x128) : FArr S128 :=
  shapeCast _ (extractStridedSlice S1x128 o X hs) shapeCasts_S1x128_S128

/-- A [128] vector broadcast down the 100000 rows: first to [1, 128], then to [100000, 128]. -/
def rbc128 (v : FArr S128) : FArr S100000x128 :=
  broadcastInDim S100000x128 ![0, 1] bcast_S1x128_S100000x128_0_1 (broadcastInDim S1x128 ![1] bcast_S128_S1x128_1 v)

theorem rvec128_apply (ℓ : Fin 4) (o : Fin 2 → Nat) (h0 : o 0 = ℓ.val) (h1 : o 1 = 0) (hs : S4x128.Slices o S1x128)
    (X : FArr S4x128) (q : Fin 128) : rvec128 o hs X (ix1 q) = X (ix2 ℓ q) := by
  unfold rvec128
  rw [shapeCast_apply _ shapeCasts_S1x128_S128 (ix1 q) (ix2 0 q) (by
    rw [Shape.rowMajor_val_one, Shape.rowMajor_val_two]; show 0 * 128 + q.val = q.val; omega)]
  exact extractStridedSlice_apply o X hs (ix2 0 q) (ix2 ℓ q) fun a => by
    match a with
    | ⟨0, _⟩ => show ℓ.val = o 0 + 0; omega
    | ⟨1, _⟩ => show q.val = o 1 + q.val; omega

theorem rbc128_apply (v : FArr S128) (r : Fin 100000) (q : Fin 128) : rbc128 v (ix2 r q) = v (ix1 q) := by
  unfold rbc128
  rw [broadcastInDim_apply _ bcast_S1x128_S100000x128_0_1 _ (ix2 r q) (ix2 0 q) (fun a => by
    match a with
    | ⟨0, _⟩ => show (0 : Nat) = if (1 : Nat) = 1 then 0 else r.val; rw [if_pos rfl]
    | ⟨1, _⟩ => show q.val = if (128 : Nat) = 1 then 0 else q.val; rw [if_neg (by decide)])]
  exact broadcastInDim_apply _ bcast_S128_S1x128_1 v (ix2 0 q) (ix1 q) (fun a => by
    match a with
    | ⟨0, _⟩ => show q.val = if (128 : Nat) = 1 then 0 else q.val; rw [if_neg (by decide)])

/-- Layer-row of a stacked [4, 64] parameter array, as a [64] vector: a slice at row offset `o 0`, flattened. -/
def rvec64 (o : Fin 2 → Nat) (hs : S4x64.Slices o S1x64) (X : FArr S4x64) : FArr S64 :=
  shapeCast _ (extractStridedSlice S1x64 o X hs) shapeCasts_S1x64_S64

/-- A [64] vector broadcast down the 100000 rows: first to [1, 64], then to [100000, 64]. -/
def rbc64 (v : FArr S64) : FArr S100000x64 :=
  broadcastInDim S100000x64 ![0, 1] bcast_S1x64_S100000x64_0_1 (broadcastInDim S1x64 ![1] bcast_S64_S1x64_1 v)

theorem rvec64_apply (ℓ : Fin 4) (o : Fin 2 → Nat) (h0 : o 0 = ℓ.val) (h1 : o 1 = 0) (hs : S4x64.Slices o S1x64)
    (X : FArr S4x64) (q : Fin 64) : rvec64 o hs X (ix1 q) = X (ix2 ℓ q) := by
  unfold rvec64
  rw [shapeCast_apply _ shapeCasts_S1x64_S64 (ix1 q) (ix2 0 q) (by
    rw [Shape.rowMajor_val_one, Shape.rowMajor_val_two]; show 0 * 64 + q.val = q.val; omega)]
  exact extractStridedSlice_apply o X hs (ix2 0 q) (ix2 ℓ q) fun a => by
    match a with
    | ⟨0, _⟩ => show ℓ.val = o 0 + 0; omega
    | ⟨1, _⟩ => show q.val = o 1 + q.val; omega

theorem rbc64_apply (v : FArr S64) (r : Fin 100000) (q : Fin 64) : rbc64 v (ix2 r q) = v (ix1 q) := by
  unfold rbc64
  rw [broadcastInDim_apply _ bcast_S1x64_S100000x64_0_1 _ (ix2 r q) (ix2 0 q) (fun a => by
    match a with
    | ⟨0, _⟩ => show (0 : Nat) = if (1 : Nat) = 1 then 0 else r.val; rw [if_pos rfl]
    | ⟨1, _⟩ => show q.val = if (64 : Nat) = 1 then 0 else q.val; rw [if_neg (by decide)])]
  exact broadcastInDim_apply _ bcast_S64_S1x64_1 v (ix2 0 q) (ix1 q) (fun a => by
    match a with
    | ⟨0, _⟩ => show q.val = if (64 : Nat) = 1 then 0 else q.val; rw [if_neg (by decide)])

/-- A scalar constant broadcast to any shape reads the extended real its word denotes. -/
theorem bcastConst_apply {t : Shape} (dims : Fin S_.rank → Fin t.rank) (h : S_.BroadcastsInDim t dims) (w : BitVec 32) (i : t.Idx) :
    broadcastInDim t dims h (constant (F := Ideal) S_ .f32 w) i = Ideal.ofBits .f32 w := by
  rw [broadcastInDim_apply dims h _ i ix0 (fun a => a.elim0)]
  rfl

/-- The first weights of a layer: a slice of the stacked [4, 64, 128] array, reshaped to [64, 128]. -/
def rw1 (o : Fin 3 → Nat) (hs : S4x64x128.Slices o S1x64x128) (X : FArr S4x64x128) : FArr S64x128 :=
  shapeCast _ (extractStridedSlice S1x64x128 o X hs) shapeCasts_S1x64x128_S64x128

/-- The second weights of a layer: a slice of the stacked [4, 128, 64] array, reshaped to [128, 64]. -/
def rw2 (o : Fin 3 → Nat) (hs : S4x128x64.Slices o S1x128x64) (X : FArr S4x128x64) : FArr S128x64 :=
  shapeCast _ (extractStridedSlice S1x128x64 o X hs) shapeCasts_S1x128x64_S128x64

theorem rw1_apply (ℓ : Fin 4) (o : Fin 3 → Nat) (h0 : o 0 = ℓ.val) (h1 : o 1 = 0) (h2 : o 2 = 0)
    (hs : S4x64x128.Slices o S1x64x128) (X : FArr S4x64x128) (k : Fin 64) (q : Fin 128) :
    rw1 o hs X (ix2 k q) = X (ix3 ℓ k q) :=
  Cert.GinParams.w1_entry ℓ o h0 h1 h2 X hs shapeCasts_S1x64x128_S64x128 k q

theorem rw2_apply (ℓ : Fin 4) (o : Fin 3 → Nat) (h0 : o 0 = ℓ.val) (h1 : o 1 = 0) (h2 : o 2 = 0)
    (hs : S4x128x64.Slices o S1x128x64) (X : FArr S4x128x64) (q : Fin 128) (j : Fin 64) :
    rw2 o hs X (ix2 q j) = X (ix3 ℓ q j) :=
  Cert.GinParams.w2_entry ℓ o h0 h1 h2 X hs shapeCasts_S1x128x64_S128x64 q j

/-! ## A layer's host operations -/

/-- The rectified hidden units on whole arrays: the first affine map of `h + a`, normalised with the running
    statistics and rectified. -/
def rhidden (o3 : Fin 3 → Nat) (o2 : Fin 2 → Nat) (hs3 : S4x64x128.Slices o3 S1x64x128) (hs128 : S4x128.Slices o2 S1x128)
    (h a : FArr S100000x64) (X3 : FArr S4x64x128) (X4 X5 X6 X7 X8 : FArr S4x128) : FArr S100000x128 :=
  maximumf
    (addf (mulf (mulf (subf (addf (Host.dotGeneral E1 none (addf h a) (rw1 o3 hs3 X3)) (rbc128 (rvec128 o2 hs128 X4)))
        (rbc128 (rvec128 o2 hs128 X7)))
      (rbc128 (Host.rsqrt (addf (rvec128 o2 hs128 X8) (broadcastInDim S128 ![] bcast_S_S128 (constant S_ .f32 0x3727C5AC#32))))))
      (rbc128 (rvec128 o2 hs128 X5))) (rbc128 (rvec128 o2 hs128 X6)))
    (broadcastInDim S100000x128 ![] bcast_S_S100000x128 (constant S_ .f32 0x00000000#32))

/-- The layer's output before its last rectification: the second affine map of the hidden units, normalised. -/
def rpre (o3 : Fin 3 → Nat) (o2 : Fin 2 → Nat) (hs9 : S4x128x64.Slices o3 S1x128x64) (hs64 : S4x64.Slices o2 S1x64)
    (hid : FArr S100000x128) (X9 : FArr S4x128x64) (X10 X11 X12 X13 X14 : FArr S4x64) : FArr S100000x64 :=
  addf (mulf (mulf (subf (addf (Host.dotGeneral E2 none hid (rw2 o3 hs9 X9)) (rbc64 (rvec64 o2 hs64 X10)))
      (rbc64 (rvec64 o2 hs64 X13)))
    (rbc64 (Host.rsqrt (addf (rvec64 o2 hs64 X14) (broadcastInDim S64 ![] bcast_S_S64 (constant S_ .f32 0x3727C5AC#32))))))
    (rbc64 (rvec64 o2 hs64 X11))) (rbc64 (rvec64 o2 hs64 X12))

theorem rhidden_apply (ℓ : Fin 4) (o3 : Fin 3 → Nat) (o2 : Fin 2 → Nat) (h30 : o3 0 = ℓ.val) (h31 : o3 1 = 0) (h32 : o3 2 = 0)
    (h20 : o2 0 = ℓ.val) (h21 : o2 1 = 0) (hs3 : S4x64x128.Slices o3 S1x64x128) (hs128 : S4x128.Slices o2 S1x128)
    (h a : FArr S100000x64) (X3 : FArr S4x64x128) (X4 X5 X6 X7 X8 : FArr S4x128) (r : Fin 100000) (q : Fin 128) :
    rhidden o3 o2 hs3 hs128 h a X3 X4 X5 X6 X7 X8 (ix2 r q)
      = Cert.GinSpec.hidden (Cert.GinSpec.rowOf h r) (Cert.GinSpec.rowOf a r) (fun k q => X3 (ix3 ℓ k q))
          (fun q => X4 (ix2 ℓ q)) (fun q => X5 (ix2 ℓ q)) (fun q => X6 (ix2 ℓ q)) (fun q => X7 (ix2 ℓ q)) (fun q => X8 (ix2 ℓ q)) q := by
  unfold rhidden Cert.GinSpec.hidden Cert.GinSpec.bn
  simp only [maximumf_apply, addf_apply, mulf_apply, subf_apply, rdot1_apply, rbc128_apply, rvec128_apply ℓ o2 h20 h21,
    rw1_apply ℓ o3 h30 h31 h32, bcastConst_apply, Host.rsqrt, Cert.GinSpec.rowOf]
  rfl

theorem rpre_apply (ℓ : Fin 4) (o3 : Fin 3 → Nat) (o2 : Fin 2 → Nat) (h30 : o3 0 = ℓ.val) (h31 : o3 1 = 0) (h32 : o3 2 = 0)
    (h20 : o2 0 = ℓ.val) (h21 : o2 1 = 0) (hs9 : S4x128x64.Slices o3 S1x128x64) (hs64 : S4x64.Slices o2 S1x64)
    (hid : FArr S100000x128) (X9 : FArr S4x128x64) (X10 X11 X12 X13 X14 : FArr S4x64) (r : Fin 100000) (j : Fin 64) :
    rpre o3 o2 hs9 hs64 hid X9 X10 X11 X12 X13 X14 (ix2 r j)
      = Cert.GinSpec.bn ((∑ q : Fin 128, hid (ix2 r q) * X9 (ix3 ℓ q j)) + X10 (ix2 ℓ j))
          (X13 (ix2 ℓ j)) (X14 (ix2 ℓ j)) (X11 (ix2 ℓ j)) (X12 (ix2 ℓ j)) := by
  unfold rpre Cert.GinSpec.bn
  simp only [addf_apply, mulf_apply, subf_apply, rdot2_apply, rbc64_apply, rvec64_apply ℓ o2 h20 h21,
    rw2_apply ℓ o3 h30 h31 h32, bcastConst_apply, Host.rsqrt]
  rfl

/-- A rectified layer's host operations are layer `ℓ` of the specification. -/
theorem rlayer_eq (ℓ : Fin 4) (o3 : Fin 3 → Nat) (o2 : Fin 2 → Nat) (h30 : o3 0 = ℓ.val) (h31 : o3 1 = 0) (h32 : o3 2 = 0)
    (h20 : o2 0 = ℓ.val) (h21 : o2 1 = 0) (hs3 : S4x64x128.Slices o3 S1x64x128) (hs9 : S4x128x64.Slices o3 S1x128x64)
    (hs128 : S4x128.Slices o2 S1x128) (hs64 : S4x64.Slices o2 S1x64)
    (h a : FArr S100000x64) (X3 : FArr S4x64x128) (X4 X5 X6 X7 X8 : FArr S4x128) (X9 : FArr S4x128x64) (X10 X11 X12 X13 X14 : FArr S4x64) :
    maximumf (rpre o3 o2 hs9 hs64 (rhidden o3 o2 hs3 hs128 h a X3 X4 X5 X6 X7 X8) X9 X10 X11 X12 X13 X14)
        (broadcastInDim S100000x64 ![] bcast_S_S100000x64 (constant S_ .f32 0x00000000#32))
      = Cert.GinSpec.layerOf true ℓ h a X3 X4 X5 X6 X7 X8 X9 X10 X11 X12 X13 X14 := by
  funext i
  obtain ⟨r, j, rfl⟩ : ∃ (r : Fin 100000) (j : Fin 64), i = ix2 r j := ⟨i 0, i 1, eq_ix2 i⟩
  rw [Cert.GinSpec.layerOf_ix2, Cert.GinSpec.out_true, maximumf_apply, bcastConst_apply,
    rpre_apply ℓ o3 o2 h30 h31 h32 h20 h21]
  simp only [rhidden_apply ℓ o3 o2 h30 h31 h32 h20 h21]
  rfl

/-- The last layer's host operations, which end without a rectification, are layer `ℓ` of the specification. -/
theorem rlayerLast_eq (ℓ : Fin 4) (o3 : Fin 3 → Nat) (o2 : Fin 2 → Nat) (h30 : o3 0 = ℓ.val) (h31 : o3 1 = 0) (h32 : o3 2 = 0)
    (h20 : o2 0 = ℓ.val) (h21 : o2 1 = 0) (hs3 : S4x64x128.Slices o3 S1x64x128) (hs9 : S4x128x64.Slices o3 S1x128x64)
    (hs128 : S4x128.Slices o2 S1x128) (hs64 : S4x64.Slices o2 S1x64)
    (h a : FArr S100000x64) (X3 : FArr S4x64x128) (X4 X5 X6 X7 X8 : FArr S4x128) (X9 : FArr S4x128x64) (X10 X11 X12 X13 X14 : FArr S4x64) :
    rpre o3 o2 hs9 hs64 (rhidden o3 o2 hs3 hs128 h a X3 X4 X5 X6 X7 X8) X9 X10 X11 X12 X13 X14
      = Cert.GinSpec.layerOf false ℓ h a X3 X4 X5 X6 X7 X8 X9 X10 X11 X12 X13 X14 := by
  funext i
  obtain ⟨r, j, rfl⟩ : ∃ (r : Fin 100000) (j : Fin 64), i = ix2 r j := ⟨i 0, i 1, eq_ix2 i⟩
  rw [Cert.GinSpec.layerOf_ix2, Cert.GinSpec.out_false, rpre_apply ℓ o3 o2 h30 h31 h32 h20 h21]
  simp only [rhidden_apply ℓ o3 o2 h30 h31 h32 h20 h21]
  rfl

/-! ## The shared host operations, in the reference's vocabulary -/

/-- The edges' source nodes: row 0 of the edge list. -/
def srcR (e : IArr S2x1600000) : IArr S1600000 :=
  shapeCast _ (extractStridedSlice S1x1600000 ![0, 0] e slices_S2x1600000_S1x1600000_0_0) shapeCasts_S1x1600000_S1600000

/-- The edges' destination nodes: row 1 of the edge list. -/
def dstR (e : IArr S2x1600000) : IArr S1600000 :=
  shapeCast _ (extractStridedSlice S1x1600000 ![1, 0] e slices_S2x1600000_S1x1600000_1_0) shapeCasts_S1x1600000_S1600000

/-- Neighbour aggregation. -/
def aggR (h : FArr S100000x64) (s d : IArr S1600000) : FArr S100000x64 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- Mean pooling by graph. -/
def poolR (h : FArr S100000x64) (b : IArr S100000) : FArr S512x64 :=
  Host.divf
    (Host.scatterAdd scatter_S512x64_S100000x1_S100000x64_1_0_0_1
      (broadcastInDim S512x64 ![] bcast_S_S512x64 (constant S_ .f32 0x00000000#32))
      (broadcastInDim S100000x1 ![0] bcast_S100000_S100000x1_0 b) h)
    (broadcastInDim S512x64 ![0, 1] bcast_S512x1_S512x64_0_1
      (maximumf
        (Host.scatterAdd scatter_S512x1_S100000x1_S100000x1_1_0_0_1
          (broadcastInDim S512x1 ![] bcast_S_S512x1 (constant S_ .f32 0x00000000#32))
          (broadcastInDim S100000x1 ![0] bcast_S100000_S100000x1_0 b)
          (broadcastInDim S100000x1 ![] bcast_S_S100000x1 (constant S_ .f32 0x3F800000#32)))
        (broadcastInDim S512x1 ![] bcast_S_S512x1 (constant S_ .f32 0x3F800000#32))))

/-- One layer together with the aggregation that feeds it. -/
def rstep (relu : Bool) (ℓ : Fin 4) (h : FArr S100000x64) (e : IArr S2x1600000)
    (x3 : FArr S4x64x128) (x4 x5 x6 x7 x8 : FArr S4x128) (x9 : FArr S4x128x64) (x10 x11 x12 x13 x14 : FArr S4x64) :
    FArr S100000x64 :=
  Cert.GinSpec.layerOf relu ℓ h (aggR h (srcR e) (dstR e)) x3 x4 x5 x6 x7 x8 x9 x10 x11 x12 x13 x14

/-- The whole network: four layers, the last without its rectification, then mean pooling by graph `b`. -/
def rnet (x0 : FArr S100000x64) (e : IArr S2x1600000) (b : IArr S100000)
    (x3 : FArr S4x64x128) (x4 x5 x6 x7 x8 : FArr S4x128) (x9 : FArr S4x128x64) (x10 x11 x12 x13 x14 : FArr S4x64) :
    FArr S512x64 :=
  poolR
    (rstep false 3
      (rstep true 2
        (rstep true 1
          (rstep true 0 x0 e x3 x4 x5 x6 x7 x8 x9 x10 x11 x12 x13 x14)
          e x3 x4 x5 x6 x7 x8 x9 x10 x11 x12 x13 x14)
        e x3 x4 x5 x6 x7 x8 x9 x10 x11 x12 x13 x14)
      e x3 x4 x5 x6 x7 x8 x9 x10 x11 x12 x13 x14)
    b

/-! ## The operations, piece by piece -/

-- one rewriting pass walks up to 88 operations of a piece
set_option maxHeartbeats 4000000

variable (m : (ℓ : Loc nD τ sig) → Buf (Elt Ideal) ℓ) (c : Dev nD)

/-- The contents `W` hold every argument as launched. -/
structure RLaunch (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)

/-- The contents `W` hold every argument as launched, and the edges' source and destination nodes. -/
structure RKeeps (W : Valuation τ sig (Elt Ideal)) : Prop where
  src : W (Proc.devRef .tc main_v1) = srcR (m ((c : Thread nD τ).loc main_arg1))
  dst : W (Proc.devRef .tc main_v3) = dstR (m ((c : Thread nD τ).loc main_arg1))
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)

/-! ## The operations up to the first layer's output -/

/-- They compute the two index vectors and write no argument. -/
theorem rkeeps0 (W : Valuation τ sig (Elt Ideal)) (hL : RLaunch m c W) : RKeeps m c (StableHlo.after ops0 W) where
  src := by
    have e : StableHlo.after ops0 W (Proc.devRef .tc main_v1) = srcR (W (Proc.devRef .tc main_arg1)) := by
      simp only [ops0, ops1, ops2, ops3, ops4, after_append]; after_results_simp <;> rfl
    rw [e, hL.a1]
  dst := by
    have e : StableHlo.after ops0 W (Proc.devRef .tc main_v3) = dstR (W (Proc.devRef .tc main_arg1)) := by
      simp only [ops0, ops1, ops2, ops3, ops4, after_append]; after_results_simp <;> rfl
    rw [e, hL.a1]
  a0 := (by simp only [ops0, ops1, ops2, ops3, ops4, after_append]; after_results_simp <;> rfl : StableHlo.after ops0 W (Proc.devRef .tc main_arg0) = W (Proc.devRef .tc main_arg0)).trans hL.a0
  a1 := (by simp only [ops0, ops1, ops2, ops3, ops4, after_append]; after_results_simp <;> rfl : StableHlo.after ops0 W (Proc.devRef .tc main_arg1) = W (Proc.devRef .tc main_arg1)).trans hL.a1
  a2 := (by simp only [ops0, ops1, ops2, ops3, ops4, after_append]; after_results_simp <;> rfl : StableHlo.after ops0 W (Proc.devRef .tc main_arg2) = W (Proc.devRef .tc main_arg2)).trans hL.a2
  a3 := (by simp only [ops0, ops1, ops2, ops3, ops4, after_append]; after_results_simp <;> rfl : StableHlo.after ops0 W (Proc.devRef .tc main_arg3) = W (Proc.devRef .tc main_arg3)).trans hL.a3
  a4 := (by simp only [ops0, ops1, ops2, ops3, ops4, after_append]; after_results_simp <;> rfl : StableHlo.after ops0 W (Proc.devRef .tc main_arg4) = W (Proc.devRef .tc main_arg4)).trans hL.a4
  a5 := (by simp only [ops0, ops1, ops2, ops3, ops4, after_append]; after_results_simp <;> rfl : StableHlo.after ops0 W (Proc.devRef .tc main_arg5) = W (Proc.devRef .tc main_arg5)).trans hL.a5
  a6 := (by simp only [ops0, ops1, ops2, ops3, ops4, after_append]; after_results_simp <;> rfl : StableHlo.after ops0 W (Proc.devRef .tc main_arg6) = W (Proc.devRef .tc main_arg6)).trans hL.a6
  a7 := (by simp only [ops0, ops1, ops2, ops3, ops4, after_append]; after_results_simp <;> rfl : StableHlo.after ops0 W (Proc.devRef .tc main_arg7) = W (Proc.devRef .tc main_arg7)).trans hL.a7
  a8 := (by simp only [ops0, ops1, ops2, ops3, ops4, after_append]; after_results_simp <;> rfl : StableHlo.after ops0 W (Proc.devRef .tc main_arg8) = W (Proc.devRef .tc main_arg8)).trans hL.a8
  a9 := (by simp only [ops0, ops1, ops2, ops3, ops4, after_append]; after_results_simp <;> rfl : StableHlo.after ops0 W (Proc.devRef .tc main_arg9) = W (Proc.devRef .tc main_arg9)).trans hL.a9
  a10 := (by simp only [ops0, ops1, ops2, ops3, ops4, after_append]; after_results_simp <;> rfl : StableHlo.after ops0 W (Proc.devRef .tc main_arg10) = W (Proc.devRef .tc main_arg10)).trans hL.a10
  a11 := (by simp only [ops0, ops1, ops2, ops3, ops4, after_append]; after_results_simp <;> rfl : StableHlo.after ops0 W (Proc.devRef .tc main_arg11) = W (Proc.devRef .tc main_arg11)).trans hL.a11
  a12 := (by simp only [ops0, ops1, ops2, ops3, ops4, after_append]; after_results_simp <;> rfl : StableHlo.after ops0 W (Proc.devRef .tc main_arg12) = W (Proc.devRef .tc main_arg12)).trans hL.a12
  a13 := (by simp only [ops0, ops1, ops2, ops3, ops4, after_append]; after_results_simp <;> rfl : StableHlo.after ops0 W (Proc.devRef .tc main_arg13) = W (Proc.devRef .tc main_arg13)).trans hL.a13
  a14 := (by simp only [ops0, ops1, ops2, ops3, ops4, after_append]; after_results_simp <;> rfl : StableHlo.after ops0 W (Proc.devRef .tc main_arg14) = W (Proc.devRef .tc main_arg14)).trans hL.a14

/-- The layer's output: layer 0 of the specification, of the node features and their aggregation. -/
theorem rout0 (W : Valuation τ sig (Elt Ideal)) (hL : RLaunch m c W) :
    (StableHlo.after ops0 W (Proc.devRef .tc main_v78) : FArr S100000x64)
      = rstep true 0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : (StableHlo.after ops0 W (Proc.devRef .tc main_v78) : FArr S100000x64)
      = (maximumf (rpre ![0, 0, 0] ![0, 0] slices_S4x128x64_S1x128x64_0_0_0 slices_S4x64_S1x64_0_0 (rhidden ![0, 0, 0] ![0, 0] slices_S4x64x128_S1x64x128_0_0_0 slices_S4x128_S1x128_0_0 (W (Proc.devRef .tc main_arg0)) (aggR (W (Proc.devRef .tc main_arg0)) (srcR (W (Proc.devRef .tc main_arg1))) (dstR (W (Proc.devRef .tc main_arg1)))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14))) (broadcastInDim S100000x64 ![] bcast_S_S100000x64 (constant S_ .f32 0x00000000#32))) := by
    simp only [ops0, ops1, ops2, ops3, ops4, after_append]; after_results_simp <;> rfl
  rw [e, hL.a1, hL.a0, hL.a3, hL.a4, hL.a5, hL.a6, hL.a7, hL.a8, hL.a9, hL.a10, hL.a11, hL.a12, hL.a13, hL.a14]
  exact rlayer_eq 0 ![0, 0, 0] ![0, 0] rfl rfl rfl rfl rfl _ _ _ _ _ _ _ _ _ _ _ _ _ _ _ _ _ _

/-! ## The operations up to the second layer's output -/

/-- They write none of the kept buffers. -/
theorem rkeeps1 (W : Valuation τ sig (Elt Ideal)) (hK : RKeeps m c W) : RKeeps m c (StableHlo.after ops1 W) where
  src := (by simp only [ops0, ops1, ops2, ops3, ops4, after_append]; after_results_simp <;> rfl : StableHlo.after ops1 W (Proc.devRef .tc main_v1) = W (Proc.devRef .tc main_v1)).trans hK.src
  dst := (by simp only [ops0, ops1, ops2, ops3, ops4, after_append]; after_results_simp <;> rfl : StableHlo.after ops1 W (Proc.devRef .tc main_v3) = W (Proc.devRef .tc main_v3)).trans hK.dst
  a0 := (by simp only [ops0, ops1, ops2, ops3, ops4, after_append]; after_results_simp <;> rfl : StableHlo.after ops1 W (Proc.devRef .tc main_arg0) = W (Proc.devRef .tc main_arg0)).trans hK.a0
  a1 := (by simp only [ops0, ops1, ops2, ops3, ops4, after_append]; after_results_simp <;> rfl : StableHlo.after ops1 W (Proc.devRef .tc main_arg1) = W (Proc.devRef .tc main_arg1)).trans hK.a1
  a2 := (by simp only [ops0, ops1, ops2, ops3, ops4, after_append]; after_results_simp <;> rfl : StableHlo.after ops1 W (Proc.devRef .tc main_arg2) = W (Proc.devRef .tc main_arg2)).trans hK.a2
  a3 := (by simp only [ops0, ops1, ops2, ops3, ops4, after_append]; after_results_simp <;> rfl : StableHlo.after ops1 W (Proc.devRef .tc main_arg3) = W (Proc.devRef .tc main_arg3)).trans hK.a3
  a4 := (by simp only [ops0, ops1, ops2, ops3, ops4, after_append]; after_results_simp <;> rfl : StableHlo.after ops1 W (Proc.devRef .tc main_arg4) = W (Proc.devRef .tc main_arg4)).trans hK.a4
  a5 := (by simp only [ops0, ops1, ops2, ops3, ops4, after_append]; after_results_simp <;> rfl : StableHlo.after ops1 W (Proc.devRef .tc main_arg5) = W (Proc.devRef .tc main_arg5)).trans hK.a5
  a6 := (by simp only [ops0, ops1, ops2, ops3, ops4, after_append]; after_results_simp <;> rfl : StableHlo.after ops1 W (Proc.devRef .tc main_arg6) = W (Proc.devRef .tc main_arg6)).trans hK.a6
  a7 := (by simp only [ops0, ops1, ops2, ops3, ops4, after_append]; after_results_simp <;> rfl : StableHlo.after ops1 W (Proc.devRef .tc main_arg7) = W (Proc.devRef .tc main_arg7)).trans hK.a7
  a8 := (by simp only [ops0, ops1, ops2, ops3, ops4, after_append]; after_results_simp <;> rfl : StableHlo.after ops1 W (Proc.devRef .tc main_arg8) = W (Proc.devRef .tc main_arg8)).trans hK.a8
  a9 := (by simp only [ops0, ops1, ops2, ops3, ops4, after_append]; after_results_simp <;> rfl : StableHlo.after ops1 W (Proc.devRef .tc main_arg9) = W (Proc.devRef .tc main_arg9)).trans hK.a9
  a10 := (by simp only [ops0, ops1, ops2, ops3, ops4, after_append]; after_results_simp <;> rfl : StableHlo.after ops1 W (Proc.devRef .tc main_arg10) = W (Proc.devRef .tc main_arg10)).trans hK.a10
  a11 := (by simp only [ops0, ops1, ops2, ops3, ops4, after_append]; after_results_simp <;> rfl : StableHlo.after ops1 W (Proc.devRef .tc main_arg11) = W (Proc.devRef .tc main_arg11)).trans hK.a11
  a12 := (by simp only [ops0, ops1, ops2, ops3, ops4, after_append]; after_results_simp <;> rfl : StableHlo.after ops1 W (Proc.devRef .tc main_arg12) = W (Proc.devRef .tc main_arg12)).trans hK.a12
  a13 := (by simp only [ops0, ops1, ops2, ops3, ops4, after_append]; after_results_simp <;> rfl : StableHlo.after ops1 W (Proc.devRef .tc main_arg13) = W (Proc.devRef .tc main_arg13)).trans hK.a13
  a14 := (by simp only [ops0, ops1, ops2, ops3, ops4, after_append]; after_results_simp <;> rfl : StableHlo.after ops1 W (Proc.devRef .tc main_arg14) = W (Proc.devRef .tc main_arg14)).trans hK.a14

/-- The layer's output: layer 1 of the specification, of the previous layer's output and its aggregation. -/
theorem rout1 (W : Valuation τ sig (Elt Ideal)) (hK : RKeeps m c W) :
    (StableHlo.after ops1 W (Proc.devRef .tc main_v153) : FArr S100000x64)
      = rstep true 1 (W (Proc.devRef .tc main_v78)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : (StableHlo.after ops1 W (Proc.devRef .tc main_v153) : FArr S100000x64)
      = (maximumf (rpre ![1, 0, 0] ![1, 0] slices_S4x128x64_S1x128x64_1_0_0 slices_S4x64_S1x64_1_0 (rhidden ![1, 0, 0] ![1, 0] slices_S4x64x128_S1x64x128_1_0_0 slices_S4x128_S1x128_1_0 (W (Proc.devRef .tc main_v78)) (aggR (W (Proc.devRef .tc main_v78)) (W (Proc.devRef .tc main_v1)) (W (Proc.devRef .tc main_v3))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14))) (broadcastInDim S100000x64 ![] bcast_S_S100000x64 (constant S_ .f32 0x00000000#32))) := by
    simp only [ops0, ops1, ops2, ops3, ops4, after_append]; after_results_simp <;> rfl
  rw [e, hK.src, hK.dst, hK.a3, hK.a4, hK.a5, hK.a6, hK.a7, hK.a8, hK.a9, hK.a10, hK.a11, hK.a12, hK.a13, hK.a14]
  exact rlayer_eq 1 ![1, 0, 0] ![1, 0] rfl rfl rfl rfl rfl _ _ _ _ _ _ _ _ _ _ _ _ _ _ _ _ _ _

/-! ## The operations up to the third layer's output -/

/-- They write none of the kept buffers. -/
theorem rkeeps2 (W : Valuation τ sig (Elt Ideal)) (hK : RKeeps m c W) : RKeeps m c (StableHlo.after ops2 W) where
  src := (by simp only [ops0, ops1, ops2, ops3, ops4, after_append]; after_results_simp <;> rfl : StableHlo.after ops2 W (Proc.devRef .tc main_v1) = W (Proc.devRef .tc main_v1)).trans hK.src
  dst := (by simp only [ops0, ops1, ops2, ops3, ops4, after_append]; after_results_simp <;> rfl : StableHlo.after ops2 W (Proc.devRef .tc main_v3) = W (Proc.devRef .tc main_v3)).trans hK.dst
  a0 := (by simp only [ops0, ops1, ops2, ops3, ops4, after_append]; after_results_simp <;> rfl : StableHlo.after ops2 W (Proc.devRef .tc main_arg0) = W (Proc.devRef .tc main_arg0)).trans hK.a0
  a1 := (by simp only [ops0, ops1, ops2, ops3, ops4, after_append]; after_results_simp <;> rfl : StableHlo.after ops2 W (Proc.devRef .tc main_arg1) = W (Proc.devRef .tc main_arg1)).trans hK.a1
  a2 := (by simp only [ops0, ops1, ops2, ops3, ops4, after_append]; after_results_simp <;> rfl : StableHlo.after ops2 W (Proc.devRef .tc main_arg2) = W (Proc.devRef .tc main_arg2)).trans hK.a2
  a3 := (by simp only [ops0, ops1, ops2, ops3, ops4, after_append]; after_results_simp <;> rfl : StableHlo.after ops2 W (Proc.devRef .tc main_arg3) = W (Proc.devRef .tc main_arg3)).trans hK.a3
  a4 := (by simp only [ops0, ops1, ops2, ops3, ops4, after_append]; after_results_simp <;> rfl : StableHlo.after ops2 W (Proc.devRef .tc main_arg4) = W (Proc.devRef .tc main_arg4)).trans hK.a4
  a5 := (by simp only [ops0, ops1, ops2, ops3, ops4, after_append]; after_results_simp <;> rfl : StableHlo.after ops2 W (Proc.devRef .tc main_arg5) = W (Proc.devRef .tc main_arg5)).trans hK.a5
  a6 := (by simp only [ops0, ops1, ops2, ops3, ops4, after_append]; after_results_simp <;> rfl : StableHlo.after ops2 W (Proc.devRef .tc main_arg6) = W (Proc.devRef .tc main_arg6)).trans hK.a6
  a7 := (by simp only [ops0, ops1, ops2, ops3, ops4, after_append]; after_results_simp <;> rfl : StableHlo.after ops2 W (Proc.devRef .tc main_arg7) = W (Proc.devRef .tc main_arg7)).trans hK.a7
  a8 := (by simp only [ops0, ops1, ops2, ops3, ops4, after_append]; after_results_simp <;> rfl : StableHlo.after ops2 W (Proc.devRef .tc main_arg8) = W (Proc.devRef .tc main_arg8)).trans hK.a8
  a9 := (by simp only [ops0, ops1, ops2, ops3, ops4, after_append]; after_results_simp <;> rfl : StableHlo.after ops2 W (Proc.devRef .tc main_arg9) = W (Proc.devRef .tc main_arg9)).trans hK.a9
  a10 := (by simp only [ops0, ops1, ops2, ops3, ops4, after_append]; after_results_simp <;> rfl : StableHlo.after ops2 W (Proc.devRef .tc main_arg10) = W (Proc.devRef .tc main_arg10)).trans hK.a10
  a11 := (by simp only [ops0, ops1, ops2, ops3, ops4, after_append]; after_results_simp <;> rfl : StableHlo.after ops2 W (Proc.devRef .tc main_arg11) = W (Proc.devRef .tc main_arg11)).trans hK.a11
  a12 := (by simp only [ops0, ops1, ops2, ops3, ops4, after_append]; after_results_simp <;> rfl : StableHlo.after ops2 W (Proc.devRef .tc main_arg12) = W (Proc.devRef .tc main_arg12)).trans hK.a12
  a13 := (by simp only [ops0, ops1, ops2, ops3, ops4, after_append]; after_results_simp <;> rfl : StableHlo.after ops2 W (Proc.devRef .tc main_arg13) = W (Proc.devRef .tc main_arg13)).trans hK.a13
  a14 := (by simp only [ops0, ops1, ops2, ops3, ops4, after_append]; after_results_simp <;> rfl : StableHlo.after ops2 W (Proc.devRef .tc main_arg14) = W (Proc.devRef .tc main_arg14)).trans hK.a14

/-- The layer's output: layer 2 of the specification, of the previous layer's output and its aggregation. -/
theorem rout2 (W : Valuation τ sig (Elt Ideal)) (hK : RKeeps m c W) :
    (StableHlo.after ops2 W (Proc.devRef .tc main_v228) : FArr S100000x64)
      = rstep true 2 (W (Proc.devRef .tc main_v153)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : (StableHlo.after ops2 W (Proc.devRef .tc main_v228) : FArr S100000x64)
      = (maximumf (rpre ![2, 0, 0] ![2, 0] slices_S4x128x64_S1x128x64_2_0_0 slices_S4x64_S1x64_2_0 (rhidden ![2, 0, 0] ![2, 0] slices_S4x64x128_S1x64x128_2_0_0 slices_S4x128_S1x128_2_0 (W (Proc.devRef .tc main_v153)) (aggR (W (Proc.devRef .tc main_v153)) (W (Proc.devRef .tc main_v1)) (W (Proc.devRef .tc main_v3))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14))) (broadcastInDim S100000x64 ![] bcast_S_S100000x64 (constant S_ .f32 0x00000000#32))) := by
    simp only [ops0, ops1, ops2, ops3, ops4, after_append]; after_results_simp <;> rfl
  rw [e, hK.src, hK.dst, hK.a3, hK.a4, hK.a5, hK.a6, hK.a7, hK.a8, hK.a9, hK.a10, hK.a11, hK.a12, hK.a13, hK.a14]
  exact rlayer_eq 2 ![2, 0, 0] ![2, 0] rfl rfl rfl rfl rfl _ _ _ _ _ _ _ _ _ _ _ _ _ _ _ _ _ _

/-! ## The operations up to the last layer's output -/

/-- They write none of the kept buffers. -/
theorem rkeeps3 (W : Valuation τ sig (Elt Ideal)) (hK : RKeeps m c W) : RKeeps m c (StableHlo.after ops3 W) where
  src := (by simp only [ops0, ops1, ops2, ops3, ops4, after_append]; after_results_simp <;> rfl : StableHlo.after ops3 W (Proc.devRef .tc main_v1) = W (Proc.devRef .tc main_v1)).trans hK.src
  dst := (by simp only [ops0, ops1, ops2, ops3, ops4, after_append]; after_results_simp <;> rfl : StableHlo.after ops3 W (Proc.devRef .tc main_v3) = W (Proc.devRef .tc main_v3)).trans hK.dst
  a0 := (by simp only [ops0, ops1, ops2, ops3, ops4, after_append]; after_results_simp <;> rfl : StableHlo.after ops3 W (Proc.devRef .tc main_arg0) = W (Proc.devRef .tc main_arg0)).trans hK.a0
  a1 := (by simp only [ops0, ops1, ops2, ops3, ops4, after_append]; after_results_simp <;> rfl : StableHlo.after ops3 W (Proc.devRef .tc main_arg1) = W (Proc.devRef .tc main_arg1)).trans hK.a1
  a2 := (by simp only [ops0, ops1, ops2, ops3, ops4, after_append]; after_results_simp <;> rfl : StableHlo.after ops3 W (Proc.devRef .tc main_arg2) = W (Proc.devRef .tc main_arg2)).trans hK.a2
  a3 := (by simp only [ops0, ops1, ops2, ops3, ops4, after_append]; after_results_simp <;> rfl : StableHlo.after ops3 W (Proc.devRef .tc main_arg3) = W (Proc.devRef .tc main_arg3)).trans hK.a3
  a4 := (by simp only [ops0, ops1, ops2, ops3, ops4, after_append]; after_results_simp <;> rfl : StableHlo.after ops3 W (Proc.devRef .tc main_arg4) = W (Proc.devRef .tc main_arg4)).trans hK.a4
  a5 := (by simp only [ops0, ops1, ops2, ops3, ops4, after_append]; after_results_simp <;> rfl : StableHlo.after ops3 W (Proc.devRef .tc main_arg5) = W (Proc.devRef .tc main_arg5)).trans hK.a5
  a6 := (by simp only [ops0, ops1, ops2, ops3, ops4, after_append]; after_results_simp <;> rfl : StableHlo.after ops3 W (Proc.devRef .tc main_arg6) = W (Proc.devRef .tc main_arg6)).trans hK.a6
  a7 := (by simp only [ops0, ops1, ops2, ops3, ops4, after_append]; after_results_simp <;> rfl : StableHlo.after ops3 W (Proc.devRef .tc main_arg7) = W (Proc.devRef .tc main_arg7)).trans hK.a7
  a8 := (by simp only [ops0, ops1, ops2, ops3, ops4, after_append]; after_results_simp <;> rfl : StableHlo.after ops3 W (Proc.devRef .tc main_arg8) = W (Proc.devRef .tc main_arg8)).trans hK.a8
  a9 := (by simp only [ops0, ops1, ops2, ops3, ops4, after_append]; after_results_simp <;> rfl : StableHlo.after ops3 W (Proc.devRef .tc main_arg9) = W (Proc.devRef .tc main_arg9)).trans hK.a9
  a10 := (by simp only [ops0, ops1, ops2, ops3, ops4, after_append]; after_results_simp <;> rfl : StableHlo.after ops3 W (Proc.devRef .tc main_arg10) = W (Proc.devRef .tc main_arg10)).trans hK.a10
  a11 := (by simp only [ops0, ops1, ops2, ops3, ops4, after_append]; after_results_simp <;> rfl : StableHlo.after ops3 W (Proc.devRef .tc main_arg11) = W (Proc.devRef .tc main_arg11)).trans hK.a11
  a12 := (by simp only [ops0, ops1, ops2, ops3, ops4, after_append]; after_results_simp <;> rfl : StableHlo.after ops3 W (Proc.devRef .tc main_arg12) = W (Proc.devRef .tc main_arg12)).trans hK.a12
  a13 := (by simp only [ops0, ops1, ops2, ops3, ops4, after_append]; after_results_simp <;> rfl : StableHlo.after ops3 W (Proc.devRef .tc main_arg13) = W (Proc.devRef .tc main_arg13)).trans hK.a13
  a14 := (by simp only [ops0, ops1, ops2, ops3, ops4, after_append]; after_results_simp <;> rfl : StableHlo.after ops3 W (Proc.devRef .tc main_arg14) = W (Proc.devRef .tc main_arg14)).trans hK.a14

/-- The layer's output: layer 3 of the specification, of the previous layer's output and its aggregation. -/
theorem rout3 (W : Valuation τ sig (Elt Ideal)) (hK : RKeeps m c W) :
    (StableHlo.after ops3 W (Proc.devRef .tc main_v302) : FArr S100000x64)
      = rstep false 3 (W (Proc.devRef .tc main_v228)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : (StableHlo.after ops3 W (Proc.devRef .tc main_v302) : FArr S100000x64)
      = (rpre ![3, 0, 0] ![3, 0] slices_S4x128x64_S1x128x64_3_0_0 slices_S4x64_S1x64_3_0 (rhidden ![3, 0, 0] ![3, 0] slices_S4x64x128_S1x64x128_3_0_0 slices_S4x128_S1x128_3_0 (W (Proc.devRef .tc main_v228)) (aggR (W (Proc.devRef .tc main_v228)) (W (Proc.devRef .tc main_v1)) (W (Proc.devRef .tc main_v3))) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14))) := by
    simp only [ops0, ops1, ops2, ops3, ops4, after_append]; after_results_simp <;> rfl
  rw [e, hK.src, hK.dst, hK.a3, hK.a4, hK.a5, hK.a6, hK.a7, hK.a8, hK.a9, hK.a10, hK.a11, hK.a12, hK.a13, hK.a14]
  exact rlayerLast_eq 3 ![3, 0, 0] ![3, 0] rfl rfl rfl rfl rfl _ _ _ _ _ _ _ _ _ _ _ _ _ _ _ _ _ _

/-! ## The pooling -/

/-- It writes none of the kept buffers. -/
theorem rkeeps4 (W : Valuation τ sig (Elt Ideal)) (hK : RKeeps m c W) : RKeeps m c (StableHlo.after ops4 W) where
  src := (by simp only [ops0, ops1, ops2, ops3, ops4, after_append]; after_results_simp <;> rfl : StableHlo.after ops4 W (Proc.devRef .tc main_v1) = W (Proc.devRef .tc main_v1)).trans hK.src
  dst := (by simp only [ops0, ops1, ops2, ops3, ops4, after_append]; after_results_simp <;> rfl : StableHlo.after ops4 W (Proc.devRef .tc main_v3) = W (Proc.devRef .tc main_v3)).trans hK.dst
  a0 := (by simp only [ops0, ops1, ops2, ops3, ops4, after_append]; after_results_simp <;> rfl : StableHlo.after ops4 W (Proc.devRef .tc main_arg0) = W (Proc.devRef .tc main_arg0)).trans hK.a0
  a1 := (by simp only [ops0, ops1, ops2, ops3, ops4, after_append]; after_results_simp <;> rfl : StableHlo.after ops4 W (Proc.devRef .tc main_arg1) = W (Proc.devRef .tc main_arg1)).trans hK.a1
  a2 := (by simp only [ops0, ops1, ops2, ops3, ops4, after_append]; after_results_simp <;> rfl : StableHlo.after ops4 W (Proc.devRef .tc main_arg2) = W (Proc.devRef .tc main_arg2)).trans hK.a2
  a3 := (by simp only [ops0, ops1, ops2, ops3, ops4, after_append]; after_results_simp <;> rfl : StableHlo.after ops4 W (Proc.devRef .tc main_arg3) = W (Proc.devRef .tc main_arg3)).trans hK.a3
  a4 := (by simp only [ops0, ops1, ops2, ops3, ops4, after_append]; after_results_simp <;> rfl : StableHlo.after ops4 W (Proc.devRef .tc main_arg4) = W (Proc.devRef .tc main_arg4)).trans hK.a4
  a5 := (by simp only [ops0, ops1, ops2, ops3, ops4, after_append]; after_results_simp <;> rfl : StableHlo.after ops4 W (Proc.devRef .tc main_arg5) = W (Proc.devRef .tc main_arg5)).trans hK.a5
  a6 := (by simp only [ops0, ops1, ops2, ops3, ops4, after_append]; after_results_simp <;> rfl : StableHlo.after ops4 W (Proc.devRef .tc main_arg6) = W (Proc.devRef .tc main_arg6)).trans hK.a6
  a7 := (by simp only [ops0, ops1, ops2, ops3, ops4, after_append]; after_results_simp <;> rfl : StableHlo.after ops4 W (Proc.devRef .tc main_arg7) = W (Proc.devRef .tc main_arg7)).trans hK.a7
  a8 := (by simp only [ops0, ops1, ops2, ops3, ops4, after_append]; after_results_simp <;> rfl : StableHlo.after ops4 W (Proc.devRef .tc main_arg8) = W (Proc.devRef .tc main_arg8)).trans hK.a8
  a9 := (by simp only [ops0, ops1, ops2, ops3, ops4, after_append]; after_results_simp <;> rfl : StableHlo.after ops4 W (Proc.devRef .tc main_arg9) = W (Proc.devRef .tc main_arg9)).trans hK.a9
  a10 := (by simp only [ops0, ops1, ops2, ops3, ops4, after_append]; after_results_simp <;> rfl : StableHlo.after ops4 W (Proc.devRef .tc main_arg10) = W (Proc.devRef .tc main_arg10)).trans hK.a10
  a11 := (by simp only [ops0, ops1, ops2, ops3, ops4, after_append]; after_results_simp <;> rfl : StableHlo.after ops4 W (Proc.devRef .tc main_arg11) = W (Proc.devRef .tc main_arg11)).trans hK.a11
  a12 := (by simp only [ops0, ops1, ops2, ops3, ops4, after_append]; after_results_simp <;> rfl : StableHlo.after ops4 W (Proc.devRef .tc main_arg12) = W (Proc.devRef .tc main_arg12)).trans hK.a12
  a13 := (by simp only [ops0, ops1, ops2, ops3, ops4, after_append]; after_results_simp <;> rfl : StableHlo.after ops4 W (Proc.devRef .tc main_arg13) = W (Proc.devRef .tc main_arg13)).trans hK.a13
  a14 := (by simp only [ops0, ops1, ops2, ops3, ops4, after_append]; after_results_simp <;> rfl : StableHlo.after ops4 W (Proc.devRef .tc main_arg14) = W (Proc.devRef .tc main_arg14)).trans hK.a14

theorem rpool (W : Valuation τ sig (Elt Ideal)) (hK : RKeeps m c W) :
    (StableHlo.after ops4 W (Proc.devRef .tc main_v313) : FArr S512x64)
      = poolR (W (Proc.devRef .tc main_v302)) (m ((c : Thread nD τ).loc main_arg2)) := by
  have e : (StableHlo.after ops4 W (Proc.devRef .tc main_v313) : FArr S512x64)
      = poolR (W (Proc.devRef .tc main_v302)) (W (Proc.devRef .tc main_arg2)) := by
    simp only [ops0, ops1, ops2, ops3, ops4, after_append]; after_results_simp <;> rfl
  rw [e, hK.a2]

end Cert.ReferenceIdeal.Hand

end
-- ==== Proof.RefWalk.lean ====
/-
  The reference program's result as one function of its arguments.

  The reference is one straight line of host operations.  Its final buffer contents are the fold of those
  operations over the launch contents, and the fold over the whole line is the fold over its five pieces in
  turn.  The first piece aggregates the node features and applies the first layer; each of the next three
  aggregates the previous layer's output and applies its layer; the last pools by graph.  No piece writes an
  argument or the edge list's two index vectors.  So the result buffer ends at the network of the
  specification applied to the arguments as launched, and every argument ends as launched.
-/
import proofs.«118457_j65111704207428_1_alg».proof.Proof.RefHost

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The arguments as launched -/

abbrev B0 : FArr S100000x64 := m ((c : Thread nD τ).loc main_arg0)
abbrev B1 : IArr S2x1600000 := m ((c : Thread nD τ).loc main_arg1)
abbrev B2 : IArr S100000 := m ((c : Thread nD τ).loc main_arg2)
abbrev B3 : FArr S4x64x128 := m ((c : Thread nD τ).loc main_arg3)
abbrev B4 : FArr S4x128 := m ((c : Thread nD τ).loc main_arg4)
abbrev B5 : FArr S4x128 := m ((c : Thread nD τ).loc main_arg5)
abbrev B6 : FArr S4x128 := m ((c : Thread nD τ).loc main_arg6)
abbrev B7 : FArr S4x128 := m ((c : Thread nD τ).loc main_arg7)
abbrev B8 : FArr S4x128 := m ((c : Thread nD τ).loc main_arg8)
abbrev B9 : FArr S4x128x64 := m ((c : Thread nD τ).loc main_arg9)
abbrev B10 : FArr S4x64 := m ((c : Thread nD τ).loc main_arg10)
abbrev B11 : FArr S4x64 := m ((c : Thread nD τ).loc main_arg11)
abbrev B12 : FArr S4x64 := m ((c : Thread nD τ).loc main_arg12)
abbrev B13 : FArr S4x64 := m ((c : Thread nD τ).loc main_arg13)
abbrev B14 : FArr S4x64 := m ((c : Thread nD τ).loc main_arg14)

/-- The node features after layer 1. -/
abbrev rfeat1 : FArr S100000x64 := rstep true 0 (B0 m c) (B1 m c) (B3 m c) (B4 m c) (B5 m c) (B6 m c) (B7 m c) (B8 m c) (B9 m c) (B10 m c) (B11 m c) (B12 m c) (B13 m c) (B14 m c)
/-- The node features after layer 2. -/
abbrev rfeat2 : FArr S100000x64 := rstep true 1 (rfeat1 m c) (B1 m c) (B3 m c) (B4 m c) (B5 m c) (B6 m c) (B7 m c) (B8 m c) (B9 m c) (B10 m c) (B11 m c) (B12 m c) (B13 m c) (B14 m c)
/-- The node features after layer 3. -/
abbrev rfeat3 : FArr S100000x64 := rstep true 2 (rfeat2 m c) (B1 m c) (B3 m c) (B4 m c) (B5 m c) (B6 m c) (B7 m c) (B8 m c) (B9 m c) (B10 m c) (B11 m c) (B12 m c) (B13 m c) (B14 m c)
/-- The node features after layer 4. -/
abbrev rfeat4 : FArr S100000x64 := rstep false 3 (rfeat3 m c) (B1 m c) (B3 m c) (B4 m c) (B5 m c) (B6 m c) (B7 m c) (B8 m c) (B9 m c) (B10 m c) (B11 m c) (B12 m c) (B13 m c) (B14 m c)

/-! ## The buffer contents between the pieces -/

abbrev U0 : Valuation τ sig (Elt Ideal) := launchContents m c
abbrev U1 : Valuation τ sig (Elt Ideal) := StableHlo.after ops0 (U0 m c)
abbrev U2 : Valuation τ sig (Elt Ideal) := StableHlo.after ops1 (U1 m c)
abbrev U3 : Valuation τ sig (Elt Ideal) := StableHlo.after ops2 (U2 m c)
abbrev U4 : Valuation τ sig (Elt Ideal) := StableHlo.after ops3 (U3 m c)
abbrev U5 : Valuation τ sig (Elt Ideal) := StableHlo.after ops4 (U4 m c)

/-- The fold over the whole line is the fold over the five pieces in turn. -/
theorem after_ops : StableHlo.after (ops : List (HloOp τ sig (Elt Ideal))) (launchContents m c) = U5 m c := by
  rw [ops_pieces, after_append, after_append, after_append, after_append]

/-- The launch contents hold the arguments as launched. -/
theorem rlaunch : RLaunch m c (U0 m c) where
  a0 := rfl
  a1 := rfl
  a2 := rfl
  a3 := rfl
  a4 := rfl
  a5 := rfl
  a6 := rfl
  a7 := rfl
  a8 := rfl
  a9 := rfl
  a10 := rfl
  a11 := rfl
  a12 := rfl
  a13 := rfl
  a14 := rfl

theorem rkeeps_U1 : RKeeps m c (U1 m c) := rkeeps0 m c (U0 m c) (rlaunch m c)
theorem rkeeps_U2 : RKeeps m c (U2 m c) := rkeeps1 m c (U1 m c) (rkeeps_U1 m c)
theorem rkeeps_U3 : RKeeps m c (U3 m c) := rkeeps2 m c (U2 m c) (rkeeps_U2 m c)
theorem rkeeps_U4 : RKeeps m c (U4 m c) := rkeeps3 m c (U3 m c) (rkeeps_U3 m c)
theorem rkeeps_U5 : RKeeps m c (U5 m c) := rkeeps4 m c (U4 m c) (rkeeps_U4 m c)

/-! ## The layers -/

theorem rfeat1_eq : (U1 m c (Proc.devRef .tc main_v78) : FArr S100000x64) = rfeat1 m c := rout0 m c (U0 m c) (rlaunch m c)
theorem rfeat2_eq : (U2 m c (Proc.devRef .tc main_v153) : FArr S100000x64) = rfeat2 m c :=
  (rout1 m c (U1 m c) (rkeeps_U1 m c)).trans (congrArg (fun h => rstep true 1 h (B1 m c) (B3 m c) (B4 m c) (B5 m c) (B6 m c) (B7 m c) (B8 m c) (B9 m c) (B10 m c) (B11 m c) (B12 m c) (B13 m c) (B14 m c)) (rfeat1_eq m c))
theorem rfeat3_eq : (U3 m c (Proc.devRef .tc main_v228) : FArr S100000x64) = rfeat3 m c :=
  (rout2 m c (U2 m c) (rkeeps_U2 m c)).trans (congrArg (fun h => rstep true 2 h (B1 m c) (B3 m c) (B4 m c) (B5 m c) (B6 m c) (B7 m c) (B8 m c) (B9 m c) (B10 m c) (B11 m c) (B12 m c) (B13 m c) (B14 m c)) (rfeat2_eq m c))
theorem rfeat4_eq : (U4 m c (Proc.devRef .tc main_v302) : FArr S100000x64) = rfeat4 m c :=
  (rout3 m c (U3 m c) (rkeeps_U3 m c)).trans (congrArg (fun h => rstep false 3 h (B1 m c) (B3 m c) (B4 m c) (B5 m c) (B6 m c) (B7 m c) (B8 m c) (B9 m c) (B10 m c) (B11 m c) (B12 m c) (B13 m c) (B14 m c)) (rfeat3_eq m c))

/-! ## The result and the arguments -/

/-- The result buffer's final contents: the network of the specification, of the arguments as launched. -/
theorem ref_result : (StableHlo.after (ops : List (HloOp τ sig (Elt Ideal))) (launchContents m c) (Proc.devRef .tc main_v313) : FArr S512x64)
    = rnet (B0 m c) (B1 m c) (B2 m c) (B3 m c) (B4 m c) (B5 m c) (B6 m c) (B7 m c) (B8 m c) (B9 m c) (B10 m c) (B11 m c) (B12 m c) (B13 m c) (B14 m c) := by
  rw [after_ops]
  exact (rpool m c (U4 m c) (rkeeps_U4 m c)).trans (congrArg (fun h => poolR h (B2 m c)) (rfeat4_eq m c))

theorem ref_arg0 : StableHlo.after (ops : List (HloOp τ sig (Elt Ideal))) (launchContents m c) (Proc.devRef .tc main_arg0) = m ((c : Thread nD τ).loc main_arg0) := by
  rw [after_ops]; exact (rkeeps_U5 m c).a0
theorem ref_arg1 : StableHlo.after (ops : List (HloOp τ sig (Elt Ideal))) (launchContents m c) (Proc.devRef .tc main_arg1) = m ((c : Thread nD τ).loc main_arg1) := by
  rw [after_ops]; exact (rkeeps_U5 m c).a1
theorem ref_arg2 : StableHlo.after (ops : List (HloOp τ sig (Elt Ideal))) (launchContents m c) (Proc.devRef .tc main_arg2) = m ((c : Thread nD τ).loc main_arg2) := by
  rw [after_ops]; exact (rkeeps_U5 m c).a2
theorem ref_arg3 : StableHlo.after (ops : List (HloOp τ sig (Elt Ideal))) (launchContents m c) (Proc.devRef .tc main_arg3) = m ((c : Thread nD τ).loc main_arg3) := by
  rw [after_ops]; exact (rkeeps_U5 m c).a3
theorem ref_arg4 : StableHlo.after (ops : List (HloOp τ sig (Elt Ideal))) (launchContents m c) (Proc.devRef .tc main_arg4) = m ((c : Thread nD τ).loc main_arg4) := by
  rw [after_ops]; exact (rkeeps_U5 m c).a4
theorem ref_arg5 : StableHlo.after (ops : List (HloOp τ sig (Elt Ideal))) (launchContents m c) (Proc.devRef .tc main_arg5) = m ((c : Thread nD τ).loc main_arg5) := by
  rw [after_ops]; exact (rkeeps_U5 m c).a5
theorem ref_arg6 : StableHlo.after (ops : List (HloOp τ sig (Elt Ideal))) (launchContents m c) (Proc.devRef .tc main_arg6) = m ((c : Thread nD τ).loc main_arg6) := by
  rw [after_ops]; exact (rkeeps_U5 m c).a6
theorem ref_arg7 : StableHlo.after (ops : List (HloOp τ sig (Elt Ideal))) (launchContents m c) (Proc.devRef .tc main_arg7) = m ((c : Thread nD τ).loc main_arg7) := by
  rw [after_ops]; exact (rkeeps_U5 m c).a7
theorem ref_arg8 : StableHlo.after (ops : List (HloOp τ sig (Elt Ideal))) (launchContents m c) (Proc.devRef .tc main_arg8) = m ((c : Thread nD τ).loc main_arg8) := by
  rw [after_ops]; exact (rkeeps_U5 m c).a8
theorem ref_arg9 : StableHlo.after (ops : List (HloOp τ sig (Elt Ideal))) (launchContents m c) (Proc.devRef .tc main_arg9) = m ((c : Thread nD τ).loc main_arg9) := by
  rw [after_ops]; exact (rkeeps_U5 m c).a9
theorem ref_arg10 : StableHlo.after (ops : List (HloOp τ sig (Elt Ideal))) (launchContents m c) (Proc.devRef .tc main_arg10) = m ((c : Thread nD τ).loc main_arg10) := by
  rw [after_ops]; exact (rkeeps_U5 m c).a10
theorem ref_arg11 : StableHlo.after (ops : List (HloOp τ sig (Elt Ideal))) (launchContents m c) (Proc.devRef .tc main_arg11) = m ((c : Thread nD τ).loc main_arg11) := by
  rw [after_ops]; exact (rkeeps_U5 m c).a11
theorem ref_arg12 : StableHlo.after (ops : List (HloOp τ sig (Elt Ideal))) (launchContents m c) (Proc.devRef .tc main_arg12) = m ((c : Thread nD τ).loc main_arg12) := by
  rw [after_ops]; exact (rkeeps_U5 m c).a12
theorem ref_arg13 : StableHlo.after (ops : List (HloOp τ sig (Elt Ideal))) (launchContents m c) (Proc.devRef .tc main_arg13) = m ((c : Thread nD τ).loc main_arg13) := by
  rw [after_ops]; exact (rkeeps_U5 m c).a13
theorem ref_arg14 : StableHlo.after (ops : List (HloOp τ sig (Elt Ideal))) (launchContents m c) (Proc.devRef .tc main_arg14) = m ((c : Thread nD τ).loc main_arg14) := by
  rw [after_ops]; exact (rkeeps_U5 m c).a14

/-- Every weakly fair execution of the reference terminates without a fault, with the result buffer at the network
    of the specification of the arguments as launched, and every argument as launched. -/
theorem ref_run : θ_run defs (onTc (τ := τ) (main (F := Ideal))) ⟨m, fun _ => 0, ρ⟩ fun r => ∀ c : Dev nD,
      r.2.mem ((c.tc : Thread nD τ).loc main_v313)
        = rnet (B0 m c) (B1 m c) (B2 m c) (B3 m c) (B4 m c) (B5 m c) (B6 m c) (B7 m c) (B8 m c) (B9 m c) (B10 m c) (B11 m c) (B12 m c) (B13 m c) (B14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v313).trans (ref_result m c),
      (h c main_arg0).trans (ref_arg0 m c),
      (h c main_arg1).trans (ref_arg1 m c),
      (h c main_arg2).trans (ref_arg2 m c),
      (h c main_arg3).trans (ref_arg3 m c),
      (h c main_arg4).trans (ref_arg4 m c),
      (h c main_arg5).trans (ref_arg5 m c),
      (h c main_arg6).trans (ref_arg6 m c),
      (h c main_arg7).trans (ref_arg7 m c),
      (h c main_arg8).trans (ref_arg8 m c),
      (h c main_arg9).trans (ref_arg9 m c),
      (h c main_arg10).trans (ref_arg10 m c),
      (h c main_arg11).trans (ref_arg11 m c),
      (h c main_arg12).trans (ref_arg12 m c),
      (h c main_arg13).trans (ref_arg13 m c),
      (h c main_arg14).trans (ref_arg14 m c)⟩)
    (Cert.ReferenceIdeal.ValueP.run_all (F := Ideal) m ρ)

end Cert.ReferenceIdeal.Hand

end
-- ==== Proof.Bridge.lean ====
/-
  The two programs share their aggregation and their pooling.

  The reference program and the kernel program were printed separately, so the gather, the two scatter-adds,
  the index normalisation and the division appear in each under that program's own names for the same
  shapes and dimension records.  They are the same functions: the records hold the same numbers, and the
  side conditions they carry are propositions.  Hence the network of the specification, built over either
  program's operations, is one function of the arguments.
-/
import proofs.«118457_j65111704207428_1_alg».proof.Proof.KGlue
import proofs.«118457_j65111704207428_1_alg».proof.Proof.RefHost

noncomputable section

namespace Cert.Proof.Bridge

open Idealize.ShloMosaic

theorem src_eq (e : IVec Cert.ReferenceIdeal.S2x1600000 32) : Cert.ReferenceIdeal.Hand.srcR e = Cert.KernelIdeal.Hand.srcK e := rfl
theorem dst_eq (e : IVec Cert.ReferenceIdeal.S2x1600000 32) : Cert.ReferenceIdeal.Hand.dstR e = Cert.KernelIdeal.Hand.dstK e := rfl
theorem agg_eq (h : FVec Ideal Cert.ReferenceIdeal.S100000x64 .f32) (s d : IVec Cert.ReferenceIdeal.S1600000 32) : Cert.ReferenceIdeal.Hand.aggR h s d = Cert.KernelIdeal.Hand.aggK h s d := rfl
theorem pool_eq (h : FVec Ideal Cert.ReferenceIdeal.S100000x64 .f32) (b : IVec Cert.ReferenceIdeal.S100000 32) : Cert.ReferenceIdeal.Hand.poolR h b = Cert.KernelIdeal.Hand.poolK h b := rfl

/-- One layer with its aggregation is the same function over either program's operations. -/
theorem step_eq (relu : Bool) (ℓ : Fin 4) (h : FVec Ideal Cert.ReferenceIdeal.S100000x64 .f32) (e : IVec Cert.ReferenceIdeal.S2x1600000 32) (x3 : FVec Ideal Cert.ReferenceIdeal.S4x64x128 .f32) (x4 x5 x6 x7 x8 : FVec Ideal Cert.ReferenceIdeal.S4x128 .f32) (x9 : FVec Ideal Cert.ReferenceIdeal.S4x128x64 .f32) (x10 x11 x12 x13 x14 : FVec Ideal Cert.ReferenceIdeal.S4x64 .f32) :
    Cert.ReferenceIdeal.Hand.rstep relu ℓ h e x3 x4 x5 x6 x7 x8 x9 x10 x11 x12 x13 x14 = Cert.KernelIdeal.Hand.step relu ℓ h e x3 x4 x5 x6 x7 x8 x9 x10 x11 x12 x13 x14 := by
  unfold Cert.ReferenceIdeal.Hand.rstep Cert.KernelIdeal.Hand.step
  rw [src_eq, dst_eq, agg_eq]

/-- The network is the same function over either program's operations. -/
theorem net_eq (x0 : FVec Ideal Cert.ReferenceIdeal.S100000x64 .f32) (e : IVec Cert.ReferenceIdeal.S2x1600000 32)
    (b : IVec Cert.ReferenceIdeal.S100000 32) (x3 : FVec Ideal Cert.ReferenceIdeal.S4x64x128 .f32) (x4 x5 x6 x7 x8 : FVec Ideal Cert.ReferenceIdeal.S4x128 .f32) (x9 : FVec Ideal Cert.ReferenceIdeal.S4x128x64 .f32) (x10 x11 x12 x13 x14 : FVec Ideal Cert.ReferenceIdeal.S4x64 .f32) :
    Cert.ReferenceIdeal.Hand.rnet x0 e b x3 x4 x5 x6 x7 x8 x9 x10 x11 x12 x13 x14 = Cert.KernelIdeal.Hand.net x0 e b x3 x4 x5 x6 x7 x8 x9 x10 x11 x12 x13 x14 := by
  unfold Cert.ReferenceIdeal.Hand.rnet Cert.KernelIdeal.Hand.net
  rw [step_eq, step_eq, step_eq, step_eq, pool_eq]

end Cert.Proof.Bridge

end
-- ==== Proof.lean ====
/-
  A four-layer graph network with mean pooling: the Pallas program against its jnp reference, over the
  extended reals.

  Each layer adds to every node's features the sum of its in-neighbours' features, applies two affine maps
  with batch normalisation (running statistics) and a rectification after each, the last layer without its
  final rectification; the node features are then averaged per graph.  The kernel program computes the two
  affine maps, the normalisations and the rectifications of a layer in one kernel, 4000 nodes per grid point,
  and leaves the aggregation and the pooling to host operations; the reference does everything with host
  operations on whole arrays.

  At the ideal values a change of float format is the identity and a matrix product is the exact sum over
  the contracted axis, whether computed by the kernel's matrix unit on a block of rows or by the host on the
  whole array.  An output entry of a layer depends only on its own row of the two inputs, so what a grid point
  writes back is its rows of one function of the whole arrays (Proof/Spec.lean), and the 25 row blocks tile the
  100000 rows.  The aggregation and the pooling are the same host operations in both programs and are carried
  as whole functions of the values fed to them.  So both programs end with the same function of their
  arguments (`net`), and no law of the extended reals beyond reordering is needed: the precondition is not used.

  The three frames: the kernel program's two are the generated frame certificates; the reference's is its run
  with the result dropped.  The kernel program's idealization rewrote no operation, so `preserves` is trivial.
-/
import proofs.«118457_j65111704207428_1_alg».proof.Defs
import proofs.«118457_j65111704207428_1_alg».proof.Proof.Gen.Kernel
import proofs.«118457_j65111704207428_1_alg».proof.Proof.Gen.Kernel.Skeleton
import proofs.«118457_j65111704207428_1_alg».proof.Proof.Gen.Kernel.Launch
import proofs.«118457_j65111704207428_1_alg».proof.Proof.Gen.Kernel.Points
import proofs.«118457_j65111704207428_1_alg».proof.Proof.Gen.Kernel.Frame
import proofs.«118457_j65111704207428_1_alg».proof.Proof.Gen.KernelIdeal
import proofs.«118457_j65111704207428_1_alg».proof.Proof.Gen.KernelIdeal.Skeleton
import proofs.«118457_j65111704207428_1_alg».proof.Proof.Gen.KernelIdeal.Launch
import proofs.«118457_j65111704207428_1_alg».proof.Proof.Gen.KernelIdeal.Points
import proofs.«118457_j65111704207428_1_alg».proof.Proof.Gen.KernelIdeal.Frame
import proofs.«118457_j65111704207428_1_alg».proof.Proof.Gen.ReferenceIdeal
import proofs.«118457_j65111704207428_1_alg».proof.Proof.Gen.Pre_finite_inputs
import proofs.«118457_j65111704207428_1_alg».proof.Proof.KRun
import proofs.«118457_j65111704207428_1_alg».proof.Proof.KWalk
import proofs.«118457_j65111704207428_1_alg».proof.Proof.RefWalk
import proofs.«118457_j65111704207428_1_alg».proof.Proof.Bridge
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference runs and its arguments end unchanged: its run, with the result dropped. -/
theorem frame_reference : Cert.frame_ReferenceIdeal :=
  fun m ρ _ => (θ_run Cert.ReferenceIdeal.defs _ _).mono (fun _ h c => (h c).2) (Cert.ReferenceIdeal.Hand.ref_run m ρ)

/-- From memories that agree on the arguments both programs end with the network of the specification of
    those arguments in their result buffers. -/
theorem algebraic : Cert.algebraic_KernelIdeal_ReferenceIdeal := by
  intro m ρ m' ρ' _ hagree
  refine ⟨fun c => Cert.KernelIdeal.Gen.W9 m ρ c (Proc.devRef .tc Cert.KernelIdeal.main_v194),
    Cert.KernelIdeal.Hand.run_result (F := Ideal) m ρ, ?_⟩
  refine (θ_run Cert.ReferenceIdeal.defs _ _).mono (fun _ h c => ⟨(h c).1.trans ?_, (h c).2⟩) (Cert.ReferenceIdeal.Hand.ref_run m' ρ')
  obtain ⟨h0, h1, h2, h3, h4, h5, h6, h7, h8, h9, h10, h11, h12, h13, h14⟩ := hagree c
  have e0 : Cert.ReferenceIdeal.Hand.B0 m' c = Cert.KernelIdeal.Hand.A0 m c := h0
  have e1 : Cert.ReferenceIdeal.Hand.B1 m' c = Cert.KernelIdeal.Hand.A1 m c := h1
  have e2 : Cert.ReferenceIdeal.Hand.B2 m' c = Cert.KernelIdeal.Hand.A2 m c := h2
  have e3 : Cert.ReferenceIdeal.Hand.B3 m' c = Cert.KernelIdeal.Hand.A3 m c := h3
  have e4 : Cert.ReferenceIdeal.Hand.B4 m' c = Cert.KernelIdeal.Hand.A4 m c := h4
  have e5 : Cert.ReferenceIdeal.Hand.B5 m' c = Cert.KernelIdeal.Hand.A5 m c := h5
  have e6 : Cert.ReferenceIdeal.Hand.B6 m' c = Cert.KernelIdeal.Hand.A6 m c := h6
  have e7 : Cert.ReferenceIdeal.Hand.B7 m' c = Cert.KernelIdeal.Hand.A7 m c := h7
  have e8 : Cert.ReferenceIdeal.Hand.B8 m' c = Cert.KernelIdeal.Hand.A8 m c := h8
  have e9 : Cert.ReferenceIdeal.Hand.B9 m' c = Cert.KernelIdeal.Hand.A9 m c := h9
  have e10 : Cert.ReferenceIdeal.Hand.B10 m' c = Cert.KernelIdeal.Hand.A10 m c := h10
  have e11 : Cert.ReferenceIdeal.Hand.B11 m' c = Cert.KernelIdeal.Hand.A11 m c := h11
  have e12 : Cert.ReferenceIdeal.Hand.B12 m' c = Cert.KernelIdeal.Hand.A12 m c := h12
  have e13 : Cert.ReferenceIdeal.Hand.B13 m' c = Cert.KernelIdeal.Hand.A13 m c := h13
  have e14 : Cert.ReferenceIdeal.Hand.B14 m' c = Cert.KernelIdeal.Hand.A14 m c := h14
  refine Eq.trans ?_ (Cert.KernelIdeal.Hand.result_eq m ρ c).symm
  rw [e0, e1, e2, e3, e4, e5, e6, e7, e8, e9, e10, e11, e12, e13, e14]
  exact Bridge.net_eq _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
